-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x2 : Shape := ⟨2, ![50000, 2]⟩
abbrev S2x800000 : Shape := ⟨2, ![2, 800000]⟩
abbrev S2x128 : Shape := ⟨2, ![2, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S194x128 : Shape := ⟨2, ![194, 128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S194x128 : S_.BroadcastsInDim S194x128 (![] : Fin 0 → Fin S194x128.rank)
  reducesTo_S194x128_S_d0_1 : S194x128.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x64 .f32) (main_arg14 : FVec F S64 .f32) (main_arg15 : FVec F S128x128 .f32) (main_arg16 : FVec F S128 .f32) (main_arg17 : FVec F S128x64 .f32) (main_arg18 : FVec F S64 .f32) (main_v48 : IVec S_ 1) (main_v49 : FVec F S194x128 .f32) (main_v50 : FVec F S194x128 .f32) : IVec S_ 1 :=
  let main_v51 : IVec S194x128 1 := cmpf .olt main_v49 main_v50
  let main_c_19 : IVec S_ 1 := constantI S_ 1 1#1
  let main_v52 : IVec S_ 1 := (fun x v => Host.reduce IntOp.andi x v reducesTo_S194x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x64 .f32) (main_arg10 : FVec F S64 .f32) (main_arg11 : FVec F S194x128 .f32) (main_arg12 : FVec F S128 .f32) (main_arg13 : FVec F S128x64 .f32) (main_arg14 : FVec F S64 .f32) (main_arg15 : FVec F S128x128 .f32) (main_arg16 : FVec F S128 .f32) (main_arg17 : FVec F S128x64 .f32) (main_arg18 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S194x128 .f32 := Host.absf main_arg11
  let main_cst_18 : FVec F S_ .f32 := constant S_ .f32 0x7F800000#32
  let main_v50 : FVec F S194x128 .f32 := broadcastInDim S194x128 ![] bcast_S_S194x128 main_cst_18
  fn_part3 (F := F) main_arg12 main_arg13 main_arg14 main_arg15 main_arg16 main_arg17 main_arg18 main_v48 main_v49 main_v50

def fn_part1 {F : FTy → Type} [FloatOps F] (main_arg5 : FVec F S128x64 .f32) (main_arg6 : FVec F S64 .f32) (main_arg7 : FVec F S64x128 .f32) (main_arg8 : FVec F S128 .f32) (main_arg9 : FVec F S128x64 .f32) (main_arg10 : FVec F S64 .f32) (main_arg11 : FVec F S194x128 .f32) (main_arg12 : FVec F S128 .f32) (main_arg13 : FVec F S128x64 .f32) (main_arg14 : FVec F S64 .f32) (main_arg15 : FVec F S128x128 .f32) (main_arg16 : FVec F S128 .f32) (main_arg17 : FVec F S128x64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x64 .f32) (main_arg1 : FVec F S50000x2 .f32) (main_arg2 : IVec S2x800000 32) (main_arg3 : FVec F S2x128 .f32) (main_arg4 : FVec F S128 .f32) (main_arg5 : FVec F S128x64 .f32) (main_arg6 : FVec F S64 .f32) (main_arg7 : FVec F S64x128 .f32) (main_arg8 : FVec F S128 .f32) (main_arg9 : FVec F S128x64 .f32) (main_arg10 : FVec F S64 .f32) (main_arg11 : FVec F S194x128 .f32) (main_arg12 : FVec F S128 .f32) (main_arg13 : FVec F S128x64 .f32) (main_arg14 : FVec F S64 .f32) (main_arg15 : FVec F S128x128 .f32) (main_arg16 : FVec F S128 .f32) (main_arg17 : FVec F S128x64 .f32) (main_arg18 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x2 .f32 := Host.absf main_arg1
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S50000x2 : Shape := ⟨2, ![50000, 2]⟩
abbrev S2x800000 : Shape := ⟨2, ![2, 800000]⟩
abbrev S2x128 : Shape := ⟨2, ![2, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S194x128 : Shape := ⟨2, ![194, 128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x2 : Shape := ⟨2, ![800000, 2]⟩
abbrev S1x128 : Shape := ⟨2, ![1, 128]⟩
abbrev S1x64 : Shape := ⟨2, ![1, 64]⟩
abbrev S800000x64 : Shape := ⟨2, ![800000, 64]⟩
abbrev S2x6400 : Shape := ⟨2, ![2, 6400]⟩
abbrev S6400x64 : Shape := ⟨2, ![6400, 64]⟩
abbrev S6400x128 : Shape := ⟨2, ![6400, 128]⟩
abbrev S50000x1 : Shape := ⟨2, ![50000, 1]⟩
abbrev S10000x64 : Shape := ⟨2, ![10000, 64]⟩
abbrev S10000x128 : Shape := ⟨2, ![10000, 128]⟩
abbrev S800000x194 : Shape := ⟨2, ![800000, 194]⟩
abbrev S6400x194 : Shape := ⟨2, ![6400, 194]⟩
abbrev S50000x128 : Shape := ⟨2, ![50000, 128]⟩

abbrev nBuf : Space → Nat
  | .hbm => 120
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S50000x2, .f32⟩
  | .hbm, ⟨2, _⟩ => ⟨S2x800000, .i32⟩
  | .hbm, ⟨3, _⟩ => ⟨S2x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S194x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x2, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x2, .f32⟩
  | .hbm, ⟨47, _⟩ => ⟨S800000x2, .f32⟩
  | .hbm, ⟨48, _⟩ => ⟨S2x800000, .f32⟩
  | .hbm, ⟨49, _⟩ => ⟨S1x128, .f32⟩
  | .hbm, ⟨50, _⟩ => ⟨S1x64, .f32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x64, .f32⟩
  | .hbm, ⟨61, _⟩ => ⟨S50000x64, .f32⟩
  | .hbm, ⟨62, _⟩ => ⟨S1x128, .f32⟩
  | .hbm, ⟨63, _⟩ => ⟨S1x64, .f32⟩
  | .hbm, ⟨64, _⟩ => ⟨S50000x64, .f32⟩
  | .hbm, ⟨65, _⟩ => ⟨S64x128, .f32⟩
  | .hbm, ⟨66, _⟩ => ⟨S64x128, .f32⟩
  | .hbm, ⟨67, _⟩ => ⟨S2x128, .f32⟩
  | .hbm, ⟨68, _⟩ => ⟨S64x128, .f32⟩
  | .hbm, ⟨69, _⟩ => ⟨S64x128, .f32⟩
  | .hbm, ⟨70, _⟩ => ⟨S194x128, .f32⟩
  | .hbm, ⟨71, _⟩ => ⟨S50000x64, .bf16⟩
  | .hbm, ⟨72, _⟩ => ⟨S50000x64, .bf16⟩
  | .hbm, ⟨73, _⟩ => ⟨S800000x2, .bf16⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .bf16⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x64, .bf16⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x64, .bf16⟩
  | .hbm, ⟨101, _⟩ => ⟨S800000x194, .bf16⟩
  | .hbm, ⟨102, _⟩ => ⟨S1x128, .f32⟩
  | .hbm, ⟨103, _⟩ => ⟨S1x64, .f32⟩
  | .hbm, ⟨104, _⟩ => ⟨S800000x64, .f32⟩
  | .hbm, ⟨105, _⟩ => ⟨S_, .f32⟩
  | .hbm, ⟨106, _⟩ => ⟨S50000x64, .f32⟩
  | .hbm, ⟨107, _⟩ => ⟨S800000x1, .i32⟩
  | .hbm, ⟨108, _⟩ => ⟨S50000x64, .f32⟩
  | .hbm, ⟨109, _⟩ => ⟨S_, .f32⟩
  | .hbm, ⟨110, _⟩ => ⟨S50000, .f32⟩
  | .hbm, ⟨111, _⟩ => ⟨S50000, .f32⟩
  | .hbm, ⟨112, _⟩ => ⟨S50000x1, .f32⟩
  | .hbm, ⟨113, _⟩ => ⟨S50000x64, .f32⟩
  | .hbm, ⟨114, _⟩ => ⟨S50000x64, .f32⟩
  | .hbm, ⟨115, _⟩ => ⟨S50000x64, .bf16⟩
  | .hbm, ⟨116, _⟩ => ⟨S50000x128, .bf16⟩
  | .hbm, ⟨117, _⟩ => ⟨S1x128, .f32⟩
  | .hbm, ⟨118, _⟩ => ⟨S1x64, .f32⟩
  | .hbm, ⟨119, _⟩ => ⟨S50000x64, .f32⟩
  | .local _ .vmem, ⟨0, _⟩ => ⟨S2x6400, .f32⟩
  | .local _ .vmem, ⟨1, _⟩ => ⟨S2x6400, .f32⟩
  | .local _ .vmem, ⟨2, _⟩ => ⟨S2x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S6400x64, .f32⟩
  | .local _ .vmem, ⟨7, _⟩ => ⟨S6400x64, .f32⟩
  | .local _ .vmem, ⟨8, _⟩ => ⟨S10000x64, .f32⟩
  | .local _ .vmem, ⟨9, _⟩ => ⟨S10000x64, .f32⟩
  | .local _ .vmem, ⟨10, _⟩ => ⟨S64x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S6400x194, .bf16⟩
  | .local _ .vmem, ⟨17, _⟩ => ⟨S6400x194, .bf16⟩
  | .local _ .vmem, ⟨18, _⟩ => ⟨S194x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S6400x64, .f32⟩
  | .local _ .vmem, ⟨23, _⟩ => ⟨S6400x64, .f32⟩
  | .local _ .vmem, ⟨24, _⟩ => ⟨S10000x128, .bf16⟩
  | .local _ .vmem, ⟨25, _⟩ => ⟨S10000x128, .bf16⟩
  | .local _ .vmem, ⟨26, _⟩ => ⟨S128x128, .f32⟩
  | .local _ .vmem, ⟨27, _⟩ => ⟨S1x128, .f32⟩
  | .local _ .vmem, ⟨28, _⟩ => ⟨S128x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_6 : Ref sig .tc := ⟨.hbm, 74, rfl⟩
abbrev main_v47 : Ref sig .tc := ⟨.hbm, 75, rfl⟩
abbrev main_v48 : Ref sig .tc := ⟨.hbm, 76, rfl⟩
abbrev main_c_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_8 : Ref sig .tc := ⟨.hbm, 83, rfl⟩
abbrev main_v54 : Ref sig .tc := ⟨.hbm, 84, rfl⟩
abbrev main_v55 : Ref sig .tc := ⟨.hbm, 85, rfl⟩
abbrev main_c_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_10 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x194 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S194x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S800000x2_S2x800000_1_0 : S800000x2.Transposes [1, 0] S2x800000
  shapeCasts_S128_S1x128 : S128.ShapeCasts S1x128
  shapeCasts_S64_S1x64 : S64.ShapeCasts S1x64
  inb_S2x6400_S2x6400_0_0 : ∀ a, (![0, 0] : Fin 2 → Nat) a + S2x6400.size a ≤ S2x6400.size a
  h_S2x6400 : 0 < S2x6400.numel
  shapeCasts_S2x6400_S2x6400 : S2x6400.ShapeCasts S2x6400
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S6400x64_S6400x64_0_0 : ∀ a, (![0, 0] : Fin 2 → Nat) a + S6400x64.size a ≤ S6400x64.size a
  h_S6400x64 : 0 < S6400x64.numel
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  broadcasts_S1x128_S10000x128 : S1x128.Broadcasts S10000x128
  broadcasts_S1x64_S10000x64 : S1x64.Broadcasts S10000x64
  slices_S194x128_S64x128_0_0 : S194x128.Slices ![0, 0] S64x128
  slices_S194x128_S64x128_64_0 : S194x128.Slices ![64, 0] S64x128
  slices_S194x128_S2x128_128_0 : S194x128.Slices ![128, 0] S2x128
  slices_S194x128_S64x128_130_0 : S194x128.Slices ![130, 0] S64x128
  concatenates_S64x128_S64x128_S2x128_S64x128_S194x128_d0 : Shape.Concatenates [S64x128, S64x128, S2x128, S64x128] S194x128 0
  concatenates_S800000x64_S800000x64_S800000x2_S800000x64_S800000x194_d1 : Shape.Concatenates [S800000x64, S800000x64, S800000x2, S800000x64] S800000x194 1
  inb_S6400x194_S6400x194_0_0 : ∀ a, (![0, 0] : Fin 2 → Nat) a + S6400x194.size a ≤ S6400x194.size a
  h_S6400x194 : 0 < S6400x194.numel
  shapeCasts_S6400x194_S6400x194 : S6400x194.ShapeCasts S6400x194
  inb_S194x128_S194x128_0_0 : ∀ a, (![0, 0] : Fin 2 → Nat) a + S194x128.size a ≤ S194x128.size a
  h_S194x128 : 0 < S194x128.numel
  shapeCasts_S194x128_S194x128 : S194x128.ShapeCasts S194x128
  concatenates_S50000x64_S50000x64_S50000x128_d1 : Shape.Concatenates [S50000x64, S50000x64] S50000x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  scatter_S50000_S800000x1_S800000_n_0_0_1_wf : ScatterDims.WF S50000 S800000x1 S800000 [] [0] [0] 1
  gather_S50000x2_S800000x1_S800000x2_1_0_n_n_0_1_12_wf : GatherDims.WF S50000x2 S800000x1 S800000x2 [1] [0] [] [0] [] 1 ![1, 2]
  dot_S2x6400_S2x128_S6400x128_0_0_1_1_n_n_wf : DotDims.WF S2x6400 S2x128 S6400x128 [0] [0] [1] [1] [] []
  dot_S6400x128_S128x64_S6400x64_1_0_0_1_n_n_wf : DotDims.WF S6400x128 S128x64 S6400x64 [1] [0] [0] [1] [] []
  scatter_S50000x64_S800000x1_S800000x64_1_0_0_1_wf : ScatterDims.WF S50000x64 S800000x1 S800000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  dot_S6400x194_S194x128_S6400x128_1_0_0_1_n_n_wf : DotDims.WF S6400x194 S194x128 S6400x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x6400.size a ≤ S2x800000.size a
  hwx0_0 : ∀ i : grid0.Coords, EltTy.bits .f32 = 32 ∨ (Rect.block (s := S2x800000) S2x6400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S800000x64.size a
  hwx0_5 : ∀ i : grid0.Coords, EltTy.bits .f32 = 32 ∨ (Rect.block (s := S800000x64) S6400x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x194.size a ≤ S800000x194.size a
  hwx2_0 : ∀ i : grid2.Coords, EltTy.bits .bf16 = 32 ∨ (Rect.block (s := S800000x194) S6400x194.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S194x128.size a ≤ S194x128.size a
  hwx2_1 : ∀ i : grid2.Coords, EltTy.bits .f32 = 32 ∨ (Rect.block (s := S194x128) S194x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x64.size a ≤ S800000x64.size a
  hwx2_5 : ∀ i : grid2.Coords, EltTy.bits .f32 = 32 ∨ (Rect.block (s := S800000x64) S6400x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .bf16 = 32 ∨ (Rect.block (s := S50000x128) S10000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def dot_S2x6400_S2x128_S6400x128_0_0_1_1_n_n : DotDims S2x6400 S2x128 S6400x128 where
  lhsContracting := [0]
  rhsContracting := [0]
  lhsNonContracting := [1]
  rhsNonContracting := [1]
  lhsBatch := []
  rhsBatch := []
  wf := dot_S2x6400_S2x128_S6400x128_0_0_1_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x194_S194x128_S6400x128_1_0_0_1_n_n : DotDims S6400x194 S194x128 S6400x128 where
  lhsContracting := [1]
  rhsContracting := [0]
  lhsNonContracting := [0]
  rhsNonContracting := [1]
  lhsBatch := []
  rhsBatch := []
  wf := dot_S6400x194_S194x128_S6400x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v23) S2x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S6400x194.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S194x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S6400x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v84) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S50000x2 : Shape := ⟨2, ![50000, 2]⟩
abbrev S2x800000 : Shape := ⟨2, ![2, 800000]⟩
abbrev S2x128 : Shape := ⟨2, ![2, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S194x128 : Shape := ⟨2, ![194, 128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S800000x128 : Shape := ⟨2, ![800000, 128]⟩
abbrev S1x128 : Shape := ⟨2, ![1, 128]⟩
abbrev S800000x64 : Shape := ⟨2, ![800000, 64]⟩
abbrev S1x64 : Shape := ⟨2, ![1, 64]⟩
abbrev S50000 : Shape := ⟨1, ![50000]⟩
abbrev S50000x1 : Shape := ⟨2, ![50000, 1]⟩
abbrev S50000x128 : Shape := ⟨2, ![50000, 128]⟩
abbrev S800000x194 : Shape := ⟨2, ![800000, 194]⟩

abbrev nBuf : Space → Nat
  | .hbm => 148
  | .vmem => 0
  | .smem => 0
  | _ => 0

abbrev hbmTy0_0 (i : Nat) : BufTy := match i % 128 with
  | 0 => ⟨S50000x64, .f32⟩
  | 1 => ⟨S50000x2, .f32⟩
  | 2 => ⟨S2x800000, .i32⟩
  | 3 => ⟨S2x128, .f32⟩
  | 4 => ⟨S128, .f32⟩
  | 5 => ⟨S128x64, .f32⟩
  | 6 => ⟨S64, .f32⟩
  | 7 => ⟨S64x128, .f32⟩
  | 8 => ⟨S128, .f32⟩
  | 9 => ⟨S128x64, .f32⟩
  | 10 => ⟨S64, .f32⟩
  | 11 => ⟨S194x128, .f32⟩
  | 12 => ⟨S128, .f32⟩
  | 13 => ⟨S128x64, .f32⟩
  | 14 => ⟨S64, .f32⟩
  | 15 => ⟨S128x128, .f32⟩
  | 16 => ⟨S128, .f32⟩
  | 17 => ⟨S128x64, .f32⟩
  | 18 => ⟨S64, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x2, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x2, .f32⟩
  | 41 => ⟨S800000x2, .f32⟩
  | 42 => ⟨S800000x128, .f32⟩
  | 43 => ⟨S1x128, .f32⟩
  | 44 => ⟨S800000x128, .f32⟩
  | 45 => ⟨S800000x128, .f32⟩
  | 46 => ⟨S_, .f32⟩
  | 47 => ⟨S800000x128, .f32⟩
  | 48 => ⟨S800000x128, .f32⟩
  | 49 => ⟨S800000x64, .f32⟩
  | 50 => ⟨S1x64, .f32⟩
  | 51 => ⟨S800000x64, .f32⟩
  | 52 => ⟨S800000x64, .f32⟩
  | 53 => ⟨S_, .f32⟩
  | 54 => ⟨S50000x64, .f32⟩
  | 55 => ⟨S800000x1, .i32⟩
  | 56 => ⟨S50000x64, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S50000, .f32⟩
  | 65 => ⟨S50000, .f32⟩
  | 66 => ⟨S50000x1, .f32⟩
  | 67 => ⟨S50000x64, .f32⟩
  | 68 => ⟨S50000x64, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x64, .f32⟩
  | 77 => ⟨S1x64, .f32⟩
  | 78 => ⟨S50000x64, .f32⟩
  | 79 => ⟨S50000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S800000x64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S800000x194, .f32⟩
  | 109 => ⟨S800000x128, .f32⟩
  | 110 => ⟨S1x128, .f32⟩
  | 111 => ⟨S800000x128, .f32⟩
  | 112 => ⟨S800000x128, .f32⟩
  | 113 => ⟨S_, .f32⟩
  | 114 => ⟨S800000x128, .f32⟩
  | 115 => ⟨S800000x128, .f32⟩
  | 116 => ⟨S800000x64, .f32⟩
  | 117 => ⟨S1x64, .f32⟩
  | 118 => ⟨S800000x64, .f32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S_, .f32⟩
  | 125 => ⟨S800000, .f32⟩
  | 126 => ⟨S_, .f32⟩
  | 127 => ⟨S50000, .f32⟩
  | _ => ⟨S50000x64, .f32⟩

abbrev hbmTy0_1 (i : Nat) : BufTy := match i % 128 with
  | 0 => ⟨S800000x1, .i32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x64, .f32⟩
  | 7 => ⟨S50000x64, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x64, .f32⟩
  | 17 => ⟨S1x64, .f32⟩
  | 18 => ⟨S50000x64, .f32⟩
  | 19 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_8 : Ref sig .tc := ⟨.hbm, 80, rfl⟩
abbrev main_v51 : Ref sig .tc := ⟨.hbm, 81, rfl⟩
abbrev main_v52 : Ref sig .tc := ⟨.hbm, 82, rfl⟩
abbrev main_c_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_10 : Ref sig .tc := ⟨.hbm, 89, rfl⟩
abbrev main_v58 : Ref sig .tc := ⟨.hbm, 90, rfl⟩
abbrev main_v59 : Ref sig .tc := ⟨.hbm, 91, rfl⟩
abbrev main_c_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_14 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_19 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  concatenates_S800000x64_S800000x64_S800000x2_S800000x64_S800000x194_d1 : Shape.Concatenates [S800000x64, S800000x64, S800000x2, S800000x64] S800000x194 1
  concatenates_S50000x64_S50000x64_S50000x128_d1 : Shape.Concatenates [S50000x64, S50000x64] S50000x128 1
  gather_S50000x2_S800000x1_S800000x2_1_0_n_n_0_1_12_wf : GatherDims.WF S50000x2 S800000x1 S800000x2 [1] [0] [] [0] [] 1 ![1, 2]
  dot_S800000x2_S2x128_S800000x128_1_0_0_1_n_n_wf : DotDims.WF S800000x2 S2x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x194_S194x128_S800000x128_1_0_0_1_n_n_wf : DotDims.WF S800000x194 S194x128 S800000x128 [1] [0] [0] [1] [] []
  dot_S50000x128_S128x128_S50000x128_1_0_0_1_n_n_wf : DotDims.WF S50000x128 S128x128 S50000x128 [1] [0] [0] [1] [] []

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def dot_S800000x2_S2x128_S800000x128_1_0_0_1_n_n : DotDims S800000x2 S2x128 S800000x128 where
  lhsContracting := [1]
  rhsContracting := [0]
  lhsNonContracting := [0]
  rhsNonContracting := [1]
  lhsBatch := []
  rhsBatch := []
  wf := dot_S800000x2_S2x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x194_S194x128_S800000x128_1_0_0_1_n_n : DotDims S800000x194 S194x128 S800000x128 where
  lhsContracting := [1]
  rhsContracting := [0]
  lhsNonContracting := [0]
  rhsNonContracting := [1]
  lhsBatch := []
  rhsBatch := []
  wf := dot_S800000x194_S194x128_S800000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Data.lean ====
/-
  What each of the four pipelined regions holds, as data: a window's block at a grid point read off the array the
  region finds; the buffer the body leaves in the output window — its single whole-block store of the payload of the
  five whole-block loads —; and the pipeline's proof data built from them (the arrays as the region finds them, each
  input window's buffer at its block, the output window's at the body's result, nothing owed, full shares).
  Stated at a parameter `V`, the contents of the core's buffers when the region is entered.
-/
import proofs.«160275_j16484084483095_2_alg».proof.Proof.Gen.Kernel.Launch
import proofs.«160275_j16484084483095_2_alg».proof.Proof.Gen.Kernel.Skeleton
import proofs.«160275_j16484084483095_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2x6400 := Rect.unit (s := S2x6400) ![0, 0] S2x6400.size inb_S2x6400_S2x6400_0_0
abbrev r0_1 : Rect S2x128 := Rect.unit (s := S2x128) ![0, 0] S2x128.size inb_S2x128_S2x128_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S1x64 := Rect.unit (s := S1x64) ![0, 0] S1x64.size inb_S1x64_S1x64_0_0
abbrev r0_5 : Rect S6400x64 := Rect.unit (s := S6400x64) ![0, 0] S6400x64.size inb_S6400x64_S6400x64_0_0

/-- The output window's buffer after the body: one store of the whole block, of the payload of the five loads. -/
def out0_5 (x0 : Vec F S2x6400 .f32) (x1 : Vec F S2x128 .f32) (x2 : Vec F S1x128 .f32) (x3 : Vec F S128x64 .f32) (x4 : Vec F S1x64 .f32) : Vec F S6400x64 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S6400x64 .f32) (y : S6400x64.Idx) :
    ∃ pc ∈ ([⟨r0_5, p0⟩] : List (View.Piece (Elt F) S6400x64 .f32)), y ∈ pc.1.set :=
  View.cover_of_tiled [⟨r0_5, p0⟩] S6400x64.size (by rfl) y

/-- The pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0
abbrev r1_1 : Rect S64x128 := Rect.unit (s := S64x128) ![0, 0] S64x128.size inb_S64x128_S64x128_0_0
abbrev r1_2 : Rect S1x128 := Rect.unit (s := S1x128) ![0, 0] S1x128.size inb_S1x128_S1x128_0_0
abbrev r1_3 : Rect S128x64 := Rect.unit (s := S128x64) ![0, 0] S128x64.size inb_S128x64_S128x64_0_0
abbrev r1_4 : Rect S1x64 := Rect.unit (s := S1x64) ![0, 0] S1x64.size inb_S1x64_S1x64_0_0
abbrev r1_5 : Rect S10000x64 := Rect.unit (s := S10000x64) ![0, 0] S10000x64.size inb_S10000x64_S10000x64_0_0

/-- The output window's buffer after the body: one store of the whole block, of the payload of the five loads. -/
def out1_5 (x0 : Vec F S10000x64 .f32) (x1 : Vec F S64x128 .f32) (x2 : Vec F S1x128 .f32) (x3 : Vec F S128x64 .f32) (x4 : Vec F S1x64 .f32) : Vec F S10000x64 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S10000x64 .f32) (y : S10000x64.Idx) :
    ∃ pc ∈ ([⟨r1_5, p0⟩] : List (View.Piece (Elt F) S10000x64 .f32)), y ∈ pc.1.set :=
  View.cover_of_tiled [⟨r1_5, p0⟩] S10000x64.size (by rfl) y

/-- The pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## Region 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S6400x194 := Rect.unit (s := S6400x194) ![0, 0] S6400x194.size inb_S6400x194_S6400x194_0_0
abbrev r2_1 : Rect S194x128 := Rect.unit (s := S194x128) ![0, 0] S194x128.size inb_S194x128_S194x128_0_0
abbrev r2_2 : Rect S1x128 := Rect.unit (s := S1x128) ![0, 0] S1x128.size inb_S1x128_S1x128_0_0
abbrev r2_3 : Rect S128x64 := Rect.unit (s := S128x64) ![0, 0] S128x64.size inb_S128x64_S128x64_0_0
abbrev r2_4 : Rect S1x64 := Rect.unit (s := S1x64) ![0, 0] S1x64.size inb_S1x64_S1x64_0_0
abbrev r2_5 : Rect S6400x64 := Rect.unit (s := S6400x64) ![0, 0] S6400x64.size inb_S6400x64_S6400x64_0_0

/-- The output window's buffer after the body: one store of the whole block, of the payload of the five loads. -/
def out2_5 (x0 : Vec F S6400x194 .bf16) (x1 : Vec F S194x128 .f32) (x2 : Vec F S1x128 .f32) (x3 : Vec F S128x64 .f32) (x4 : Vec F S1x64 .f32) : Vec F S6400x64 .f32 :=
  View.canon [⟨r2_5, k2_pay1 (View.ld x0 r2_0) (View.ld x1 r2_1) (View.ld x2 r2_2) (View.ld x3 r2_3) (View.ld x4 r2_4)⟩]

/-- The one store covers the buffer. -/
theorem cover2_5 (p0 : Vec F S6400x64 .f32) (y : S6400x64.Idx) :
    ∃ pc ∈ ([⟨r2_5, p0⟩] : List (View.Piece (Elt F) S6400x64 .f32)), y ∈ pc.1.set :=
  View.cover_of_tiled [⟨r2_5, p0⟩] S6400x64.size (by rfl) y

/-- The pipeline's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## Region 3 -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x128 := Rect.unit (s := S10000x128) ![0, 0] S10000x128.size inb_S10000x128_S10000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0
abbrev r3_3 : Rect S128x64 := Rect.unit (s := S128x64) ![0, 0] S128x64.size inb_S128x64_S128x64_0_0
abbrev r3_4 : Rect S1x64 := Rect.unit (s := S1x64) ![0, 0] S1x64.size inb_S1x64_S1x64_0_0
abbrev r3_5 : Rect S10000x64 := Rect.unit (s := S10000x64) ![0, 0] S10000x64.size inb_S10000x64_S10000x64_0_0

/-- The output window's buffer after the body: one store of the whole block, of the payload of the five loads. -/
def out3_5 (x0 : Vec F S10000x128 .bf16) (x1 : Vec F S128x128 .f32) (x2 : Vec F S1x128 .f32) (x3 : Vec F S128x64 .f32) (x4 : Vec F S1x64 .f32) : Vec F S10000x64 .f32 :=
  View.canon [⟨r3_5, k3_pay1 (View.ld x0 r3_0) (View.ld x1 r3_1) (View.ld x2 r3_2) (View.ld x3 r3_3) (View.ld x4 r3_4)⟩]

/-- The one store covers the buffer. -/
theorem cover3_5 (p0 : Vec F S10000x64 .f32) (y : S10000x64.Idx) :
    ∃ pc ∈ ([⟨r3_5, p0⟩] : List (View.Piece (Elt F) S10000x64 .f32)), y ∈ pc.1.set :=
  View.cover_of_tiled [⟨r3_5, p0⟩] S10000x64.size (by rfl) y

/-- The pipeline's proof data on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

end Cert.Kernel.Hand

end
-- ==== Proof.K.Body0.lean ====
/-
  Region 0's kernel body against its proof data. Every input window's current staging buffer holds that window's
  block at every grid point, whether or not the pipeline fetched it there (an unfetched window's block index has not
  moved). The body, run on whole staging buffers holding those blocks and on an output buffer of any contents, leaves
  the inputs in place and the output buffer at its single whole-block store. Hence the pipeline's body obligation.
-/
import proofs.«160275_j16484084483095_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current staging buffer holds its block at every point, fetched there or not, for any proof data
    whose array is the region-entry contents and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the region-entry contents and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the region-entry contents and whose body leaves the block in place: the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body's triple -/

set_option maxHeartbeats 1000000 in
/-- The kernel body on whole staging memrefs, the inputs' at contents `x0 … x4` and the output's at any contents, runs to
    the continuation holding the inputs' as they were and the output's at `out0_5` of the inputs': five whole-block loads,
    a load of the output buffer whose value is not used, and one whole-block store of the payload. -/
theorem sound_kernel0 (c : Dev nD) (E : Set ℕ) (i : grid0.Coords)
    (arg1 : Memref sig .tc .vmem S2x6400 .f32) (harg1 : arg1.IsWhole)
    (arg2 : Memref sig .tc .vmem S2x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S6400x64 .f32) (harg6 : arg6.IsWhole)
    (x0 : Vec F S2x6400 .f32) (x1 : Vec F S2x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_pdT_kernel i arg1 harg1 arg2 harg2 arg3 harg3 arg4 harg4 arg5 harg5 arg6 harg6) K := by
  simp only [cc0__mlp_pdT_kernel_eq_skeleton]; unfold cc0__mlp_pdT_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1's kernel body against its proof data. Every input window's current staging buffer holds that window's
  block at every grid point, whether or not the pipeline fetched it there (an unfetched window's block index has not
  moved). The body, run on whole staging buffers holding those blocks and on an output buffer of any contents, leaves
  the inputs in place and the output buffer at its single whole-block store. Hence the pipeline's body obligation.
-/
import proofs.«160275_j16484084483095_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current staging buffer holds its block at every point, fetched there or not, for any proof data
    whose array is the region-entry contents and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the region-entry contents and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the region-entry contents and whose body leaves the block in place: the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's triple -/

set_option maxHeartbeats 1000000 in
/-- The kernel body on whole staging memrefs, the inputs' at contents `x0 … x4` and the output's at any contents, runs to
    the continuation holding the inputs' as they were and the output's at `out1_5` of the inputs': five whole-block loads,
    a load of the output buffer whose value is not used, and one whole-block store of the payload. -/
theorem sound_kernel1 (c : Dev nD) (E : Set ℕ) (i : grid1.Coords)
    (arg1 : Memref sig .tc .vmem S10000x64 .f32) (harg1 : arg1.IsWhole)
    (arg2 : Memref sig .tc .vmem S64x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S10000x64 .f32) (harg6 : arg6.IsWhole)
    (x0 : Vec F S10000x64 .f32) (x1 : Vec F S64x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple above applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2's kernel body against its proof data. Every input window's current staging buffer holds that window's
  block at every grid point, whether or not the pipeline fetched it there (an unfetched window's block index has not
  moved). The body, run on whole staging buffers holding those blocks and on an output buffer of any contents, leaves
  the inputs in place and the output buffer at its single whole-block store. Hence the pipeline's body obligation.
-/
import proofs.«160275_j16484084483095_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current staging buffer holds its block at every point, fetched there or not, for any proof data
    whose array is the region-entry contents and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the region-entry contents and whose body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the region-entry contents and whose body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the region-entry contents and whose body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the region-entry contents and whose body leaves the block in place: the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's triple -/

set_option maxHeartbeats 1000000 in
/-- The kernel body on whole staging memrefs, the inputs' at contents `x0 … x4` and the output's at any contents, runs to
    the continuation holding the inputs' as they were and the output's at `out2_5` of the inputs': five whole-block loads,
    a load of the output buffer whose value is not used, and one whole-block store of the payload. -/
theorem sound_kernel2 (c : Dev nD) (E : Set ℕ) (i : grid2.Coords)
    (arg1 : Memref sig .tc .vmem S6400x194 .bf16) (harg1 : arg1.IsWhole)
    (arg2 : Memref sig .tc .vmem S194x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S6400x64 .f32) (harg6 : arg6.IsWhole)
    (x0 : Vec F S6400x194 .bf16) (x1 : Vec F S194x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/-
  Region 3's kernel body against its proof data. Every input window's current staging buffer holds that window's
  block at every grid point, whether or not the pipeline fetched it there (an unfetched window's block index has not
  moved). The body, run on whole staging buffers holding those blocks and on an output buffer of any contents, leaves
  the inputs in place and the output buffer at its single whole-block store. Hence the pipeline's body obligation.
-/
import proofs.«160275_j16484084483095_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current staging buffer holds its block at every point, fetched there or not, for any proof data
    whose array is the region-entry contents and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the region-entry contents and whose body leaves the block in place: the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the region-entry contents and whose body leaves the block in place: the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the region-entry contents and whose body leaves the block in place: the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is the region-entry contents and whose body leaves the block in place: the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body's triple -/

set_option maxHeartbeats 1000000 in
/-- The kernel body on whole staging memrefs, the inputs' at contents `x0 … x4` and the output's at any contents, runs to
    the continuation holding the inputs' as they were and the output's at `out3_5` of the inputs': five whole-block loads,
    a load of the output buffer whose value is not used, and one whole-block store of the payload. -/
theorem sound_kernel3 (c : Dev nD) (E : Set ℕ) (i : grid3.Coords)
    (arg1 : Memref sig .tc .vmem S10000x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S10000x64 .f32) (harg6 : arg6.IsWhole)
    (x0 : Vec F S10000x128 .bf16) (x1 : Vec F S128x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the triple above applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The run of the program's four pipelined regions among its host stretches.

  What a region leaves in its output array is the fold of its pipeline's write-backs over the contents the region
  finds there. These contents are defined stage by stage from the launch memory — a host stretch's operations applied
  to the stage before, then the region's output array replaced by its fold — so that no stage refers to a later one,
  and the family `outs` of what the regions leave is read off the stages. Each region is then a segment entered from
  every unscoped buffer at one stage's contents and left at the next, beside the core's generator register and its
  dues, at nothing. The launch gives termination, and every final memory holds the last region's output array at the
  last stage's contents and every argument array as launched.
-/
import proofs.«160275_j16484084483095_2_alg».proof.Proof.K.Body0
import proofs.«160275_j16484084483095_2_alg».proof.Proof.K.Body1
import proofs.«160275_j16484084483095_2_alg».proof.Proof.K.Body2
import proofs.«160275_j16484084483095_2_alg».proof.Proof.K.Body3
import proofs.«160275_j16484084483095_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents, stage by stage -/

/-- What region 0 leaves in its output array: its write-backs folded over the contents it finds. -/
def X2 (c : Dev nD) : Buf (Elt F) ((c : Thread nD τ).loc main_v26) :=
  (dat0 (fun c b => Gen.V1 m c b) c).arrAt 5 cfg0.N
/-- Core `c`'s unscoped buffers after region 0. -/
def U2 (c : Dev nD) : Valuation τ sig (Elt F) := Function.update (Gen.V1 m c) main_v26 (X2 m c)
/-- After the host stretch that follows it, -/
def U3 (c : Dev nD) : Valuation τ sig (Elt F) := StableHlo.after hostOps1 (U2 m c)
/-- and the same read at the core's references. -/
abbrev S3 : (c : Dev nD) → (b : Ref sig .tc) → Buf (Elt F) ((c : Thread nD τ).loc b) := fun c b => U3 m c b
/-- What region 1 leaves in its output array. -/
def X4 (c : Dev nD) : Buf (Elt F) ((c : Thread nD τ).loc main_v37) := (dat1 (S3 m) c).arrAt 5 cfg1.N
/-- Core `c`'s unscoped buffers after region 1. -/
def U4 (c : Dev nD) : Valuation τ sig (Elt F) := Function.update (U3 m c) main_v37 (X4 m c)
/-- After the host stretch that follows it, -/
def U5 (c : Dev nD) : Valuation τ sig (Elt F) := StableHlo.after hostOps2 (U4 m c)
/-- and the same read at the core's references. -/
abbrev S5 : (c : Dev nD) → (b : Ref sig .tc) → Buf (Elt F) ((c : Thread nD τ).loc b) := fun c b => U5 m c b
/-- What region 2 leaves in its output array. -/
def X6 (c : Dev nD) : Buf (Elt F) ((c : Thread nD τ).loc main_v71) := (dat2 (S5 m) c).arrAt 5 cfg2.N
/-- Core `c`'s unscoped buffers after region 2. -/
def U6 (c : Dev nD) : Valuation τ sig (Elt F) := Function.update (U5 m c) main_v71 (X6 m c)
/-- After the host stretch that follows it, -/
def U7 (c : Dev nD) : Valuation τ sig (Elt F) := StableHlo.after hostOps3 (U6 m c)
/-- and the same read at the core's references. -/
abbrev S7 : (c : Dev nD) → (b : Ref sig .tc) → Buf (Elt F) ((c : Thread nD τ).loc b) := fun c b => U7 m c b
/-- What region 3 leaves in its output array. -/
def X8 (c : Dev nD) : Buf (Elt F) ((c : Thread nD τ).loc main_v84) := (dat3 (S7 m) c).arrAt 5 cfg3.N
/-- Core `c`'s unscoped buffers after region 3. -/
def U8 (c : Dev nD) : Valuation τ sig (Elt F) := Function.update (U7 m c) main_v84 (X8 m c)

/-- What the regions leave: after item `n - 1`, reference `r` on core `c` holds the stage's contents. -/
def outs : Gen.Outs (F := F) := fun n r c =>
  match n with
  | 2 => U2 m c r
  | 4 => U4 m c r
  | 6 => U6 m c r
  | _ => U8 m c r

theorem outs_2' (c : Dev nD) : outs m 2 main_v26 c = X2 m c := by
  show U2 m c main_v26 = X2 m c
  unfold U2; exact Function.update_self _ _ _
theorem outs_4' (c : Dev nD) : outs m 4 main_v37 c = X4 m c := by
  show U4 m c main_v37 = X4 m c
  unfold U4; exact Function.update_self _ _ _
theorem outs_6' (c : Dev nD) : outs m 6 main_v71 c = X6 m c := by
  show U6 m c main_v71 = X6 m c
  unfold U6; exact Function.update_self _ _ _
theorem outs_8' (c : Dev nD) : outs m 8 main_v84 c = X8 m c := by
  show U8 m c main_v84 = X8 m c
  unfold U8; exact Function.update_self _ _ _

/-! ## The regions' entry and exit contents at the core's references -/

/-- Region 0's entry contents, -/
abbrev Tin0 : (c : Dev nD) → (b : Ref sig .tc) → Buf (Elt F) ((c : Thread nD τ).loc b) := fun c b => Gen.V1 m c b
/-- and its exit contents. -/
abbrev Tout0 : (c : Dev nD) → (b : Ref sig .tc) → Buf (Elt F) ((c : Thread nD τ).loc b) := fun c b => Gen.V2 m (outs m) c b

/-- Region 1's entry contents, -/
abbrev Tin1 : (c : Dev nD) → (b : Ref sig .tc) → Buf (Elt F) ((c : Thread nD τ).loc b) := fun c b => Gen.V3 m (outs m) c b
/-- and its exit contents. -/
abbrev Tout1 : (c : Dev nD) → (b : Ref sig .tc) → Buf (Elt F) ((c : Thread nD τ).loc b) := fun c b => Gen.V4 m (outs m) c b

/-- Region 2's entry contents, -/
abbrev Tin2 : (c : Dev nD) → (b : Ref sig .tc) → Buf (Elt F) ((c : Thread nD τ).loc b) := fun c b => Gen.V5 m (outs m) c b
/-- and its exit contents. -/
abbrev Tout2 : (c : Dev nD) → (b : Ref sig .tc) → Buf (Elt F) ((c : Thread nD τ).loc b) := fun c b => Gen.V6 m (outs m) c b

/-- Region 3's entry contents, -/
abbrev Tin3 : (c : Dev nD) → (b : Ref sig .tc) → Buf (Elt F) ((c : Thread nD τ).loc b) := fun c b => Gen.V7 m (outs m) c b
/-- and its exit contents. -/
abbrev Tout3 : (c : Dev nD) → (b : Ref sig .tc) → Buf (Elt F) ((c : Thread nD τ).loc b) := fun c b => Gen.V8 m (outs m) c b

/-! ## The valuations between items, written over `outs`, are the stages -/

theorem V2_eq (c : Dev nD) : Gen.V2 m (outs m) c = U2 m c := by
  unfold U2; exact congrArg (Function.update (Gen.V1 m c) main_v26) (outs_2' m c)
theorem V3_eq (c : Dev nD) : Gen.V3 m (outs m) c = U3 m c := by
  unfold U3; exact congrArg (StableHlo.after hostOps1) (V2_eq m c)
theorem V4_eq (c : Dev nD) : Gen.V4 m (outs m) c = U4 m c := by
  unfold U4; rw [← V3_eq m c]; exact congrArg (Function.update (Gen.V3 m (outs m) c) main_v37) (outs_4' m c)
theorem V5_eq (c : Dev nD) : Gen.V5 m (outs m) c = U5 m c := by
  unfold U5; exact congrArg (StableHlo.after hostOps2) (V4_eq m c)
theorem V6_eq (c : Dev nD) : Gen.V6 m (outs m) c = U6 m c := by
  unfold U6; rw [← V5_eq m c]; exact congrArg (Function.update (Gen.V5 m (outs m) c) main_v71) (outs_6' m c)
theorem V7_eq (c : Dev nD) : Gen.V7 m (outs m) c = U7 m c := by
  unfold U7; exact congrArg (StableHlo.after hostOps3) (V6_eq m c)

theorem S3_eq : S3 m = Tin1 m := funext fun c => funext fun b => (congrFun (V3_eq m c) _).symm
theorem S5_eq : S5 m = Tin2 m := funext fun c => funext fun b => (congrFun (V5_eq m c) _).symm
theorem S7_eq : S7 m = Tin3 m := funext fun c => funext fun b => (congrFun (V7_eq m c) _).symm

/-- What each region leaves in its output array is its pipeline's fold over the contents it finds. -/
theorem outs_2 (c : Dev nD) : outs m 2 main_v26 c = (dat0 (fun c b => Gen.V1 m c b) c).arrAt 5 cfg0.N := outs_2' m c
theorem outs_4 (c : Dev nD) : outs m 4 main_v37 c = (dat1 (fun c b => Gen.V3 m (outs m) c b) c).arrAt 5 cfg1.N :=
  (outs_4' m c).trans (congrArg (fun V => (dat1 V c).arrAt 5 cfg1.N) (S3_eq m))
theorem outs_6 (c : Dev nD) : outs m 6 main_v71 c = (dat2 (fun c b => Gen.V5 m (outs m) c b) c).arrAt 5 cfg2.N :=
  (outs_6' m c).trans (congrArg (fun V => (dat2 V c).arrAt 5 cfg2.N) (S5_eq m))
theorem outs_8 (c : Dev nD) : outs m 8 main_v84 c = (dat3 (fun c b => Gen.V7 m (outs m) c b) c).arrAt 5 cfg3.N :=
  (outs_8' m c).trans (congrArg (fun V => (dat3 V c).arrAt 5 cfg3.N) (S7_eq m))

/-! ## At a region's exit its arrays hold what the pipeline leaves, every other buffer what it held at entry -/

/-- Region 0's windows: five inputs, none on the output array, and the output window, on it. -/
theorem win_cases0 : ∀ w : Fin cfg0.W,
    ((cfg0.win w).isOut = false ∧ Pipeline.arrRef spec0 w ∉ ([main_v26] : List (Ref sig .tc))) ∨ w = 5 := by decide
/-- An input window's array is as the region found it (no write-back touches it), and it is not the output array. -/
theorem hF0_in (c : Dev nD) (w : Fin cfg0.W) (hin : (cfg0.win w).isOut = false)
    (hne : Pipeline.arrRef spec0 w ∉ ([main_v26] : List (Ref sig .tc))) :
    (dat0 (Tin0 m) c).arrAt w cfg0.N = Tout0 m c (Pipeline.arrRef spec0 w) :=
  ((dat0 (Tin0 m) c).arrAt_in w hin _).trans
    ((A_eq0 (Tin0 m) c w).trans (Gen.V2_of m (outs m) c (Pipeline.arrRef spec0 w) hne).symm)
/-- The output window's array holds the fold, which is what `outs` holds there. -/
theorem hF0_out (c : Dev nD) : (dat0 (Tin0 m) c).arrAt 5 cfg0.N = Tout0 m c main_v26 := by
  show _ = Function.update (Gen.V1 m c) main_v26 (outs m 2 main_v26 c) main_v26
  rw [Function.update_self]
  exact (outs_2 m c).symm
theorem hF0 (c : Dev nD) (w : Fin cfg0.W) : (dat0 (Tin0 m) c).arrAt w cfg0.N = Tout0 m c (Pipeline.arrRef spec0 w) := by
  rcases win_cases0 w with ⟨hin, hne⟩ | rfl
  · exact hF0_in m c w hin hne
  · exact hF0_out m c
theorem hrest0 (c : Dev nD) : ∀ b, b ∉ Finset.univ.image (Pipeline.arrRef spec0) → Tout0 m c b = Tin0 m c b :=
  fun b hb => Gen.V2_of m (outs m) c b fun h =>
    hb (Finset.mem_image.mpr ⟨5, Finset.mem_univ _, (List.mem_singleton.mp h).symm⟩)

/-- Region 1's windows: five inputs, none on the output array, and the output window, on it. -/
theorem win_cases1 : ∀ w : Fin cfg1.W,
    ((cfg1.win w).isOut = false ∧ Pipeline.arrRef spec1 w ∉ ([main_v37] : List (Ref sig .tc))) ∨ w = 5 := by decide
/-- An input window's array is as the region found it (no write-back touches it), and it is not the output array. -/
theorem hF1_in (c : Dev nD) (w : Fin cfg1.W) (hin : (cfg1.win w).isOut = false)
    (hne : Pipeline.arrRef spec1 w ∉ ([main_v37] : List (Ref sig .tc))) :
    (dat1 (Tin1 m) c).arrAt w cfg1.N = Tout1 m c (Pipeline.arrRef spec1 w) :=
  ((dat1 (Tin1 m) c).arrAt_in w hin _).trans
    ((A_eq1 (Tin1 m) c w).trans (Gen.V4_of m (outs m) c (Pipeline.arrRef spec1 w) hne).symm)
/-- The output window's array holds the fold, which is what `outs` holds there. -/
theorem hF1_out (c : Dev nD) : (dat1 (Tin1 m) c).arrAt 5 cfg1.N = Tout1 m c main_v37 := by
  show _ = Function.update (Gen.V3 m (outs m) c) main_v37 (outs m 4 main_v37 c) main_v37
  rw [Function.update_self]
  exact (outs_4 m c).symm
theorem hF1 (c : Dev nD) (w : Fin cfg1.W) : (dat1 (Tin1 m) c).arrAt w cfg1.N = Tout1 m c (Pipeline.arrRef spec1 w) := by
  rcases win_cases1 w with ⟨hin, hne⟩ | rfl
  · exact hF1_in m c w hin hne
  · exact hF1_out m c
theorem hrest1 (c : Dev nD) : ∀ b, b ∉ Finset.univ.image (Pipeline.arrRef spec1) → Tout1 m c b = Tin1 m c b :=
  fun b hb => Gen.V4_of m (outs m) c b fun h =>
    hb (Finset.mem_image.mpr ⟨5, Finset.mem_univ _, (List.mem_singleton.mp h).symm⟩)

/-- Region 2's windows: five inputs, none on the output array, and the output window, on it. -/
theorem win_cases2 : ∀ w : Fin cfg2.W,
    ((cfg2.win w).isOut = false ∧ Pipeline.arrRef spec2 w ∉ ([main_v71] : List (Ref sig .tc))) ∨ w = 5 := by decide
/-- An input window's array is as the region found it (no write-back touches it), and it is not the output array. -/
theorem hF2_in (c : Dev nD) (w : Fin cfg2.W) (hin : (cfg2.win w).isOut = false)
    (hne : Pipeline.arrRef spec2 w ∉ ([main_v71] : List (Ref sig .tc))) :
    (dat2 (Tin2 m) c).arrAt w cfg2.N = Tout2 m c (Pipeline.arrRef spec2 w) :=
  ((dat2 (Tin2 m) c).arrAt_in w hin _).trans
    ((A_eq2 (Tin2 m) c w).trans (Gen.V6_of m (outs m) c (Pipeline.arrRef spec2 w) hne).symm)
/-- The output window's array holds the fold, which is what `outs` holds there. -/
theorem hF2_out (c : Dev nD) : (dat2 (Tin2 m) c).arrAt 5 cfg2.N = Tout2 m c main_v71 := by
  show _ = Function.update (Gen.V5 m (outs m) c) main_v71 (outs m 6 main_v71 c) main_v71
  rw [Function.update_self]
  exact (outs_6 m c).symm
theorem hF2 (c : Dev nD) (w : Fin cfg2.W) : (dat2 (Tin2 m) c).arrAt w cfg2.N = Tout2 m c (Pipeline.arrRef spec2 w) := by
  rcases win_cases2 w with ⟨hin, hne⟩ | rfl
  · exact hF2_in m c w hin hne
  · exact hF2_out m c
theorem hrest2 (c : Dev nD) : ∀ b, b ∉ Finset.univ.image (Pipeline.arrRef spec2) → Tout2 m c b = Tin2 m c b :=
  fun b hb => Gen.V6_of m (outs m) c b fun h =>
    hb (Finset.mem_image.mpr ⟨5, Finset.mem_univ _, (List.mem_singleton.mp h).symm⟩)

/-- Region 3's windows: five inputs, none on the output array, and the output window, on it. -/
theorem win_cases3 : ∀ w : Fin cfg3.W,
    ((cfg3.win w).isOut = false ∧ Pipeline.arrRef spec3 w ∉ ([main_v84] : List (Ref sig .tc))) ∨ w = 5 := by decide
/-- An input window's array is as the region found it (no write-back touches it), and it is not the output array. -/
theorem hF3_in (c : Dev nD) (w : Fin cfg3.W) (hin : (cfg3.win w).isOut = false)
    (hne : Pipeline.arrRef spec3 w ∉ ([main_v84] : List (Ref sig .tc))) :
    (dat3 (Tin3 m) c).arrAt w cfg3.N = Tout3 m c (Pipeline.arrRef spec3 w) :=
  ((dat3 (Tin3 m) c).arrAt_in w hin _).trans
    ((A_eq3 (Tin3 m) c w).trans (Gen.V8_of m (outs m) c (Pipeline.arrRef spec3 w) hne).symm)
/-- The output window's array holds the fold, which is what `outs` holds there. -/
theorem hF3_out (c : Dev nD) : (dat3 (Tin3 m) c).arrAt 5 cfg3.N = Tout3 m c main_v84 := by
  show _ = Function.update (Gen.V7 m (outs m) c) main_v84 (outs m 8 main_v84 c) main_v84
  rw [Function.update_self]
  exact (outs_8 m c).symm
theorem hF3 (c : Dev nD) (w : Fin cfg3.W) : (dat3 (Tin3 m) c).arrAt w cfg3.N = Tout3 m c (Pipeline.arrRef spec3 w) := by
  rcases win_cases3 w with ⟨hin, hne⟩ | rfl
  · exact hF3_in m c w hin hne
  · exact hF3_out m c
theorem hrest3 (c : Dev nD) : ∀ b, b ∉ Finset.univ.image (Pipeline.arrRef spec3) → Tout3 m c b = Tin3 m c b :=
  fun b hb => Gen.V8_of m (outs m) c b fun h =>
    hb (Finset.mem_image.mpr ⟨5, Finset.mem_univ _, (List.mem_singleton.mp h).symm⟩)

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (Tin0 m) c
  | ⟨1, _⟩ => fun c => dat1 (Tin1 m) c
  | ⟨2, _⟩ => fun c => dat2 (Tin2 m) c
  | ⟨3, _⟩ => fun c => dat3 (Tin3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at its entry contents, left at its exit
    contents. Its arrays are split out of the unscoped buffers and put back at the exit contents; the generator
    register goes into the pipeline's invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Tin0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Tin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Tin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Tin0 m c) (Tout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents. Its arrays are split out of the unscoped buffers and put back at the exit contents; the generator
    register goes into the pipeline's invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Tin1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Tin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Tin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Tin1 m c) (Tout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit
    contents. Its arrays are split out of the unscoped buffers and put back at the exit contents; the generator
    register goes into the pipeline's invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Tin2 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Tin2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Tin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Tin2 m c) (Tout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit
    contents. Its arrays are split out of the unscoped buffers and put back at the exit contents; the generator
    register goes into the pipeline's invariant and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Tin3 m) c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (Tin3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Tin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Tin3 m c) (Tout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters, every weakly fair execution of the program on the cores terminates, nothing
    faulting, and every final memory holds the last region's output array at the last stage's contents and each
    argument array as launched: the launch over the eight segments, the last thread state read against the final
    memory, each argument walked back through the stages to the launch memory. -/
theorem run (ρ : Dev nD → PrngReg) : θ_run defs (onTc (τ := τ) (main (F := F))) ⟨m, fun _ => 0, ρ⟩ (fun r => ∀ c : Dev nD,
      r.2.mem ((c.tc : Thread nD τ).loc main_v84) = Gen.V8 m (outs m) c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m))
    (fun c Q => by
      rewrite [main_chain c, Seg.run_eq_chain,
        show ((Gen.segs m (outs m) 𝒱₀ L lv (fun _ c => R c) () (pdats m) (reg0 m) (reg1 m) (reg2 m) (reg3 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c =>
      ⟨h c _ (mem_uc main_v84 (by decide)),
        (h c _ (mem_uc main_arg0 (by decide))).trans (Gen.V8_main_arg0 m (outs m) c),
        (h c _ (mem_uc main_arg1 (by decide))).trans (Gen.V8_main_arg1 m (outs m) c),
        (h c _ (mem_uc main_arg2 (by decide))).trans (Gen.V8_main_arg2 m (outs m) c),
        (h c _ (mem_uc main_arg3 (by decide))).trans (Gen.V8_main_arg3 m (outs m) c),
        (h c _ (mem_uc main_arg4 (by decide))).trans (Gen.V8_main_arg4 m (outs m) c),
        (h c _ (mem_uc main_arg5 (by decide))).trans (Gen.V8_main_arg5 m (outs m) c),
        (h c _ (mem_uc main_arg6 (by decide))).trans (Gen.V8_main_arg6 m (outs m) c),
        (h c _ (mem_uc main_arg7 (by decide))).trans (Gen.V8_main_arg7 m (outs m) c),
        (h c _ (mem_uc main_arg8 (by decide))).trans (Gen.V8_main_arg8 m (outs m) c),
        (h c _ (mem_uc main_arg9 (by decide))).trans (Gen.V8_main_arg9 m (outs m) c),
        (h c _ (mem_uc main_arg10 (by decide))).trans (Gen.V8_main_arg10 m (outs m) c),
        (h c _ (mem_uc main_arg11 (by decide))).trans (Gen.V8_main_arg11 m (outs m) c),
        (h c _ (mem_uc main_arg12 (by decide))).trans (Gen.V8_main_arg12 m (outs m) c),
        (h c _ (mem_uc main_arg13 (by decide))).trans (Gen.V8_main_arg13 m (outs m) c),
        (h c _ (mem_uc main_arg14 (by decide))).trans (Gen.V8_main_arg14 m (outs m) c),
        (h c _ (mem_uc main_arg15 (by decide))).trans (Gen.V8_main_arg15 m (outs m) c),
        (h c _ (mem_uc main_arg16 (by decide))).trans (Gen.V8_main_arg16 m (outs m) c),
        (h c _ (mem_uc main_arg17 (by decide))).trans (Gen.V8_main_arg17 m (outs m) c),
        (h c _ (mem_uc main_arg18 (by decide))).trans (Gen.V8_main_arg18 m (outs m) c)⟩)

end Cert.Kernel.Hand

end
-- ==== Proof.KI.Data.lean ====
/-
  What each of the four pipelined regions holds, as data: a window's block at a grid point read off the array the
  region finds; the buffer the body leaves in the output window — its single whole-block store of the payload of the
  five whole-block loads —; and the pipeline's proof data built from them (the arrays as the region finds them, each
  input window's buffer at its block, the output window's at the body's result, nothing owed, full shares).
  Stated at a parameter `V`, the contents of the core's buffers when the region is entered.
-/
import proofs.«160275_j16484084483095_2_alg».proof.Proof.Gen.KernelIdeal.Launch
import proofs.«160275_j16484084483095_2_alg».proof.Proof.Gen.KernelIdeal.Skeleton
import proofs.«160275_j16484084483095_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2x6400 := Rect.unit (s := S2x6400) ![0, 0] S2x6400.size inb_S2x6400_S2x6400_0_0
abbrev r0_1 : Rect S2x128 := Rect.unit (s := S2x128) ![0, 0] S2x128.size inb_S2x128_S2x128_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S1x64 := Rect.unit (s := S1x64) ![0, 0] S1x64.size inb_S1x64_S1x64_0_0
abbrev r0_5 : Rect S6400x64 := Rect.unit (s := S6400x64) ![0, 0] S6400x64.size inb_S6400x64_S6400x64_0_0

/-- The output window's buffer after the body: one store of the whole block, of the payload of the five loads. -/
def out0_5 (x0 : Vec F S2x6400 .f32) (x1 : Vec F S2x128 .f32) (x2 : Vec F S1x128 .f32) (x3 : Vec F S128x64 .f32) (x4 : Vec F S1x64 .f32) : Vec F S6400x64 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S6400x64 .f32) (y : S6400x64.Idx) :
    ∃ pc ∈ ([⟨r0_5, p0⟩] : List (View.Piece (Elt F) S6400x64 .f32)), y ∈ pc.1.set :=
  View.cover_of_tiled [⟨r0_5, p0⟩] S6400x64.size (by rfl) y

/-- The pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0
abbrev r1_1 : Rect S64x128 := Rect.unit (s := S64x128) ![0, 0] S64x128.size inb_S64x128_S64x128_0_0
abbrev r1_2 : Rect S1x128 := Rect.unit (s := S1x128) ![0, 0] S1x128.size inb_S1x128_S1x128_0_0
abbrev r1_3 : Rect S128x64 := Rect.unit (s := S128x64) ![0, 0] S128x64.size inb_S128x64_S128x64_0_0
abbrev r1_4 : Rect S1x64 := Rect.unit (s := S1x64) ![0, 0] S1x64.size inb_S1x64_S1x64_0_0
abbrev r1_5 : Rect S10000x64 := Rect.unit (s := S10000x64) ![0, 0] S10000x64.size inb_S10000x64_S10000x64_0_0

/-- The output window's buffer after the body: one store of the whole block, of the payload of the five loads. -/
def out1_5 (x0 : Vec F S10000x64 .f32) (x1 : Vec F S64x128 .f32) (x2 : Vec F S1x128 .f32) (x3 : Vec F S128x64 .f32) (x4 : Vec F S1x64 .f32) : Vec F S10000x64 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S10000x64 .f32) (y : S10000x64.Idx) :
    ∃ pc ∈ ([⟨r1_5, p0⟩] : List (View.Piece (Elt F) S10000x64 .f32)), y ∈ pc.1.set :=
  View.cover_of_tiled [⟨r1_5, p0⟩] S10000x64.size (by rfl) y

/-- The pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## Region 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S6400x194 := Rect.unit (s := S6400x194) ![0, 0] S6400x194.size inb_S6400x194_S6400x194_0_0
abbrev r2_1 : Rect S194x128 := Rect.unit (s := S194x128) ![0, 0] S194x128.size inb_S194x128_S194x128_0_0
abbrev r2_2 : Rect S1x128 := Rect.unit (s := S1x128) ![0, 0] S1x128.size inb_S1x128_S1x128_0_0
abbrev r2_3 : Rect S128x64 := Rect.unit (s := S128x64) ![0, 0] S128x64.size inb_S128x64_S128x64_0_0
abbrev r2_4 : Rect S1x64 := Rect.unit (s := S1x64) ![0, 0] S1x64.size inb_S1x64_S1x64_0_0
abbrev r2_5 : Rect S6400x64 := Rect.unit (s := S6400x64) ![0, 0] S6400x64.size inb_S6400x64_S6400x64_0_0

/-- The output window's buffer after the body: one store of the whole block, of the payload of the five loads. -/
def out2_5 (x0 : Vec F S6400x194 .bf16) (x1 : Vec F S194x128 .f32) (x2 : Vec F S1x128 .f32) (x3 : Vec F S128x64 .f32) (x4 : Vec F S1x64 .f32) : Vec F S6400x64 .f32 :=
  View.canon [⟨r2_5, k2_pay1 (View.ld x0 r2_0) (View.ld x1 r2_1) (View.ld x2 r2_2) (View.ld x3 r2_3) (View.ld x4 r2_4)⟩]

/-- The one store covers the buffer. -/
theorem cover2_5 (p0 : Vec F S6400x64 .f32) (y : S6400x64.Idx) :
    ∃ pc ∈ ([⟨r2_5, p0⟩] : List (View.Piece (Elt F) S6400x64 .f32)), y ∈ pc.1.set :=
  View.cover_of_tiled [⟨r2_5, p0⟩] S6400x64.size (by rfl) y

/-- The pipeline's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## Region 3 -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x128 := Rect.unit (s := S10000x128) ![0, 0] S10000x128.size inb_S10000x128_S10000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0
abbrev r3_3 : Rect S128x64 := Rect.unit (s := S128x64) ![0, 0] S128x64.size inb_S128x64_S128x64_0_0
abbrev r3_4 : Rect S1x64 := Rect.unit (s := S1x64) ![0, 0] S1x64.size inb_S1x64_S1x64_0_0
abbrev r3_5 : Rect S10000x64 := Rect.unit (s := S10000x64) ![0, 0] S10000x64.size inb_S10000x64_S10000x64_0_0

/-- The output window's buffer after the body: one store of the whole block, of the payload of the five loads. -/
def out3_5 (x0 : Vec F S10000x128 .bf16) (x1 : Vec F S128x128 .f32) (x2 : Vec F S1x128 .f32) (x3 : Vec F S128x64 .f32) (x4 : Vec F S1x64 .f32) : Vec F S10000x64 .f32 :=
  View.canon [⟨r3_5, k3_pay1 (View.ld x0 r3_0) (View.ld x1 r3_1) (View.ld x2 r3_2) (View.ld x3 r3_3) (View.ld x4 r3_4)⟩]

/-- The one store covers the buffer. -/
theorem cover3_5 (p0 : Vec F S10000x64 .f32) (y : S10000x64.Idx) :
    ∃ pc ∈ ([⟨r3_5, p0⟩] : List (View.Piece (Elt F) S10000x64 .f32)), y ∈ pc.1.set :=
  View.cover_of_tiled [⟨r3_5, p0⟩] S10000x64.size (by rfl) y

/-- The pipeline's proof data on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

end Cert.KernelIdeal.Hand

end
-- ==== Proof.KI.Body0.lean ====
/-
  Region 0's kernel body against its proof data. Every input window's current staging buffer holds that window's
  block at every grid point, whether or not the pipeline fetched it there (an unfetched window's block index has not
  moved). The body, run on whole staging buffers holding those blocks and on an output buffer of any contents, leaves
  the inputs in place and the output buffer at its single whole-block store. Hence the pipeline's body obligation.
-/
import proofs.«160275_j16484084483095_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current staging buffer holds its block at every point, fetched there or not, for any proof data
    whose array is the region-entry contents and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the region-entry contents and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the region-entry contents and whose body leaves the block in place: the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body's triple -/

set_option maxHeartbeats 1000000 in
/-- The kernel body on whole staging memrefs, the inputs' at contents `x0 … x4` and the output's at any contents, runs to
    the continuation holding the inputs' as they were and the output's at `out0_5` of the inputs': five whole-block loads,
    a load of the output buffer whose value is not used, and one whole-block store of the payload. -/
theorem sound_kernel0 (c : Dev nD) (E : Set ℕ) (i : grid0.Coords)
    (arg1 : Memref sig .tc .vmem S2x6400 .f32) (harg1 : arg1.IsWhole)
    (arg2 : Memref sig .tc .vmem S2x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S6400x64 .f32) (harg6 : arg6.IsWhole)
    (x0 : Vec F S2x6400 .f32) (x1 : Vec F S2x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_pdT_kernel i arg1 harg1 arg2 harg2 arg3 harg3 arg4 harg4 arg5 harg5 arg6 harg6) K := by
  simp only [cc0__mlp_pdT_kernel_eq_skeleton]; unfold cc0__mlp_pdT_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1's kernel body against its proof data. Every input window's current staging buffer holds that window's
  block at every grid point, whether or not the pipeline fetched it there (an unfetched window's block index has not
  moved). The body, run on whole staging buffers holding those blocks and on an output buffer of any contents, leaves
  the inputs in place and the output buffer at its single whole-block store. Hence the pipeline's body obligation.
-/
import proofs.«160275_j16484084483095_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current staging buffer holds its block at every point, fetched there or not, for any proof data
    whose array is the region-entry contents and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the region-entry contents and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the region-entry contents and whose body leaves the block in place: the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's triple -/

set_option maxHeartbeats 1000000 in
/-- The kernel body on whole staging memrefs, the inputs' at contents `x0 … x4` and the output's at any contents, runs to
    the continuation holding the inputs' as they were and the output's at `out1_5` of the inputs': five whole-block loads,
    a load of the output buffer whose value is not used, and one whole-block store of the payload. -/
theorem sound_kernel1 (c : Dev nD) (E : Set ℕ) (i : grid1.Coords)
    (arg1 : Memref sig .tc .vmem S10000x64 .f32) (harg1 : arg1.IsWhole)
    (arg2 : Memref sig .tc .vmem S64x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S10000x64 .f32) (harg6 : arg6.IsWhole)
    (x0 : Vec F S10000x64 .f32) (x1 : Vec F S64x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple above applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2's kernel body against its proof data. Every input window's current staging buffer holds that window's
  block at every grid point, whether or not the pipeline fetched it there (an unfetched window's block index has not
  moved). The body, run on whole staging buffers holding those blocks and on an output buffer of any contents, leaves
  the inputs in place and the output buffer at its single whole-block store. Hence the pipeline's body obligation.
-/
import proofs.«160275_j16484084483095_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current staging buffer holds its block at every point, fetched there or not, for any proof data
    whose array is the region-entry contents and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the region-entry contents and whose body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the region-entry contents and whose body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the region-entry contents and whose body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the region-entry contents and whose body leaves the block in place: the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's triple -/

set_option maxHeartbeats 1000000 in
/-- The kernel body on whole staging memrefs, the inputs' at contents `x0 … x4` and the output's at any contents, runs to
    the continuation holding the inputs' as they were and the output's at `out2_5` of the inputs': five whole-block loads,
    a load of the output buffer whose value is not used, and one whole-block store of the payload. -/
theorem sound_kernel2 (c : Dev nD) (E : Set ℕ) (i : grid2.Coords)
    (arg1 : Memref sig .tc .vmem S6400x194 .bf16) (harg1 : arg1.IsWhole)
    (arg2 : Memref sig .tc .vmem S194x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S6400x64 .f32) (harg6 : arg6.IsWhole)
    (x0 : Vec F S6400x194 .bf16) (x1 : Vec F S194x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/-
  Region 3's kernel body against its proof data. Every input window's current staging buffer holds that window's
  block at every grid point, whether or not the pipeline fetched it there (an unfetched window's block index has not
  moved). The body, run on whole staging buffers holding those blocks and on an output buffer of any contents, leaves
  the inputs in place and the output buffer at its single whole-block store. Hence the pipeline's body obligation.
-/
import proofs.«160275_j16484084483095_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current staging buffer holds its block at every point, fetched there or not, for any proof data
    whose array is the region-entry contents and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the region-entry contents and whose body leaves the block in place: the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the region-entry contents and whose body leaves the block in place: the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the region-entry contents and whose body leaves the block in place: the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is the region-entry contents and whose body leaves the block in place: the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body's triple -/

set_option maxHeartbeats 1000000 in
/-- The kernel body on whole staging memrefs, the inputs' at contents `x0 … x4` and the output's at any contents, runs to
    the continuation holding the inputs' as they were and the output's at `out3_5` of the inputs': five whole-block loads,
    a load of the output buffer whose value is not used, and one whole-block store of the payload. -/
theorem sound_kernel3 (c : Dev nD) (E : Set ℕ) (i : grid3.Coords)
    (arg1 : Memref sig .tc .vmem S10000x128 .bf16) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S10000x64 .f32) (harg6 : arg6.IsWhole)
    (x0 : Vec F S10000x128 .bf16) (x1 : Vec F S128x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the triple above applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The run of the program's four pipelined regions among its host stretches.

  What a region leaves in its output array is the fold of its pipeline's write-backs over the contents the region
  finds there. These contents are defined stage by stage from the launch memory — a host stretch's operations applied
  to the stage before, then the region's output array replaced by its fold — so that no stage refers to a later one,
  and the family `outs` of what the regions leave is read off the stages. Each region is then a segment entered from
  every unscoped buffer at one stage's contents and left at the next, beside the core's generator register and its
  dues, at nothing. The launch gives termination, and every final memory holds the last region's output array at the
  last stage's contents and every argument array as launched.
-/
import proofs.«160275_j16484084483095_2_alg».proof.Proof.KI.Body0
import proofs.«160275_j16484084483095_2_alg».proof.Proof.KI.Body1
import proofs.«160275_j16484084483095_2_alg».proof.Proof.KI.Body2
import proofs.«160275_j16484084483095_2_alg».proof.Proof.KI.Body3
import proofs.«160275_j16484084483095_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents, stage by stage -/

/-- What region 0 leaves in its output array: its write-backs folded over the contents it finds. -/
def X2 (c : Dev nD) : Buf (Elt F) ((c : Thread nD τ).loc main_v26) :=
  (dat0 (fun c b => Gen.V1 m c b) c).arrAt 5 cfg0.N
/-- Core `c`'s unscoped buffers after region 0. -/
def U2 (c : Dev nD) : Valuation τ sig (Elt F) := Function.update (Gen.V1 m c) main_v26 (X2 m c)
/-- After the host stretch that follows it, -/
def U3 (c : Dev nD) : Valuation τ sig (Elt F) := StableHlo.after hostOps1 (U2 m c)
/-- and the same read at the core's references. -/
abbrev S3 : (c : Dev nD) → (b : Ref sig .tc) → Buf (Elt F) ((c : Thread nD τ).loc b) := fun c b => U3 m c b
/-- What region 1 leaves in its output array. -/
def X4 (c : Dev nD) : Buf (Elt F) ((c : Thread nD τ).loc main_v37) := (dat1 (S3 m) c).arrAt 5 cfg1.N
/-- Core `c`'s unscoped buffers after region 1. -/
def U4 (c : Dev nD) : Valuation τ sig (Elt F) := Function.update (U3 m c) main_v37 (X4 m c)
/-- After the host stretch that follows it, -/
def U5 (c : Dev nD) : Valuation τ sig (Elt F) := StableHlo.after hostOps2 (U4 m c)
/-- and the same read at the core's references. -/
abbrev S5 : (c : Dev nD) → (b : Ref sig .tc) → Buf (Elt F) ((c : Thread nD τ).loc b) := fun c b => U5 m c b
/-- What region 2 leaves in its output array. -/
def X6 (c : Dev nD) : Buf (Elt F) ((c : Thread nD τ).loc main_v71) := (dat2 (S5 m) c).arrAt 5 cfg2.N
/-- Core `c`'s unscoped buffers after region 2. -/
def U6 (c : Dev nD) : Valuation τ sig (Elt F) := Function.update (U5 m c) main_v71 (X6 m c)
/-- After the host stretch that follows it, -/
def U7 (c : Dev nD) : Valuation τ sig (Elt F) := StableHlo.after hostOps3 (U6 m c)
/-- and the same read at the core's references. -/
abbrev S7 : (c : Dev nD) → (b : Ref sig .tc) → Buf (Elt F) ((c : Thread nD τ).loc b) := fun c b => U7 m c b
/-- What region 3 leaves in its output array. -/
def X8 (c : Dev nD) : Buf (Elt F) ((c : Thread nD τ).loc main_v84) := (dat3 (S7 m) c).arrAt 5 cfg3.N
/-- Core `c`'s unscoped buffers after region 3. -/
def U8 (c : Dev nD) : Valuation τ sig (Elt F) := Function.update (U7 m c) main_v84 (X8 m c)

/-- What the regions leave: after item `n - 1`, reference `r` on core `c` holds the stage's contents. -/
def outs : Gen.Outs (F := F) := fun n r c =>
  match n with
  | 2 => U2 m c r
  | 4 => U4 m c r
  | 6 => U6 m c r
  | _ => U8 m c r

theorem outs_2' (c : Dev nD) : outs m 2 main_v26 c = X2 m c := by
  show U2 m c main_v26 = X2 m c
  unfold U2; exact Function.update_self _ _ _
theorem outs_4' (c : Dev nD) : outs m 4 main_v37 c = X4 m c := by
  show U4 m c main_v37 = X4 m c
  unfold U4; exact Function.update_self _ _ _
theorem outs_6' (c : Dev nD) : outs m 6 main_v71 c = X6 m c := by
  show U6 m c main_v71 = X6 m c
  unfold U6; exact Function.update_self _ _ _
theorem outs_8' (c : Dev nD) : outs m 8 main_v84 c = X8 m c := by
  show U8 m c main_v84 = X8 m c
  unfold U8; exact Function.update_self _ _ _

/-! ## The regions' entry and exit contents at the core's references -/

/-- Region 0's entry contents, -/
abbrev Tin0 : (c : Dev nD) → (b : Ref sig .tc) → Buf (Elt F) ((c : Thread nD τ).loc b) := fun c b => Gen.V1 m c b
/-- and its exit contents. -/
abbrev Tout0 : (c : Dev nD) → (b : Ref sig .tc) → Buf (Elt F) ((c : Thread nD τ).loc b) := fun c b => Gen.V2 m (outs m) c b

/-- Region 1's entry contents, -/
abbrev Tin1 : (c : Dev nD) → (b : Ref sig .tc) → Buf (Elt F) ((c : Thread nD τ).loc b) := fun c b => Gen.V3 m (outs m) c b
/-- and its exit contents. -/
abbrev Tout1 : (c : Dev nD) → (b : Ref sig .tc) → Buf (Elt F) ((c : Thread nD τ).loc b) := fun c b => Gen.V4 m (outs m) c b

/-- Region 2's entry contents, -/
abbrev Tin2 : (c : Dev nD) → (b : Ref sig .tc) → Buf (Elt F) ((c : Thread nD τ).loc b) := fun c b => Gen.V5 m (outs m) c b
/-- and its exit contents. -/
abbrev Tout2 : (c : Dev nD) → (b : Ref sig .tc) → Buf (Elt F) ((c : Thread nD τ).loc b) := fun c b => Gen.V6 m (outs m) c b

/-- Region 3's entry contents, -/
abbrev Tin3 : (c : Dev nD) → (b : Ref sig .tc) → Buf (Elt F) ((c : Thread nD τ).loc b) := fun c b => Gen.V7 m (outs m) c b
/-- and its exit contents. -/
abbrev Tout3 : (c : Dev nD) → (b : Ref sig .tc) → Buf (Elt F) ((c : Thread nD τ).loc b) := fun c b => Gen.V8 m (outs m) c b

/-! ## The valuations between items, written over `outs`, are the stages -/

theorem V2_eq (c : Dev nD) : Gen.V2 m (outs m) c = U2 m c := by
  unfold U2; exact congrArg (Function.update (Gen.V1 m c) main_v26) (outs_2' m c)
theorem V3_eq (c : Dev nD) : Gen.V3 m (outs m) c = U3 m c := by
  unfold U3; exact congrArg (StableHlo.after hostOps1) (V2_eq m c)
theorem V4_eq (c : Dev nD) : Gen.V4 m (outs m) c = U4 m c := by
  unfold U4; rw [← V3_eq m c]; exact congrArg (Function.update (Gen.V3 m (outs m) c) main_v37) (outs_4' m c)
theorem V5_eq (c : Dev nD) : Gen.V5 m (outs m) c = U5 m c := by
  unfold U5; exact congrArg (StableHlo.after hostOps2) (V4_eq m c)
theorem V6_eq (c : Dev nD) : Gen.V6 m (outs m) c = U6 m c := by
  unfold U6; rw [← V5_eq m c]; exact congrArg (Function.update (Gen.V5 m (outs m) c) main_v71) (outs_6' m c)
theorem V7_eq (c : Dev nD) : Gen.V7 m (outs m) c = U7 m c := by
  unfold U7; exact congrArg (StableHlo.after hostOps3) (V6_eq m c)

theorem S3_eq : S3 m = Tin1 m := funext fun c => funext fun b => (congrFun (V3_eq m c) _).symm
theorem S5_eq : S5 m = Tin2 m := funext fun c => funext fun b => (congrFun (V5_eq m c) _).symm
theorem S7_eq : S7 m = Tin3 m := funext fun c => funext fun b => (congrFun (V7_eq m c) _).symm

/-- What each region leaves in its output array is its pipeline's fold over the contents it finds. -/
theorem outs_2 (c : Dev nD) : outs m 2 main_v26 c = (dat0 (fun c b => Gen.V1 m c b) c).arrAt 5 cfg0.N := outs_2' m c
theorem outs_4 (c : Dev nD) : outs m 4 main_v37 c = (dat1 (fun c b => Gen.V3 m (outs m) c b) c).arrAt 5 cfg1.N :=
  (outs_4' m c).trans (congrArg (fun V => (dat1 V c).arrAt 5 cfg1.N) (S3_eq m))
theorem outs_6 (c : Dev nD) : outs m 6 main_v71 c = (dat2 (fun c b => Gen.V5 m (outs m) c b) c).arrAt 5 cfg2.N :=
  (outs_6' m c).trans (congrArg (fun V => (dat2 V c).arrAt 5 cfg2.N) (S5_eq m))
theorem outs_8 (c : Dev nD) : outs m 8 main_v84 c = (dat3 (fun c b => Gen.V7 m (outs m) c b) c).arrAt 5 cfg3.N :=
  (outs_8' m c).trans (congrArg (fun V => (dat3 V c).arrAt 5 cfg3.N) (S7_eq m))

/-! ## At a region's exit its arrays hold what the pipeline leaves, every other buffer what it held at entry -/

/-- Region 0's windows: five inputs, none on the output array, and the output window, on it. -/
theorem win_cases0 : ∀ w : Fin cfg0.W,
    ((cfg0.win w).isOut = false ∧ Pipeline.arrRef spec0 w ∉ ([main_v26] : List (Ref sig .tc))) ∨ w = 5 := by decide
/-- An input window's array is as the region found it (no write-back touches it), and it is not the output array. -/
theorem hF0_in (c : Dev nD) (w : Fin cfg0.W) (hin : (cfg0.win w).isOut = false)
    (hne : Pipeline.arrRef spec0 w ∉ ([main_v26] : List (Ref sig .tc))) :
    (dat0 (Tin0 m) c).arrAt w cfg0.N = Tout0 m c (Pipeline.arrRef spec0 w) :=
  ((dat0 (Tin0 m) c).arrAt_in w hin _).trans
    ((A_eq0 (Tin0 m) c w).trans (Gen.V2_of m (outs m) c (Pipeline.arrRef spec0 w) hne).symm)
/-- The output window's array holds the fold, which is what `outs` holds there. -/
theorem hF0_out (c : Dev nD) : (dat0 (Tin0 m) c).arrAt 5 cfg0.N = Tout0 m c main_v26 := by
  show _ = Function.update (Gen.V1 m c) main_v26 (outs m 2 main_v26 c) main_v26
  rw [Function.update_self]
  exact (outs_2 m c).symm
theorem hF0 (c : Dev nD) (w : Fin cfg0.W) : (dat0 (Tin0 m) c).arrAt w cfg0.N = Tout0 m c (Pipeline.arrRef spec0 w) := by
  rcases win_cases0 w with ⟨hin, hne⟩ | rfl
  · exact hF0_in m c w hin hne
  · exact hF0_out m c
theorem hrest0 (c : Dev nD) : ∀ b, b ∉ Finset.univ.image (Pipeline.arrRef spec0) → Tout0 m c b = Tin0 m c b :=
  fun b hb => Gen.V2_of m (outs m) c b fun h =>
    hb (Finset.mem_image.mpr ⟨5, Finset.mem_univ _, (List.mem_singleton.mp h).symm⟩)

/-- Region 1's windows: five inputs, none on the output array, and the output window, on it. -/
theorem win_cases1 : ∀ w : Fin cfg1.W,
    ((cfg1.win w).isOut = false ∧ Pipeline.arrRef spec1 w ∉ ([main_v37] : List (Ref sig .tc))) ∨ w = 5 := by decide
/-- An input window's array is as the region found it (no write-back touches it), and it is not the output array. -/
theorem hF1_in (c : Dev nD) (w : Fin cfg1.W) (hin : (cfg1.win w).isOut = false)
    (hne : Pipeline.arrRef spec1 w ∉ ([main_v37] : List (Ref sig .tc))) :
    (dat1 (Tin1 m) c).arrAt w cfg1.N = Tout1 m c (Pipeline.arrRef spec1 w) :=
  ((dat1 (Tin1 m) c).arrAt_in w hin _).trans
    ((A_eq1 (Tin1 m) c w).trans (Gen.V4_of m (outs m) c (Pipeline.arrRef spec1 w) hne).symm)
/-- The output window's array holds the fold, which is what `outs` holds there. -/
theorem hF1_out (c : Dev nD) : (dat1 (Tin1 m) c).arrAt 5 cfg1.N = Tout1 m c main_v37 := by
  show _ = Function.update (Gen.V3 m (outs m) c) main_v37 (outs m 4 main_v37 c) main_v37
  rw [Function.update_self]
  exact (outs_4 m c).symm
theorem hF1 (c : Dev nD) (w : Fin cfg1.W) : (dat1 (Tin1 m) c).arrAt w cfg1.N = Tout1 m c (Pipeline.arrRef spec1 w) := by
  rcases win_cases1 w with ⟨hin, hne⟩ | rfl
  · exact hF1_in m c w hin hne
  · exact hF1_out m c
theorem hrest1 (c : Dev nD) : ∀ b, b ∉ Finset.univ.image (Pipeline.arrRef spec1) → Tout1 m c b = Tin1 m c b :=
  fun b hb => Gen.V4_of m (outs m) c b fun h =>
    hb (Finset.mem_image.mpr ⟨5, Finset.mem_univ _, (List.mem_singleton.mp h).symm⟩)

/-- Region 2's windows: five inputs, none on the output array, and the output window, on it. -/
theorem win_cases2 : ∀ w : Fin cfg2.W,
    ((cfg2.win w).isOut = false ∧ Pipeline.arrRef spec2 w ∉ ([main_v71] : List (Ref sig .tc))) ∨ w = 5 := by decide
/-- An input window's array is as the region found it (no write-back touches it), and it is not the output array. -/
theorem hF2_in (c : Dev nD) (w : Fin cfg2.W) (hin : (cfg2.win w).isOut = false)
    (hne : Pipeline.arrRef spec2 w ∉ ([main_v71] : List (Ref sig .tc))) :
    (dat2 (Tin2 m) c).arrAt w cfg2.N = Tout2 m c (Pipeline.arrRef spec2 w) :=
  ((dat2 (Tin2 m) c).arrAt_in w hin _).trans
    ((A_eq2 (Tin2 m) c w).trans (Gen.V6_of m (outs m) c (Pipeline.arrRef spec2 w) hne).symm)
/-- The output window's array holds the fold, which is what `outs` holds there. -/
theorem hF2_out (c : Dev nD) : (dat2 (Tin2 m) c).arrAt 5 cfg2.N = Tout2 m c main_v71 := by
  show _ = Function.update (Gen.V5 m (outs m) c) main_v71 (outs m 6 main_v71 c) main_v71
  rw [Function.update_self]
  exact (outs_6 m c).symm
theorem hF2 (c : Dev nD) (w : Fin cfg2.W) : (dat2 (Tin2 m) c).arrAt w cfg2.N = Tout2 m c (Pipeline.arrRef spec2 w) := by
  rcases win_cases2 w with ⟨hin, hne⟩ | rfl
  · exact hF2_in m c w hin hne
  · exact hF2_out m c
theorem hrest2 (c : Dev nD) : ∀ b, b ∉ Finset.univ.image (Pipeline.arrRef spec2) → Tout2 m c b = Tin2 m c b :=
  fun b hb => Gen.V6_of m (outs m) c b fun h =>
    hb (Finset.mem_image.mpr ⟨5, Finset.mem_univ _, (List.mem_singleton.mp h).symm⟩)

/-- Region 3's windows: five inputs, none on the output array, and the output window, on it. -/
theorem win_cases3 : ∀ w : Fin cfg3.W,
    ((cfg3.win w).isOut = false ∧ Pipeline.arrRef spec3 w ∉ ([main_v84] : List (Ref sig .tc))) ∨ w = 5 := by decide
/-- An input window's array is as the region found it (no write-back touches it), and it is not the output array. -/
theorem hF3_in (c : Dev nD) (w : Fin cfg3.W) (hin : (cfg3.win w).isOut = false)
    (hne : Pipeline.arrRef spec3 w ∉ ([main_v84] : List (Ref sig .tc))) :
    (dat3 (Tin3 m) c).arrAt w cfg3.N = Tout3 m c (Pipeline.arrRef spec3 w) :=
  ((dat3 (Tin3 m) c).arrAt_in w hin _).trans
    ((A_eq3 (Tin3 m) c w).trans (Gen.V8_of m (outs m) c (Pipeline.arrRef spec3 w) hne).symm)
/-- The output window's array holds the fold, which is what `outs` holds there. -/
theorem hF3_out (c : Dev nD) : (dat3 (Tin3 m) c).arrAt 5 cfg3.N = Tout3 m c main_v84 := by
  show _ = Function.update (Gen.V7 m (outs m) c) main_v84 (outs m 8 main_v84 c) main_v84
  rw [Function.update_self]
  exact (outs_8 m c).symm
theorem hF3 (c : Dev nD) (w : Fin cfg3.W) : (dat3 (Tin3 m) c).arrAt w cfg3.N = Tout3 m c (Pipeline.arrRef spec3 w) := by
  rcases win_cases3 w with ⟨hin, hne⟩ | rfl
  · exact hF3_in m c w hin hne
  · exact hF3_out m c
theorem hrest3 (c : Dev nD) : ∀ b, b ∉ Finset.univ.image (Pipeline.arrRef spec3) → Tout3 m c b = Tin3 m c b :=
  fun b hb => Gen.V8_of m (outs m) c b fun h =>
    hb (Finset.mem_image.mpr ⟨5, Finset.mem_univ _, (List.mem_singleton.mp h).symm⟩)

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (Tin0 m) c
  | ⟨1, _⟩ => fun c => dat1 (Tin1 m) c
  | ⟨2, _⟩ => fun c => dat2 (Tin2 m) c
  | ⟨3, _⟩ => fun c => dat3 (Tin3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at its entry contents, left at its exit
    contents. Its arrays are split out of the unscoped buffers and put back at the exit contents; the generator
    register goes into the pipeline's invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Tin0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Tin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Tin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Tin0 m c) (Tout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents. Its arrays are split out of the unscoped buffers and put back at the exit contents; the generator
    register goes into the pipeline's invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Tin1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Tin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Tin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Tin1 m c) (Tout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit
    contents. Its arrays are split out of the unscoped buffers and put back at the exit contents; the generator
    register goes into the pipeline's invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Tin2 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Tin2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Tin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Tin2 m c) (Tout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit
    contents. Its arrays are split out of the unscoped buffers and put back at the exit contents; the generator
    register goes into the pipeline's invariant and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Tin3 m) c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (Tin3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Tin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Tin3 m c) (Tout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters, every weakly fair execution of the program on the cores terminates, nothing
    faulting, and every final memory holds the last region's output array at the last stage's contents and each
    argument array as launched: the launch over the eight segments, the last thread state read against the final
    memory, each argument walked back through the stages to the launch memory. -/
theorem run (ρ : Dev nD → PrngReg) : θ_run defs (onTc (τ := τ) (main (F := F))) ⟨m, fun _ => 0, ρ⟩ (fun r => ∀ c : Dev nD,
      r.2.mem ((c.tc : Thread nD τ).loc main_v84) = Gen.V8 m (outs m) c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m))
    (fun c Q => by
      rewrite [main_chain c, Seg.run_eq_chain,
        show ((Gen.segs m (outs m) 𝒱₀ L lv (fun _ c => R c) () (pdats m) (reg0 m) (reg1 m) (reg2 m) (reg3 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c =>
      ⟨h c _ (mem_uc main_v84 (by decide)),
        (h c _ (mem_uc main_arg0 (by decide))).trans (Gen.V8_main_arg0 m (outs m) c),
        (h c _ (mem_uc main_arg1 (by decide))).trans (Gen.V8_main_arg1 m (outs m) c),
        (h c _ (mem_uc main_arg2 (by decide))).trans (Gen.V8_main_arg2 m (outs m) c),
        (h c _ (mem_uc main_arg3 (by decide))).trans (Gen.V8_main_arg3 m (outs m) c),
        (h c _ (mem_uc main_arg4 (by decide))).trans (Gen.V8_main_arg4 m (outs m) c),
        (h c _ (mem_uc main_arg5 (by decide))).trans (Gen.V8_main_arg5 m (outs m) c),
        (h c _ (mem_uc main_arg6 (by decide))).trans (Gen.V8_main_arg6 m (outs m) c),
        (h c _ (mem_uc main_arg7 (by decide))).trans (Gen.V8_main_arg7 m (outs m) c),
        (h c _ (mem_uc main_arg8 (by decide))).trans (Gen.V8_main_arg8 m (outs m) c),
        (h c _ (mem_uc main_arg9 (by decide))).trans (Gen.V8_main_arg9 m (outs m) c),
        (h c _ (mem_uc main_arg10 (by decide))).trans (Gen.V8_main_arg10 m (outs m) c),
        (h c _ (mem_uc main_arg11 (by decide))).trans (Gen.V8_main_arg11 m (outs m) c),
        (h c _ (mem_uc main_arg12 (by decide))).trans (Gen.V8_main_arg12 m (outs m) c),
        (h c _ (mem_uc main_arg13 (by decide))).trans (Gen.V8_main_arg13 m (outs m) c),
        (h c _ (mem_uc main_arg14 (by decide))).trans (Gen.V8_main_arg14 m (outs m) c),
        (h c _ (mem_uc main_arg15 (by decide))).trans (Gen.V8_main_arg15 m (outs m) c),
        (h c _ (mem_uc main_arg16 (by decide))).trans (Gen.V8_main_arg16 m (outs m) c),
        (h c _ (mem_uc main_arg17 (by decide))).trans (Gen.V8_main_arg17 m (outs m) c),
        (h c _ (mem_uc main_arg18 (by decide))).trans (Gen.V8_main_arg18 m (outs m) c)⟩)

end Cert.KernelIdeal.Hand

end
-- ==== Proof.KI.Terms.lean ====
/-
  The host-side glue of the graph network as named whole-array functions, at the ideal instance.

  From the edge list `ei` (two rows: an edge's receiving node and its sending node): the two index rows, an index row
  normalised the way array indexing does (a negative index counts from the end), the number of edges received per node,
  the position difference along each edge, and the mean over a node's received edges of a per-edge feature (the sum
  scattered to the receiving node, over that count clamped below by one).
-/
import proofs.«160275_j16484084483095_2_alg».proof.Proof.Gen.KernelIdeal
import Idealize.ShloMosaic.PureOps.Ideal

noncomputable section

namespace Cert.KernelIdeal.Terms

open Idealize.ShloMosaic Cert.KernelIdeal Cert.KernelIdeal.Gen

/-- The receiving node of each edge. -/
def rowT (ei : IVec S2x800000 32) : IVec S800000 32 :=
  shapeCast S800000 (extractStridedSlice S1x800000 ![0, 0] ei slices_S2x800000_S1x800000_0_0) shapeCasts_S1x800000_S800000

/-- The sending node of each edge. -/
def colT (ei : IVec S2x800000 32) : IVec S800000 32 :=
  shapeCast S800000 (extractStridedSlice S1x800000 ![1, 0] ei slices_S2x800000_S1x800000_1_0) shapeCasts_S1x800000_S800000

/-- An index row with its negative entries counted from the end, as a column of indices. -/
def nrmT (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- An index row as a column of indices, as it is. -/
def colOfT (v : IVec S800000 32) : IVec S800000x1 32 :=
  broadcastInDim S800000x1 ![0] bcast_S800000_S800000x1_0 v

/-- The number of edges each node receives. -/
def cntT (ei : IVec S2x800000 32) : FVec Ideal S50000 .f32 :=
  Host.scatterAdd (F := Ideal) scatter_S50000_S800000x1_S800000_n_0_0_1
    (broadcastInDim S50000 ![] bcast_S_S50000 (constant (F := Ideal) S_ .f32 0x00000000#32))
    (colOfT (rowT ei))
    (broadcastInDim S800000 ![] bcast_S_S800000 (constant (F := Ideal) S_ .f32 0x3F800000#32))

/-- The position of the sending node minus that of the receiving node, per edge. -/
def pdiffT (pos : FVec Ideal S50000x2 .f32) (ei : IVec S2x800000 32) : FVec Ideal S800000x2 .f32 :=
  subf (Host.gather gather_S50000x2_S800000x1_S800000x2_1_0_n_n_0_1_12 pos (nrmT (colT ei)))
    (Host.gather gather_S50000x2_S800000x1_S800000x2_1_0_n_n_0_1_12 pos (nrmT (rowT ei)))

/-- The mean, over the edges a node receives (`row`: each edge's receiving node; `cnt`: the number received per
    node), of a per-edge feature row. -/
def segMeanT (row : IVec S800000 32) (cnt : FVec Ideal S50000 .f32) (vals : FVec Ideal S800000x64 .f32) : FVec Ideal S50000x64 .f32 :=
  Host.divf (F := Ideal)
    (Host.scatterAdd (F := Ideal) scatter_S50000x64_S800000x1_S800000x64_1_0_0_1
      (broadcastInDim S50000x64 ![] bcast_S_S50000x64 (constant (F := Ideal) S_ .f32 0x00000000#32))
      (colOfT row) vals)
    (broadcastInDim S50000x64 ![0, 1] bcast_S50000x1_S50000x64_0_1
      (broadcastInDim S50000x1 ![0] bcast_S50000_S50000x1_0
        (maximumf cnt (broadcastInDim S50000 ![] bcast_S_S50000 (constant (F := Ideal) S_ .f32 0x3F800000#32)))))

end Cert.KernelIdeal.Terms

end
-- ==== Proof.Spec.lean ====
/-
  A two-layer perceptron with a rectifier, entry by entry.

  For an input matrix `X` (rows `r`, features `k`), a first layer `W1`, `b1`, and a second layer `W2`, `b2`, entry
  `(r, c)` of the result is  Σ_h max(Σ_k X r k · W1 k h + b1 h, 0) · W2 h c + b2 c  on the extended reals.
  Matrices are plain functions of their two coordinates, so that the same formula serves a row block of a matrix, a
  transposed matrix and a whole matrix alike.
-/
import Mathlib.Data.EReal.Basic
import Mathlib.Algebra.BigOperators.Fin

noncomputable section

open scoped BigOperators

namespace Cert.Mlp

/-- The hidden layer at row `r`, unit `h`. -/
def hid {M K H : ℕ} (X : Fin M → Fin K → EReal) (W1 : Fin K → Fin H → EReal) (b1 : Fin H → EReal)
    (r : Fin M) (h : Fin H) : EReal :=
  max ((∑ k : Fin K, X r k * W1 k h) + b1 h) 0

/-- The perceptron at row `r`, column `c`. -/
def mlp {M K H N : ℕ} (X : Fin M → Fin K → EReal) (W1 : Fin K → Fin H → EReal) (b1 : Fin H → EReal)
    (W2 : Fin H → Fin N → EReal) (b2 : Fin N → EReal) (r : Fin M) (c : Fin N) : EReal :=
  (∑ h : Fin H, hid X W1 b1 r h * W2 h c) + b2 c

/-- The result at a row depends on `X` through that row only. -/
theorem mlp_congr_row {M M' K H N : ℕ} (X : Fin M → Fin K → EReal) (X' : Fin M' → Fin K → EReal)
    (W1 : Fin K → Fin H → EReal) (b1 : Fin H → EReal) (W2 : Fin H → Fin N → EReal) (b2 : Fin N → EReal)
    (r : Fin M) (r' : Fin M') (c : Fin N) (h : ∀ k, X r k = X' r' k) :
    mlp X W1 b1 W2 b2 r c = mlp X' W1 b1 W2 b2 r' c := by
  unfold mlp hid
  simp only [h]

/-- The result is determined by the first layer's pre-activations. -/
theorem mlp_congr_pre {M K K' H N : ℕ} (X : Fin M → Fin K → EReal) (X' : Fin M → Fin K' → EReal)
    (W1 : Fin K → Fin H → EReal) (W1' : Fin K' → Fin H → EReal) (b1 : Fin H → EReal)
    (W2 : Fin H → Fin N → EReal) (b2 : Fin N → EReal) (r : Fin M) (c : Fin N)
    (h : ∀ h, ∑ k : Fin K, X r k * W1 k h = ∑ k : Fin K', X' r k * W1' k h) :
    mlp X W1 b1 W2 b2 r c = mlp X' W1' b1 W2 b2 r c := by
  unfold mlp hid
  simp only [h]

/-- Two perceptrons agree at an entry as soon as their data agree where that entry reads them: the input's row,
    the whole first layer, the second layer's column and its bias entry. The row counts may differ. -/
theorem mlp_congr {M M' K H N : ℕ} (X : Fin M → Fin K → EReal) (X' : Fin M' → Fin K → EReal)
    (W1 W1' : Fin K → Fin H → EReal) (b1 b1' : Fin H → EReal) (W2 W2' : Fin H → Fin N → EReal) (b2 b2' : Fin N → EReal)
    (r : Fin M) (r' : Fin M') (c c' : Fin N)
    (hX : ∀ k, X r k = X' r' k) (hW1 : ∀ k h, W1 k h = W1' k h) (hb1 : ∀ h, b1 h = b1' h)
    (hW2 : ∀ h, W2 h c = W2' h c') (hb2 : b2 c = b2' c') :
    mlp X W1 b1 W2 b2 r c = mlp X' W1' b1' W2' b2' r' c' := by
  unfold mlp hid
  simp only [hX, hW1, hb1, hW2, hb2]

end Cert.Mlp

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.PayIx.lean ====
/-
  The four fused perceptrons' stored values, read at an index.

  Each block kernel stores  max(X·W1 + b1, 0)·W2 + b2  of the block it has loaded, written as a chain of vector
  operations: two products into a zero accumulator, a row of biases broadcast down the rows, a maximum against a
  zero splat, and format changes that are the identity on extended reals.  Read at row `r` and column `c`, the chain
  is the perceptron's formula `Cert.Mlp.mlp` of the loaded operands taken as functions of their coordinates.
-/
import proofs.«160275_j16484084483095_2_alg».proof.Proof.Gen.KernelIdeal.Skeleton
import proofs.«160275_j16484084483095_2_alg».proof.Proof.Spec
import proofs.«160275_j16484084483095_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIx

open Idealize.ShloMosaic Idealize.ShloMosaic.ValueIdx Cert.KernelIdeal Cert.KernelIdeal.Gen

/-- The chain after the first product `P`: the bias row added, the rectifier, the second product into the zero
    accumulator and the second bias row, read at `(r, c)`.  The second product's dimension numbers `D` are plain:
    the four coordinate facts say so. -/
theorem tail_ix {M H N : Nat}
    (D : DotDims (⟨2, ![M, H]⟩ : Shape) (⟨2, ![H, N]⟩ : Shape) (⟨2, ![M, N]⟩ : Shape))
    (hr : D.contr.rank = 1) (hs : D.contr.size ⟨0, by omega⟩ = H)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (P : FVec Ideal (⟨2, ![M, H]⟩ : Shape) .f32) (b1 : FVec Ideal (⟨2, ![1, H]⟩ : Shape) .f32)
    (W2 : FVec Ideal (⟨2, ![H, N]⟩ : Shape) .f32) (b2 : FVec Ideal (⟨2, ![1, N]⟩ : Shape) .f32)
    (c1 : (⟨2, ![1, H]⟩ : Shape).ShapeCasts ⟨2, ![1, H]⟩) (hb1 : (⟨2, ![1, H]⟩ : Shape).Broadcasts ⟨2, ![M, H]⟩)
    (c2 : (⟨2, ![1, N]⟩ : Shape).ShapeCasts ⟨2, ![1, N]⟩) (hb2 : (⟨2, ![1, N]⟩ : Shape).Broadcasts ⟨2, ![M, N]⟩)
    (hlt : FTy.bf16.bits < FTy.f32.bits) (r : Fin M) (c : Fin N) :
    addf (matmul D none
        (truncf .bf16 (maximumf (addf P (broadcastTo (⟨2, ![M, H]⟩ : Shape) (shapeCast (⟨2, ![1, H]⟩ : Shape) b1 c1) hb1))
          (broadcast (⟨2, ![M, H]⟩ : Shape) (Scalar.ofBits (F := Ideal) .f32 0x00000000#32))) hlt)
        (truncf .bf16 W2 hlt) (constant (⟨2, ![M, N]⟩ : Shape) .f32 0x00000000#32))
      (broadcastTo (⟨2, ![M, N]⟩ : Shape) (shapeCast (⟨2, ![1, N]⟩ : Shape) b2 c2) hb2) (ix2 r c)
      = (∑ h : Fin H, max (P (ix2 r h) + b1 (ix2 0 h)) 0 * W2 (ix2 h c)) + b2 (ix2 0 c) := by
  rw [addf_apply, shapeCast_self, shapeCast_self, broadcastTo_1b_ab_apply]
  refine congrArg (· + b2 (ix2 0 c)) ?_
  refine (Cert.Lib.PlainDot.matmul_zero_apply D hr hs l0 l1 r0 r1 none _ _ (ix2 r c)).trans ?_
  refine Finset.sum_congr rfl fun h _ => ?_
  show max (P (ix2 r h) + broadcastTo (⟨2, ![M, H]⟩ : Shape) b1 hb1 (ix2 r h)) (Ideal.ofBits .f32 0x00000000#32) * W2 (ix2 h c) = _
  rw [broadcastTo_1b_ab_apply, Ideal.ofBits_zero_f32]

/-- The left operand's coordinate on its free axis `a` is the output's row coordinate: the record's lists decide it. -/
local macro "dot_lhs_free" D:term "," sl:term "," a:term : tactic => `(tactic| (
  intro j q
  unfold DotDims.lhsIdx
  rw [dif_neg (show ¬(($a : Fin (Shape.rank $sl))) ∈ DotDims.lhsBatch $D by decide),
    dif_pos (show (($a : Fin (Shape.rank $sl))) ∈ DotDims.lhsNonContracting $D by decide)]
  rfl))

/-- The right operand's coordinate on its free axis `a` is the output's column coordinate. -/
local macro "dot_rhs_free" D:term "," sr:term "," a:term : tactic => `(tactic| (
  intro j q
  unfold DotDims.rhsIdx
  rw [dif_neg (show ¬(($a : Fin (Shape.rank $sr))) ∈ DotDims.rhsBatch $D by decide),
    dif_pos (show (($a : Fin (Shape.rank $sr))) ∈ DotDims.rhsNonContracting $D by decide)]
  rfl))

/-- Region 0's stored block.  Its input arrives transposed, `[2, 6400]`, and the first product contracts axis 0 of BOTH
    operands: at `(r, h)` it is the sum over `k` of the input at `(k, r)` times the weight at `(k, h)`, the perceptron
    of the transposed block's rows. -/
theorem k0_pay1_ix (v0 : Vec Ideal S2x6400 .f32) (v3 : Vec Ideal S2x128 .f32) (v6 : Vec Ideal S1x128 .f32)
    (v13 : Vec Ideal S128x64 .f32) (v16 : Vec Ideal S1x64 .f32) (r : Fin 6400) (c : Fin 64) :
    k0_pay1 (F := Ideal) v0 v3 v6 v13 v16 (ix2 r c)
      = Cert.Mlp.mlp (fun (r : Fin 6400) (k : Fin 2) => v0 (ix2 k r)) (fun (k : Fin 2) (h : Fin 128) => v3 (ix2 k h))
          (fun h : Fin 128 => v6 (ix2 0 h)) (fun (h : Fin 128) (c : Fin 64) => v13 (ix2 h c))
          (fun c : Fin 64 => v16 (ix2 0 c)) r c := by
  unfold Cert.Mlp.mlp Cert.Mlp.hid
  refine (tail_ix dot_S6400x128_S128x64_S6400x64_1_0_0_1_n_n rfl rfl
    (by dot_lhs_free dot_S6400x128_S128x64_S6400x64_1_0_0_1_n_n, S6400x128, 0)
    (fun j q => dot_S6400x128_S128x64_S6400x64_1_0_0_1_n_n.lhsIdx_val_of_single rfl j q)
    (fun j q => dot_S6400x128_S128x64_S6400x64_1_0_0_1_n_n.rhsIdx_val_of_single rfl j q)
    (by dot_rhs_free dot_S6400x128_S128x64_S6400x64_1_0_0_1_n_n, S128x64, 1)
    _ v6 v13 v16 _ _ _ _ _ r c).trans ?_
  refine congrArg (· + v16 (ix2 0 c)) (Finset.sum_congr rfl fun h _ => ?_)
  refine congrArg (fun x : EReal => max (x + v6 (ix2 0 h)) 0 * v13 (ix2 h c)) ?_
  refine (Ideal.matmul_constant_zero_apply dot_S2x6400_S2x128_S6400x128_0_0_1_1_n_n none _ _ (ix2 r h)).trans ?_
  rw [← Equiv.sum_comp (contrEquiv1 dot_S2x6400_S2x128_S6400x128_0_0_1_1_n_n 2 rfl rfl).symm]
  refine Finset.sum_congr rfl fun k _ => ?_
  have hk := contrEquiv1_symm_val dot_S2x6400_S2x128_S6400x128_0_0_1_1_n_n 2 rfl rfl k
  have lf : ∀ (j : S6400x128.Idx) (q : dot_S2x6400_S2x128_S6400x128_0_0_1_1_n_n.contr.Idx),
      (dot_S2x6400_S2x128_S6400x128_0_0_1_1_n_n.lhsIdx j q 1).val = (j 0).val := by
    dot_lhs_free dot_S2x6400_S2x128_S6400x128_0_0_1_1_n_n, S2x6400, 1
  have rf : ∀ (j : S6400x128.Idx) (q : dot_S2x6400_S2x128_S6400x128_0_0_1_1_n_n.contr.Idx),
      (dot_S2x6400_S2x128_S6400x128_0_0_1_1_n_n.rhsIdx j q 1).val = (j 1).val := by
    dot_rhs_free dot_S2x6400_S2x128_S6400x128_0_0_1_1_n_n, S2x128, 1
  have el : dot_S2x6400_S2x128_S6400x128_0_0_1_1_n_n.lhsIdx (ix2 r h)
      ((contrEquiv1 dot_S2x6400_S2x128_S6400x128_0_0_1_1_n_n 2 rfl rfl).symm k) = ix2 k r := funext fun a => Fin.ext (by
    match a with
    | ⟨0, _⟩ => exact (dot_S2x6400_S2x128_S6400x128_0_0_1_1_n_n.lhsIdx_val_of_single rfl _ _).trans hk
    | ⟨1, _⟩ => exact lf _ _)
  have er : dot_S2x6400_S2x128_S6400x128_0_0_1_1_n_n.rhsIdx (ix2 r h)
      ((contrEquiv1 dot_S2x6400_S2x128_S6400x128_0_0_1_1_n_n 2 rfl rfl).symm k) = ix2 k h := funext fun a => Fin.ext (by
    match a with
    | ⟨0, _⟩ => exact (dot_S2x6400_S2x128_S6400x128_0_0_1_1_n_n.rhsIdx_val_of_single rfl _ _).trans hk
    | ⟨1, _⟩ => exact rf _ _)
  rw [el, er, truncf_apply, truncf_apply, shapeCast_self]

/-- Region 1's stored block: the rows of a `[10000, 64]` block through the perceptron. -/
theorem k1_pay1_ix (v0 : Vec Ideal S10000x64 .f32) (v3 : Vec Ideal S64x128 .f32) (v6 : Vec Ideal S1x128 .f32)
    (v13 : Vec Ideal S128x64 .f32) (v16 : Vec Ideal S1x64 .f32) (r : Fin 10000) (c : Fin 64) :
    k1_pay1 (F := Ideal) v0 v3 v6 v13 v16 (ix2 r c)
      = Cert.Mlp.mlp (fun (r : Fin 10000) (k : Fin 64) => v0 (ix2 r k)) (fun (k : Fin 64) (h : Fin 128) => v3 (ix2 k h))
          (fun h : Fin 128 => v6 (ix2 0 h)) (fun (h : Fin 128) (c : Fin 64) => v13 (ix2 h c))
          (fun c : Fin 64 => v16 (ix2 0 c)) r c := by
  unfold Cert.Mlp.mlp Cert.Mlp.hid
  refine (tail_ix dot_S10000x128_S128x64_S10000x64_1_0_0_1_n_n rfl rfl
    (by dot_lhs_free dot_S10000x128_S128x64_S10000x64_1_0_0_1_n_n, S10000x128, 0)
    (fun j q => dot_S10000x128_S128x64_S10000x64_1_0_0_1_n_n.lhsIdx_val_of_single rfl j q)
    (fun j q => dot_S10000x128_S128x64_S10000x64_1_0_0_1_n_n.rhsIdx_val_of_single rfl j q)
    (by dot_rhs_free dot_S10000x128_S128x64_S10000x64_1_0_0_1_n_n, S128x64, 1)
    _ v6 v13 v16 _ _ _ _ _ r c).trans ?_
  refine congrArg (· + v16 (ix2 0 c)) (Finset.sum_congr rfl fun h _ => ?_)
  refine congrArg (fun x : EReal => max (x + v6 (ix2 0 h)) 0 * v13 (ix2 h c)) ?_
  refine (Cert.Lib.PlainDot.matmul_zero_apply dot_S10000x64_S64x128_S10000x128_1_0_0_1_n_n rfl rfl
    (by dot_lhs_free dot_S10000x64_S64x128_S10000x128_1_0_0_1_n_n, S10000x64, 0)
    (fun j q => dot_S10000x64_S64x128_S10000x128_1_0_0_1_n_n.lhsIdx_val_of_single rfl j q)
    (fun j q => dot_S10000x64_S64x128_S10000x128_1_0_0_1_n_n.rhsIdx_val_of_single rfl j q)
    (by dot_rhs_free dot_S10000x64_S64x128_S10000x128_1_0_0_1_n_n, S64x128, 1)
    none _ _ (ix2 r h)).trans ?_
  refine Finset.sum_congr rfl fun k _ => ?_
  rw [truncf_apply, truncf_apply, shapeCast_self]

/-- Region 2's stored block: the rows of a `[6400, 194]` block, already in the narrow format, through the perceptron. -/
theorem k2_pay1_ix (v0 : Vec Ideal S6400x194 .bf16) (v2 : Vec Ideal S194x128 .f32) (v6 : Vec Ideal S1x128 .f32)
    (v13 : Vec Ideal S128x64 .f32) (v16 : Vec Ideal S1x64 .f32) (r : Fin 6400) (c : Fin 64) :
    k2_pay1 (F := Ideal) v0 v2 v6 v13 v16 (ix2 r c)
      = Cert.Mlp.mlp (fun (r : Fin 6400) (k : Fin 194) => v0 (ix2 r k)) (fun (k : Fin 194) (h : Fin 128) => v2 (ix2 k h))
          (fun h : Fin 128 => v6 (ix2 0 h)) (fun (h : Fin 128) (c : Fin 64) => v13 (ix2 h c))
          (fun c : Fin 64 => v16 (ix2 0 c)) r c := by
  unfold Cert.Mlp.mlp Cert.Mlp.hid
  refine (tail_ix dot_S6400x128_S128x64_S6400x64_1_0_0_1_n_n rfl rfl
    (by dot_lhs_free dot_S6400x128_S128x64_S6400x64_1_0_0_1_n_n, S6400x128, 0)
    (fun j q => dot_S6400x128_S128x64_S6400x64_1_0_0_1_n_n.lhsIdx_val_of_single rfl j q)
    (fun j q => dot_S6400x128_S128x64_S6400x64_1_0_0_1_n_n.rhsIdx_val_of_single rfl j q)
    (by dot_rhs_free dot_S6400x128_S128x64_S6400x64_1_0_0_1_n_n, S128x64, 1)
    _ v6 v13 v16 _ _ _ _ _ r c).trans ?_
  refine congrArg (· + v16 (ix2 0 c)) (Finset.sum_congr rfl fun h _ => ?_)
  refine congrArg (fun x : EReal => max (x + v6 (ix2 0 h)) 0 * v13 (ix2 h c)) ?_
  refine (Cert.Lib.PlainDot.matmul_zero_apply dot_S6400x194_S194x128_S6400x128_1_0_0_1_n_n rfl rfl
    (by dot_lhs_free dot_S6400x194_S194x128_S6400x128_1_0_0_1_n_n, S6400x194, 0)
    (fun j q => dot_S6400x194_S194x128_S6400x128_1_0_0_1_n_n.lhsIdx_val_of_single rfl j q)
    (fun j q => dot_S6400x194_S194x128_S6400x128_1_0_0_1_n_n.rhsIdx_val_of_single rfl j q)
    (by dot_rhs_free dot_S6400x194_S194x128_S6400x128_1_0_0_1_n_n, S194x128, 1)
    none _ _ (ix2 r h)).trans ?_
  refine Finset.sum_congr rfl fun k _ => ?_
  rw [truncf_apply, shapeCast_self, shapeCast_self]

/-- Region 3's stored block: the rows of a `[10000, 128]` block, already in the narrow format, through the perceptron. -/
theorem k3_pay1_ix (v0 : Vec Ideal S10000x128 .bf16) (v2 : Vec Ideal S128x128 .f32) (v5 : Vec Ideal S1x128 .f32)
    (v12 : Vec Ideal S128x64 .f32) (v15 : Vec Ideal S1x64 .f32) (r : Fin 10000) (c : Fin 64) :
    k3_pay1 (F := Ideal) v0 v2 v5 v12 v15 (ix2 r c)
      = Cert.Mlp.mlp (fun (r : Fin 10000) (k : Fin 128) => v0 (ix2 r k)) (fun (k : Fin 128) (h : Fin 128) => v2 (ix2 k h))
          (fun h : Fin 128 => v5 (ix2 0 h)) (fun (h : Fin 128) (c : Fin 64) => v12 (ix2 h c))
          (fun c : Fin 64 => v15 (ix2 0 c)) r c := by
  unfold Cert.Mlp.mlp Cert.Mlp.hid
  refine (tail_ix dot_S10000x128_S128x64_S10000x64_1_0_0_1_n_n rfl rfl
    (by dot_lhs_free dot_S10000x128_S128x64_S10000x64_1_0_0_1_n_n, S10000x128, 0)
    (fun j q => dot_S10000x128_S128x64_S10000x64_1_0_0_1_n_n.lhsIdx_val_of_single rfl j q)
    (fun j q => dot_S10000x128_S128x64_S10000x64_1_0_0_1_n_n.rhsIdx_val_of_single rfl j q)
    (by dot_rhs_free dot_S10000x128_S128x64_S10000x64_1_0_0_1_n_n, S128x64, 1)
    _ v5 v12 v15 _ _ _ _ _ r c).trans ?_
  refine congrArg (· + v15 (ix2 0 c)) (Finset.sum_congr rfl fun h _ => ?_)
  refine congrArg (fun x : EReal => max (x + v5 (ix2 0 h)) 0 * v12 (ix2 h c)) ?_
  refine (Cert.Lib.PlainDot.matmul_zero_apply dot_S10000x128_S128x128_S10000x128_1_0_0_1_n_n rfl rfl
    (by dot_lhs_free dot_S10000x128_S128x128_S10000x128_1_0_0_1_n_n, S10000x128, 0)
    (fun j q => dot_S10000x128_S128x128_S10000x128_1_0_0_1_n_n.lhsIdx_val_of_single rfl j q)
    (fun j q => dot_S10000x128_S128x128_S10000x128_1_0_0_1_n_n.rhsIdx_val_of_single rfl j q)
    (by dot_rhs_free dot_S10000x128_S128x128_S10000x128_1_0_0_1_n_n, S128x128, 1)
    none _ _ (ix2 r h)).trans ?_
  refine Finset.sum_congr rfl fun k _ => ?_
  rw [truncf_apply, shapeCast_self]

end Cert.KernelIdeal.PayIx

end
-- ==== Proof.KI.Final0.lean ====
/-
  Region 0's output array after the run, as one function of the arrays the region finds.

  The region's grid cuts the rows into 125 blocks of 6400; at a point the body leaves in the output block the
  perceptron of the input's block of rows (the input is held transposed, features first, so a block of rows is a block of columns of it) with the whole weights and biases. A row of the result depends on
  the input through that row alone, so every block is the restriction of ONE whole-array function, and since the
  blocks cover the array the array ends holding that function.
-/
import proofs.«160275_j16484084483095_2_alg».proof.Proof.KI.Data
import proofs.«160275_j16484084483095_2_alg».proof.Proof.Spec
import proofs.«160275_j16484084483095_2_alg».proof.Proof.PayIx
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz0 : (![0, 0] : Fin 2 → Nat) = fun _ => 0 := funext fun a => by fin_cases a <;> rfl

/-- The perceptron of whole arrays: entry `(r, c)` reads row `r` of the input (column `r` of the transposed array), the weights, and the one-row biases. -/
def G0 (X : S2x800000.Idx → EReal) (W1 : S2x128.Idx → EReal) (B1 : S1x128.Idx → EReal) (W2 : S128x64.Idx → EReal)
    (B2 : S1x64.Idx → EReal) : S800000x64.Idx → EReal :=
  fun i => Cert.Mlp.mlp (fun (r : Fin 800000) (k : Fin 2) => X (ix2 k r)) (fun (k : Fin 2) (h : Fin 128) => W1 (ix2 k h))
    (fun h : Fin 128 => B1 (ix2 0 h)) (fun (h : Fin 128) (c : Fin 64) => W2 (ix2 h c)) (fun c : Fin 64 => B2 (ix2 0 c)) (i 0) (i 1)

/-- The printed index maps over the grid: the input's row block moves with the output's, every other block index is 0. -/
theorem idx_facts0 : ∀ t : Fin cfg0.N, win0_0.index t (0 : Fin 2) = 0 ∧ win0_0.index t (1 : Fin 2) = win0_5.index t (0 : Fin 2)
    ∧ win0_5.index t (1 : Fin 2) = 0 ∧ win0_5.index t (0 : Fin 2) ≤ 124
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every row block is some point's. -/
theorem idx_onto0 : ∀ q0 : Fin 125, ∃ t : Fin cfg0.N, win0_5.index t = ![q0.val, 0] :=
  (by decide +kernel : ∀ q0 : Fin 125, ∃ t : Fin grid0.N, win0_5.index t = ![q0.val, 0])

variable (V : (c : Dev nD) → (b : Ref sig .tc) → Buf (Elt Ideal) ((c : Thread nD τ).loc b))

/-- What point `t` writes back is block `t` of `G0` of the arrays the region finds. -/
theorem flushed0_eq (c : Dev nD) (t : Fin cfg0.N) :
    (dat0 (F := Ideal) V c).flushed 5 t = ((cfg0.win 5).blk t).view.read (Elt Ideal)
      (G0 (V c main_v23) (V c main_arg3) (V c main_v24) (V c main_arg5) (V c main_v25)) := by
  show (cfg0.win 5).cut (grid0.coords t) ((dat0 V c).after 5 t) = _
  rw [after0_5]
  unfold out0_5
  rw [View.canon_unit_zero hz0]
  simp only [View.ld_unit_zero (S := S2x6400) hz0, View.ld_unit_zero (S := S2x128) hz0, View.ld_unit_zero (S := S1x128) hz0,
    View.ld_unit_zero (S := S128x64) hz0, View.ld_unit_zero (S := S1x64) hz0]
  obtain ⟨e0, e1, e2, e3, f10, f11, f20, f21, f30, f31, f40, f41⟩ := idx_facts0 t
  funext j
  obtain ⟨r, q, rfl⟩ : ∃ (r : Fin 6400) (q : Fin 64), j = ix2 r q := ⟨j 0, j 1, eq_ix2 j⟩
  refine (Cert.KernelIdeal.PayIx.k0_pay1_ix _ _ _ _ _ r q).trans ?_
  show _ = G0 (V c main_v23) (V c main_arg3) (V c main_v24) (V c main_arg5) (V c main_v25) (((cfg0.win 5).blk t).view.emb (ix2 r q))
  unfold G0
  have hq : ((((cfg0.win 5).blk t).view.emb (ix2 r q)) 1 : Fin 64) = q := Fin.ext (by
    show win0_5.index t (1 : Fin 2) * 64 + 1 * q.val = q.val; omega)
  refine Cert.Mlp.mlp_congr _ _ _ _ _ _ _ _ _ _ r _ q _ (fun k => ?_) (fun k h => ?_) (fun h => ?_) (fun h => ?_) ?_
  · show V c main_v23 (((cfg0.win 0).blk t).view.emb (ix2 k r)) = V c main_v23 _
    refine congrArg _ (funext fun a => Fin.ext ?_)
    match a with
    | ⟨0, _⟩ => show win0_0.index t (0 : Fin 2) * 2 + 1 * k.val = k.val; omega
    | ⟨1, _⟩ => show win0_0.index t (1 : Fin 2) * 6400 + 1 * r.val = win0_5.index t (0 : Fin 2) * 6400 + 1 * r.val; omega
  · show V c main_arg3 (((cfg0.win 1).blk t).view.emb (ix2 k h)) = V c main_arg3 (ix2 k h)
    refine congrArg _ (funext fun a => Fin.ext ?_)
    match a with
    | ⟨0, _⟩ => show win0_1.index t (0 : Fin 2) * 2 + 1 * k.val = k.val; omega
    | ⟨1, _⟩ => show win0_1.index t (1 : Fin 2) * 128 + 1 * h.val = h.val; omega
  · show V c main_v24 (((cfg0.win 2).blk t).view.emb (ix2 0 h)) = V c main_v24 (ix2 0 h)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * h.val = h.val; omega
  · show V c main_arg5 (((cfg0.win 3).blk t).view.emb (ix2 h q)) = V c main_arg5 (ix2 h _)
    rw [hq]
    refine congrArg _ (funext fun a => Fin.ext ?_)
    match a with
    | ⟨0, _⟩ => show win0_3.index t (0 : Fin 2) * 128 + 1 * h.val = h.val; omega
    | ⟨1, _⟩ => show win0_3.index t (1 : Fin 2) * 64 + 1 * q.val = q.val; omega
  · show V c main_v25 (((cfg0.win 4).blk t).view.emb (ix2 0 q)) = V c main_v25 (ix2 0 _)
    rw [hq]
    refine congrArg _ (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega

/-- An index of the output array is in point `t`'s block iff each coordinate is in the block's range on its axis. -/
theorem mem_blk0 (t : Fin cfg0.N) (i : S800000x64.Idx) :
    i ∈ ((cfg0.win 5).blk t).view.set ↔ ∀ a : Fin 2, win0_5.index t a * S6400x64.size a ≤ (i a).val ∧ (i a).val < win0_5.index t a * S6400x64.size a + S6400x64.size a := by
  show i ∈ ((View.whole main_v26).slice (win0_5.rect t)).set ↔ _
  rw [View.set_slice_whole, Rect.mem_set_unit]
  exact Iff.rfl

/-- The flushed blocks cover the output array: row `r` is in the block of the point whose row block is `r / 6400`. -/
theorem cover0 (i : S800000x64.Idx) : ∃ t : Fin cfg0.N, (cfg0.win 5).flush t = true ∧ i ∈ ((cfg0.win 5).blk t).view.set := by
  have hi0 : (i 0).val < 800000 := (i 0).isLt
  have hi1 : (i 1).val < 64 := (i 1).isLt
  obtain ⟨t, ht⟩ := idx_onto0 ⟨(i 0).val / 6400, by omega⟩
  have q0 : win0_5.index t (0 : Fin 2) = (i 0).val / 6400 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 6400 ≤ (i 0).val ∧ (i 0).val < win0_5.index t (0 : Fin 2) * 6400 + 6400; omega
  | ⟨1, _⟩ => show win0_5.index t (1 : Fin 2) * 64 ≤ (i 1).val ∧ (i 1).val < win0_5.index t (1 : Fin 2) * 64 + 64; omega

/-- The output array after the run is `G0` of the arrays the region finds. -/
theorem final0 (c : Dev nD) :
    (dat0 (F := Ideal) V c).arrAt 5 cfg0.N = G0 (V c main_v23) (V c main_arg3) (V c main_v24) (V c main_arg5) (V c main_v25) :=
  (dat0 (F := Ideal) V c).arrAt_eq_of_cover 5 _ (fun t _ => flushed0_eq V c t) (cover0)

end Cert.KernelIdeal.Hand

end
-- ==== Proof.KI.Final1.lean ====
/-
  Region 1's output array after the run, as one function of the arrays the region finds.

  The region's grid cuts the rows into 5 blocks of 10000; at a point the body leaves in the output block the
  perceptron of the input's block of rows (the same rows of the input) with the whole weights and biases. A row of the result depends on
  the input through that row alone, so every block is the restriction of ONE whole-array function, and since the
  blocks cover the array the array ends holding that function.
-/
import proofs.«160275_j16484084483095_2_alg».proof.Proof.KI.Data
import proofs.«160275_j16484084483095_2_alg».proof.Proof.Spec
import proofs.«160275_j16484084483095_2_alg».proof.Proof.PayIx
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz1 : (![0, 0] : Fin 2 → Nat) = fun _ => 0 := funext fun a => by fin_cases a <;> rfl

/-- The perceptron of whole arrays: entry `(r, c)` reads row `r` of the input, the weights, and the one-row biases. -/
def G1 (X : S50000x64.Idx → EReal) (W1 : S64x128.Idx → EReal) (B1 : S1x128.Idx → EReal) (W2 : S128x64.Idx → EReal)
    (B2 : S1x64.Idx → EReal) : S50000x64.Idx → EReal :=
  fun i => Cert.Mlp.mlp (fun (r : Fin 50000) (k : Fin 64) => X (ix2 r k)) (fun (k : Fin 64) (h : Fin 128) => W1 (ix2 k h))
    (fun h : Fin 128 => B1 (ix2 0 h)) (fun (h : Fin 128) (c : Fin 64) => W2 (ix2 h c)) (fun c : Fin 64 => B2 (ix2 0 c)) (i 0) (i 1)

/-- The printed index maps over the grid: the input's row block moves with the output's, every other block index is 0. -/
theorem idx_facts1 : ∀ t : Fin cfg1.N, win1_0.index t (0 : Fin 2) = win1_5.index t (0 : Fin 2) ∧ win1_0.index t (1 : Fin 2) = 0
    ∧ win1_5.index t (1 : Fin 2) = 0 ∧ win1_5.index t (0 : Fin 2) ≤ 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every row block is some point's. -/
theorem idx_onto1 : ∀ q0 : Fin 5, ∃ t : Fin cfg1.N, win1_5.index t = ![q0.val, 0] :=
  (by decide +kernel : ∀ q0 : Fin 5, ∃ t : Fin grid1.N, win1_5.index t = ![q0.val, 0])

variable (V : (c : Dev nD) → (b : Ref sig .tc) → Buf (Elt Ideal) ((c : Thread nD τ).loc b))

/-- What point `t` writes back is block `t` of `G1` of the arrays the region finds. -/
theorem flushed1_eq (c : Dev nD) (t : Fin cfg1.N) :
    (dat1 (F := Ideal) V c).flushed 5 t = ((cfg1.win 5).blk t).view.read (Elt Ideal)
      (G1 (V c main_v34) (V c main_arg7) (V c main_v35) (V c main_arg9) (V c main_v36)) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S64x128) hz1, View.ld_unit_zero (S := S1x128) hz1,
    View.ld_unit_zero (S := S128x64) hz1, View.ld_unit_zero (S := S1x64) hz1]
  obtain ⟨e0, e1, e2, e3, f10, f11, f20, f21, f30, f31, f40, f41⟩ := idx_facts1 t
  funext j
  obtain ⟨r, q, rfl⟩ : ∃ (r : Fin 10000) (q : Fin 64), j = ix2 r q := ⟨j 0, j 1, eq_ix2 j⟩
  refine (Cert.KernelIdeal.PayIx.k1_pay1_ix _ _ _ _ _ r q).trans ?_
  show _ = G1 (V c main_v34) (V c main_arg7) (V c main_v35) (V c main_arg9) (V c main_v36) (((cfg1.win 5).blk t).view.emb (ix2 r q))
  unfold G1
  have hq : ((((cfg1.win 5).blk t).view.emb (ix2 r q)) 1 : Fin 64) = q := Fin.ext (by
    show win1_5.index t (1 : Fin 2) * 64 + 1 * q.val = q.val; omega)
  refine Cert.Mlp.mlp_congr _ _ _ _ _ _ _ _ _ _ r _ q _ (fun k => ?_) (fun k h => ?_) (fun h => ?_) (fun h => ?_) ?_
  · show V c main_v34 (((cfg1.win 0).blk t).view.emb (ix2 r k)) = V c main_v34 _
    refine congrArg _ (funext fun a => Fin.ext ?_)
    match a with
    | ⟨0, _⟩ => show win1_0.index t (0 : Fin 2) * 10000 + 1 * r.val = win1_5.index t (0 : Fin 2) * 10000 + 1 * r.val; omega
    | ⟨1, _⟩ => show win1_0.index t (1 : Fin 2) * 64 + 1 * k.val = k.val; omega
  · show V c main_arg7 (((cfg1.win 1).blk t).view.emb (ix2 k h)) = V c main_arg7 (ix2 k h)
    refine congrArg _ (funext fun a => Fin.ext ?_)
    match a with
    | ⟨0, _⟩ => show win1_1.index t (0 : Fin 2) * 64 + 1 * k.val = k.val; omega
    | ⟨1, _⟩ => show win1_1.index t (1 : Fin 2) * 128 + 1 * h.val = h.val; omega
  · show V c main_v35 (((cfg1.win 2).blk t).view.emb (ix2 0 h)) = V c main_v35 (ix2 0 h)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * h.val = h.val; omega
  · show V c main_arg9 (((cfg1.win 3).blk t).view.emb (ix2 h q)) = V c main_arg9 (ix2 h _)
    rw [hq]
    refine congrArg _ (funext fun a => Fin.ext ?_)
    match a with
    | ⟨0, _⟩ => show win1_3.index t (0 : Fin 2) * 128 + 1 * h.val = h.val; omega
    | ⟨1, _⟩ => show win1_3.index t (1 : Fin 2) * 64 + 1 * q.val = q.val; omega
  · show V c main_v36 (((cfg1.win 4).blk t).view.emb (ix2 0 q)) = V c main_v36 (ix2 0 _)
    rw [hq]
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega

/-- An index of the output array is in point `t`'s block iff each coordinate is in the block's range on its axis. -/
theorem mem_blk1 (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v37).slice (win1_5.rect t)).set ↔ _
  rw [View.set_slice_whole, Rect.mem_set_unit]
  exact Iff.rfl

/-- The flushed blocks cover the output array: row `r` is in the block of the point whose row block is `r / 10000`. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the run is `G1` of the arrays the region finds. -/
theorem final1 (c : Dev nD) :
    (dat1 (F := Ideal) V c).arrAt 5 cfg1.N = G1 (V c main_v34) (V c main_arg7) (V c main_v35) (V c main_arg9) (V c main_v36) :=
  (dat1 (F := Ideal) V c).arrAt_eq_of_cover 5 _ (fun t _ => flushed1_eq V c t) (cover1)

end Cert.KernelIdeal.Hand

end
-- ==== Proof.KI.Final2.lean ====
/-
  Region 2's output array after the run, as one function of the arrays the region finds.

  The region's grid cuts the rows into 125 blocks of 6400; at a point the body leaves in the output block the
  perceptron of the input's block of rows (the same rows of the input) with the whole weights and biases. A row of the result depends on
  the input through that row alone, so every block is the restriction of ONE whole-array function, and since the
  blocks cover the array the array ends holding that function.
-/
import proofs.«160275_j16484084483095_2_alg».proof.Proof.KI.Data
import proofs.«160275_j16484084483095_2_alg».proof.Proof.Spec
import proofs.«160275_j16484084483095_2_alg».proof.Proof.PayIx
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl

/-- The perceptron of whole arrays: entry `(r, c)` reads row `r` of the input, the weights, and the one-row biases. -/
def G2 (X : S800000x194.Idx → EReal) (W1 : S194x128.Idx → EReal) (B1 : S1x128.Idx → EReal) (W2 : S128x64.Idx → EReal)
    (B2 : S1x64.Idx → EReal) : S800000x64.Idx → EReal :=
  fun i => Cert.Mlp.mlp (fun (r : Fin 800000) (k : Fin 194) => X (ix2 r k)) (fun (k : Fin 194) (h : Fin 128) => W1 (ix2 k h))
    (fun h : Fin 128 => B1 (ix2 0 h)) (fun (h : Fin 128) (c : Fin 64) => W2 (ix2 h c)) (fun c : Fin 64 => B2 (ix2 0 c)) (i 0) (i 1)

/-- The printed index maps over the grid: the input's row block moves with the output's, every other block index is 0. -/
theorem idx_facts2 : ∀ t : Fin cfg2.N, win2_0.index t (0 : Fin 2) = win2_5.index t (0 : Fin 2) ∧ win2_0.index t (1 : Fin 2) = 0
    ∧ win2_5.index t (1 : Fin 2) = 0 ∧ win2_5.index t (0 : Fin 2) ≤ 124
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every row block is some point's. -/
theorem idx_onto2 : ∀ q0 : Fin 125, ∃ t : Fin cfg2.N, win2_5.index t = ![q0.val, 0] :=
  (by decide +kernel : ∀ q0 : Fin 125, ∃ t : Fin grid2.N, win2_5.index t = ![q0.val, 0])

variable (V : (c : Dev nD) → (b : Ref sig .tc) → Buf (Elt Ideal) ((c : Thread nD τ).loc b))

/-- What point `t` writes back is block `t` of `G2` of the arrays the region finds. -/
theorem flushed2_eq (c : Dev nD) (t : Fin cfg2.N) :
    (dat2 (F := Ideal) V c).flushed 5 t = ((cfg2.win 5).blk t).view.read (Elt Ideal)
      (G2 (V c main_v68) (V c main_v43) (V c main_v69) (V c main_arg13) (V c main_v70)) := by
  show (cfg2.win 5).cut (grid2.coords t) ((dat2 V c).after 5 t) = _
  rw [after2_5]
  unfold out2_5
  rw [View.canon_unit_zero hz2]
  simp only [View.ld_unit_zero (S := S6400x194) hz2, View.ld_unit_zero (S := S194x128) hz2, View.ld_unit_zero (S := S1x128) hz2,
    View.ld_unit_zero (S := S128x64) hz2, View.ld_unit_zero (S := S1x64) hz2]
  obtain ⟨e0, e1, e2, e3, f10, f11, f20, f21, f30, f31, f40, f41⟩ := idx_facts2 t
  funext j
  obtain ⟨r, q, rfl⟩ : ∃ (r : Fin 6400) (q : Fin 64), j = ix2 r q := ⟨j 0, j 1, eq_ix2 j⟩
  refine (Cert.KernelIdeal.PayIx.k2_pay1_ix _ _ _ _ _ r q).trans ?_
  show _ = G2 (V c main_v68) (V c main_v43) (V c main_v69) (V c main_arg13) (V c main_v70) (((cfg2.win 5).blk t).view.emb (ix2 r q))
  unfold G2
  have hq : ((((cfg2.win 5).blk t).view.emb (ix2 r q)) 1 : Fin 64) = q := Fin.ext (by
    show win2_5.index t (1 : Fin 2) * 64 + 1 * q.val = q.val; omega)
  refine Cert.Mlp.mlp_congr _ _ _ _ _ _ _ _ _ _ r _ q _ (fun k => ?_) (fun k h => ?_) (fun h => ?_) (fun h => ?_) ?_
  · show V c main_v68 (((cfg2.win 0).blk t).view.emb (ix2 r k)) = V c main_v68 _
    refine congrArg _ (funext fun a => Fin.ext ?_)
    match a with
    | ⟨0, _⟩ => show win2_0.index t (0 : Fin 2) * 6400 + 1 * r.val = win2_5.index t (0 : Fin 2) * 6400 + 1 * r.val; omega
    | ⟨1, _⟩ => show win2_0.index t (1 : Fin 2) * 194 + 1 * k.val = k.val; omega
  · show V c main_v43 (((cfg2.win 1).blk t).view.emb (ix2 k h)) = V c main_v43 (ix2 k h)
    refine congrArg _ (funext fun a => Fin.ext ?_)
    match a with
    | ⟨0, _⟩ => show win2_1.index t (0 : Fin 2) * 194 + 1 * k.val = k.val; omega
    | ⟨1, _⟩ => show win2_1.index t (1 : Fin 2) * 128 + 1 * h.val = h.val; omega
  · show V c main_v69 (((cfg2.win 2).blk t).view.emb (ix2 0 h)) = V c main_v69 (ix2 0 h)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * h.val = h.val; omega
  · show V c main_arg13 (((cfg2.win 3).blk t).view.emb (ix2 h q)) = V c main_arg13 (ix2 h _)
    rw [hq]
    refine congrArg _ (funext fun a => Fin.ext ?_)
    match a with
    | ⟨0, _⟩ => show win2_3.index t (0 : Fin 2) * 128 + 1 * h.val = h.val; omega
    | ⟨1, _⟩ => show win2_3.index t (1 : Fin 2) * 64 + 1 * q.val = q.val; omega
  · show V c main_v70 (((cfg2.win 4).blk t).view.emb (ix2 0 q)) = V c main_v70 (ix2 0 _)
    rw [hq]
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * q.val = q.val; omega

/-- An index of the output array is in point `t`'s block iff each coordinate is in the block's range on its axis. -/
theorem mem_blk2 (t : Fin cfg2.N) (i : S800000x64.Idx) :
    i ∈ ((cfg2.win 5).blk t).view.set ↔ ∀ a : Fin 2, win2_5.index t a * S6400x64.size a ≤ (i a).val ∧ (i a).val < win2_5.index t a * S6400x64.size a + S6400x64.size a := by
  show i ∈ ((View.whole main_v71).slice (win2_5.rect t)).set ↔ _
  rw [View.set_slice_whole, Rect.mem_set_unit]
  exact Iff.rfl

/-- The flushed blocks cover the output array: row `r` is in the block of the point whose row block is `r / 6400`. -/
theorem cover2 (i : S800000x64.Idx) : ∃ t : Fin cfg2.N, (cfg2.win 5).flush t = true ∧ i ∈ ((cfg2.win 5).blk t).view.set := by
  have hi0 : (i 0).val < 800000 := (i 0).isLt
  have hi1 : (i 1).val < 64 := (i 1).isLt
  obtain ⟨t, ht⟩ := idx_onto2 ⟨(i 0).val / 6400, by omega⟩
  have q0 : win2_5.index t (0 : Fin 2) = (i 0).val / 6400 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 6400 ≤ (i 0).val ∧ (i 0).val < win2_5.index t (0 : Fin 2) * 6400 + 6400; omega
  | ⟨1, _⟩ => show win2_5.index t (1 : Fin 2) * 64 ≤ (i 1).val ∧ (i 1).val < win2_5.index t (1 : Fin 2) * 64 + 64; omega

/-- The output array after the run is `G2` of the arrays the region finds. -/
theorem final2 (c : Dev nD) :
    (dat2 (F := Ideal) V c).arrAt 5 cfg2.N = G2 (V c main_v68) (V c main_v43) (V c main_v69) (V c main_arg13) (V c main_v70) :=
  (dat2 (F := Ideal) V c).arrAt_eq_of_cover 5 _ (fun t _ => flushed2_eq V c t) (cover2)

end Cert.KernelIdeal.Hand

end
-- ==== Proof.KI.Final3.lean ====
/-
  Region 3's output array after the run, as one function of the arrays the region finds.

  The region's grid cuts the rows into 5 blocks of 10000; at a point the body leaves in the output block the
  perceptron of the input's block of rows (the same rows of the input) with the whole weights and biases. A row of the result depends on
  the input through that row alone, so every block is the restriction of ONE whole-array function, and since the
  blocks cover the array the array ends holding that function.
-/
import proofs.«160275_j16484084483095_2_alg».proof.Proof.KI.Data
import proofs.«160275_j16484084483095_2_alg».proof.Proof.Spec
import proofs.«160275_j16484084483095_2_alg».proof.Proof.PayIx
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz3 : (![0, 0] : Fin 2 → Nat) = fun _ => 0 := funext fun a => by fin_cases a <;> rfl

/-- The perceptron of whole arrays: entry `(r, c)` reads row `r` of the input, the weights, and the one-row biases. -/
def G3 (X : S50000x128.Idx → EReal) (W1 : S128x128.Idx → EReal) (B1 : S1x128.Idx → EReal) (W2 : S128x64.Idx → EReal)
    (B2 : S1x64.Idx → EReal) : S50000x64.Idx → EReal :=
  fun i => Cert.Mlp.mlp (fun (r : Fin 50000) (k : Fin 128) => X (ix2 r k)) (fun (k : Fin 128) (h : Fin 128) => W1 (ix2 k h))
    (fun h : Fin 128 => B1 (ix2 0 h)) (fun (h : Fin 128) (c : Fin 64) => W2 (ix2 h c)) (fun c : Fin 64 => B2 (ix2 0 c)) (i 0) (i 1)

/-- The printed index maps over the grid: the input's row block moves with the output's, every other block index is 0. -/
theorem idx_facts3 : ∀ t : Fin cfg3.N, win3_0.index t (0 : Fin 2) = win3_5.index t (0 : Fin 2) ∧ win3_0.index t (1 : Fin 2) = 0
    ∧ win3_5.index t (1 : Fin 2) = 0 ∧ win3_5.index t (0 : Fin 2) ≤ 4
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Every row block is some point's. -/
theorem idx_onto3 : ∀ q0 : Fin 5, ∃ t : Fin cfg3.N, win3_5.index t = ![q0.val, 0] :=
  (by decide +kernel : ∀ q0 : Fin 5, ∃ t : Fin grid3.N, win3_5.index t = ![q0.val, 0])

variable (V : (c : Dev nD) → (b : Ref sig .tc) → Buf (Elt Ideal) ((c : Thread nD τ).loc b))

/-- What point `t` writes back is block `t` of `G3` of the arrays the region finds. -/
theorem flushed3_eq (c : Dev nD) (t : Fin cfg3.N) :
    (dat3 (F := Ideal) V c).flushed 5 t = ((cfg3.win 5).blk t).view.read (Elt Ideal)
      (G3 (V c main_v81) (V c main_arg15) (V c main_v82) (V c main_arg17) (V c main_v83)) := by
  show (cfg3.win 5).cut (grid3.coords t) ((dat3 V c).after 5 t) = _
  rw [after3_5]
  unfold out3_5
  rw [View.canon_unit_zero hz3]
  simp only [View.ld_unit_zero (S := S10000x128) hz3, View.ld_unit_zero (S := S128x128) hz3, View.ld_unit_zero (S := S1x128) hz3,
    View.ld_unit_zero (S := S128x64) hz3, View.ld_unit_zero (S := S1x64) hz3]
  obtain ⟨e0, e1, e2, e3, f10, f11, f20, f21, f30, f31, f40, f41⟩ := idx_facts3 t
  funext j
  obtain ⟨r, q, rfl⟩ : ∃ (r : Fin 10000) (q : Fin 64), j = ix2 r q := ⟨j 0, j 1, eq_ix2 j⟩
  refine (Cert.KernelIdeal.PayIx.k3_pay1_ix _ _ _ _ _ r q).trans ?_
  show _ = G3 (V c main_v81) (V c main_arg15) (V c main_v82) (V c main_arg17) (V c main_v83) (((cfg3.win 5).blk t).view.emb (ix2 r q))
  unfold G3
  have hq : ((((cfg3.win 5).blk t).view.emb (ix2 r q)) 1 : Fin 64) = q := Fin.ext (by
    show win3_5.index t (1 : Fin 2) * 64 + 1 * q.val = q.val; omega)
  refine Cert.Mlp.mlp_congr _ _ _ _ _ _ _ _ _ _ r _ q _ (fun k => ?_) (fun k h => ?_) (fun h => ?_) (fun h => ?_) ?_
  · show V c main_v81 (((cfg3.win 0).blk t).view.emb (ix2 r k)) = V c main_v81 _
    refine congrArg _ (funext fun a => Fin.ext ?_)
    match a with
    | ⟨0, _⟩ => show win3_0.index t (0 : Fin 2) * 10000 + 1 * r.val = win3_5.index t (0 : Fin 2) * 10000 + 1 * r.val; omega
    | ⟨1, _⟩ => show win3_0.index t (1 : Fin 2) * 128 + 1 * k.val = k.val; omega
  · show V c main_arg15 (((cfg3.win 1).blk t).view.emb (ix2 k h)) = V c main_arg15 (ix2 k h)
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * h.val = h.val; omega
  · show V c main_v82 (((cfg3.win 2).blk t).view.emb (ix2 0 h)) = V c main_v82 (ix2 0 h)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * h.val = h.val; omega
  · show V c main_arg17 (((cfg3.win 3).blk t).view.emb (ix2 h q)) = V c main_arg17 (ix2 h _)
    rw [hq]
    refine congrArg _ (funext fun a => Fin.ext ?_)
    match a with
    | ⟨0, _⟩ => show win3_3.index t (0 : Fin 2) * 128 + 1 * h.val = h.val; omega
    | ⟨1, _⟩ => show win3_3.index t (1 : Fin 2) * 64 + 1 * q.val = q.val; omega
  · show V c main_v83 (((cfg3.win 4).blk t).view.emb (ix2 0 q)) = V c main_v83 (ix2 0 _)
    rw [hq]
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * q.val = q.val; omega

/-- An index of the output array is in point `t`'s block iff each coordinate is in the block's range on its axis. -/
theorem mem_blk3 (t : Fin cfg3.N) (i : S50000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v84).slice (win3_5.rect t)).set ↔ _
  rw [View.set_slice_whole, Rect.mem_set_unit]
  exact Iff.rfl

/-- The flushed blocks cover the output array: row `r` is in the block of the point whose row block is `r / 10000`. -/
theorem cover3 (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := idx_onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The output array after the run is `G3` of the arrays the region finds. -/
theorem final3 (c : Dev nD) :
    (dat3 (F := Ideal) V c).arrAt 5 cfg3.N = G3 (V c main_v81) (V c main_arg15) (V c main_v82) (V c main_arg17) (V c main_v83) :=
  (dat3 (F := Ideal) V c).arrAt_eq_of_cover 5 _ (fun t _ => flushed3_eq V c t) (cover3)

end Cert.KernelIdeal.Hand

end
-- ==== Proof.KI.Compose.lean ====
/-
  The kernel's result as a composition: each region's output array is the perceptron of its five input arrays, and
  between regions the host gathers features along edges, averages messages per receiving node and lays pieces side
  by side. Named here, as functions of the argument arrays: the two message arrays, the context, the third and the
  fourth region's inputs, and the result.
-/
import proofs.«160275_j16484084483095_2_alg».proof.Proof.KI.Terms
import proofs.«160275_j16484084483095_2_alg».proof.Proof.KI.Final0
import proofs.«160275_j16484084483095_2_alg».proof.Proof.KI.Final1
import proofs.«160275_j16484084483095_2_alg».proof.Proof.KI.Final2
import proofs.«160275_j16484084483095_2_alg».proof.Proof.KI.Final3

noncomputable section

namespace Cert.KernelIdeal.Value

open Idealize.ShloMosaic Idealize.ShloMosaic.TcCoe Idealize.SL.Sem
open Cert.KernelIdeal Cert.KernelIdeal.Gen Cert.KernelIdeal.Terms Cert.KernelIdeal.Hand

/-! ## The four messages / contexts as terms of the arguments -/

/-- The first region's output: the per-edge message of the first layer. -/
def m1K (a1 : FVec Ideal S50000x2 .f32) (a2 : IVec S2x800000 32) (a3 : FVec Ideal S2x128 .f32) (a4 : FVec Ideal S128 .f32)
    (a5 : FVec Ideal S128x64 .f32) (a6 : FVec Ideal S64 .f32) : FVec Ideal S800000x64 .f32 :=
  G0 (transpose S2x800000 [1, 0] (pdiffT a1 a2) transposes_S800000x2_S2x800000_1_0) a3 (shapeCast S1x128 a4 shapeCasts_S128_S1x128)
    a5 (shapeCast S1x64 a6 shapeCasts_S64_S1x64)

/-- The second region's output: the per-node context. -/
def ctxK (m1 : FVec Ideal S800000x64 .f32) (a2 : IVec S2x800000 32) (a7 : FVec Ideal S64x128 .f32) (a8 : FVec Ideal S128 .f32)
    (a9 : FVec Ideal S128x64 .f32) (a10 : FVec Ideal S64 .f32) : FVec Ideal S50000x64 .f32 :=
  G1 (segMeanT (rowT a2) (cntT a2) m1) a7 (shapeCast S1x128 a8 shapeCasts_S128_S1x128) a9 (shapeCast S1x64 a10 shapeCasts_S64_S1x64)

/-- The third region's input: per edge, receiving node's features, sending node's features, position difference,
    receiving node's context. -/
def catK (a0 : FVec Ideal S50000x64 .f32) (a1 : FVec Ideal S50000x2 .f32) (a2 : IVec S2x800000 32) (ctx : FVec Ideal S50000x64 .f32) :
    FVec Ideal S800000x194 .bf16 :=
  concatenate S800000x194 1 [⟨S800000x64, Host.gather gather_S50000x64_S800000x1_S800000x64_1_0_n_n_0_1_164 (truncf .bf16 a0 bitsLt_bf16_f32) (nrmT (rowT a2))⟩,
        ⟨S800000x64, Host.gather gather_S50000x64_S800000x1_S800000x64_1_0_n_n_0_1_164 (truncf .bf16 a0 bitsLt_bf16_f32) (nrmT (colT a2))⟩,
        ⟨S800000x2, truncf .bf16 (pdiffT a1 a2) bitsLt_bf16_f32⟩,
        ⟨S800000x64, Host.gather gather_S50000x64_S800000x1_S800000x64_1_0_n_n_0_1_164 (truncf .bf16 ctx bitsLt_bf16_f32) (nrmT (rowT a2))⟩] concatenates_S800000x64_S800000x64_S800000x2_S800000x64_S800000x194_d1

/-- The third region's first-layer weight: the second row block folded into the first. -/
def wfK (a11 : FVec Ideal S194x128 .f32) : FVec Ideal S194x128 .f32 :=
  concatenate S194x128 0 [⟨S64x128, subf (extractStridedSlice S64x128 ![0, 0] a11 slices_S194x128_S64x128_0_0) (extractStridedSlice S64x128 ![64, 0] a11 slices_S194x128_S64x128_64_0)⟩,
        ⟨S64x128, extractStridedSlice S64x128 ![64, 0] a11 slices_S194x128_S64x128_64_0⟩,
        ⟨S2x128, extractStridedSlice S2x128 ![128, 0] a11 slices_S194x128_S2x128_128_0⟩,
        ⟨S64x128, extractStridedSlice S64x128 ![130, 0] a11 slices_S194x128_S64x128_130_0⟩] concatenates_S64x128_S64x128_S2x128_S64x128_S194x128_d0

/-- The third region's output: the per-edge message of the second layer. -/
def m2K (cat : FVec Ideal S800000x194 .bf16) (a11 : FVec Ideal S194x128 .f32) (a12 : FVec Ideal S128 .f32)
    (a13 : FVec Ideal S128x64 .f32) (a14 : FVec Ideal S64 .f32) : FVec Ideal S800000x64 .f32 :=
  G2 cat (wfK a11) (shapeCast S1x128 a12 shapeCasts_S128_S1x128) a13 (shapeCast S1x64 a14 shapeCasts_S64_S1x64)

/-- The last region's input: each node's features beside the mean of its received messages. -/
def finK (a0 : FVec Ideal S50000x64 .f32) (a2 : IVec S2x800000 32) (m2 : FVec Ideal S800000x64 .f32) : FVec Ideal S50000x128 .bf16 :=
  concatenate S50000x128 1 [⟨S50000x64, truncf .bf16 a0 bitsLt_bf16_f32⟩,
        ⟨S50000x64, truncf .bf16 (segMeanT (rowT a2) (cntT a2) m2) bitsLt_bf16_f32⟩] concatenates_S50000x64_S50000x64_S50000x128_d1

/-- The last region's output. -/
def outK (fin : FVec Ideal S50000x128 .bf16) (a15 : FVec Ideal S128x128 .f32) (a16 : FVec Ideal S128 .f32)
    (a17 : FVec Ideal S128x64 .f32) (a18 : FVec Ideal S64 .f32) : FVec Ideal S50000x64 .f32 :=
  G3 fin a15 (shapeCast S1x128 a16 shapeCasts_S128_S1x128) a17 (shapeCast S1x64 a18 shapeCasts_S64_S1x64)

end Cert.KernelIdeal.Value

end
-- ==== Proof.KI.Stage0.lean ====
/-
  The first host stretch, read at the buffers the first region and the later stretches use: from any contents `W` of
  the buffers before it, the edge rows, the per-node edge count, the position differences (and their transpose, which
  the first region takes features-first), and the two biases of the first perceptron as one-row matrices.
-/
import proofs.«160275_j16484084483095_2_alg».proof.Proof.Gen.KernelIdeal.Launch
import proofs.«160275_j16484084483095_2_alg».proof.Proof.KI.Terms
import Idealize.ShloMosaic.Lib.StableHlo.Run

noncomputable section

namespace Cert.KernelIdeal.Stage

open Idealize.ShloMosaic Idealize.ShloMosaic.TcCoe Idealize.SL.Sem Idealize.ShloMosaic.StableHlo
open Cert.KernelIdeal Cert.KernelIdeal.Gen Cert.KernelIdeal.Terms

variable (W : Valuation τ sig (Elt Ideal))

set_option maxHeartbeats 8000000 in
theorem s0_v1 : StableHlo.after (hostOps0 (F := Ideal)) W (Proc.devRef .tc main_v1) = rowT (W (Proc.devRef .tc main_arg2)) := by
  after_results; rfl
set_option maxHeartbeats 8000000 in
theorem s0_v3 : StableHlo.after (hostOps0 (F := Ideal)) W (Proc.devRef .tc main_v3) = colT (W (Proc.devRef .tc main_arg2)) := by
  after_results; rfl
set_option maxHeartbeats 8000000 in
theorem s0_v7 : StableHlo.after (hostOps0 (F := Ideal)) W (Proc.devRef .tc main_v7) = cntT (W (Proc.devRef .tc main_arg2)) := by
  after_results; rfl
set_option maxHeartbeats 8000000 in
theorem s0_v22 : StableHlo.after (hostOps0 (F := Ideal)) W (Proc.devRef .tc main_v22) = pdiffT (W (Proc.devRef .tc main_arg1)) (W (Proc.devRef .tc main_arg2)) := by
  after_results; rfl
set_option maxHeartbeats 8000000 in
theorem s0_v23 : StableHlo.after (hostOps0 (F := Ideal)) W (Proc.devRef .tc main_v23)
    = transpose S2x800000 [1, 0] (pdiffT (W (Proc.devRef .tc main_arg1)) (W (Proc.devRef .tc main_arg2))) transposes_S800000x2_S2x800000_1_0 := by
  after_results; rfl
set_option maxHeartbeats 8000000 in
theorem s0_v24 : StableHlo.after (hostOps0 (F := Ideal)) W (Proc.devRef .tc main_v24)
    = shapeCast S1x128 (W (Proc.devRef .tc main_arg4)) shapeCasts_S128_S1x128 := by
  after_results; rfl
set_option maxHeartbeats 8000000 in
theorem s0_v25 : StableHlo.after (hostOps0 (F := Ideal)) W (Proc.devRef .tc main_v25)
    = shapeCast S1x64 (W (Proc.devRef .tc main_arg6)) shapeCasts_S64_S1x64 := by
  after_results; rfl

end Cert.KernelIdeal.Stage

end
-- ==== Proof.KI.Stage1.lean ====
/-
  The second host stretch: the mean over each node's received edges of the first region's messages, and the two
  biases of the second perceptron as one-row matrices.
-/
import proofs.«160275_j16484084483095_2_alg».proof.Proof.Gen.KernelIdeal.Launch
import proofs.«160275_j16484084483095_2_alg».proof.Proof.KI.Terms
import Idealize.ShloMosaic.Lib.StableHlo.Run

noncomputable section

namespace Cert.KernelIdeal.Stage

open Idealize.ShloMosaic Idealize.ShloMosaic.TcCoe Idealize.SL.Sem Idealize.ShloMosaic.StableHlo
open Cert.KernelIdeal Cert.KernelIdeal.Gen Cert.KernelIdeal.Terms

variable (W : Valuation τ sig (Elt Ideal))

set_option maxHeartbeats 8000000 in
theorem s1_v34 : StableHlo.after (hostOps1 (F := Ideal)) W (Proc.devRef .tc main_v34)
    = segMeanT (W (Proc.devRef .tc main_v1)) (W (Proc.devRef .tc main_v7)) (W (Proc.devRef .tc main_v26)) := by
  after_results; rfl
set_option maxHeartbeats 8000000 in
theorem s1_v35 : StableHlo.after (hostOps1 (F := Ideal)) W (Proc.devRef .tc main_v35)
    = shapeCast S1x128 (W (Proc.devRef .tc main_arg8)) shapeCasts_S128_S1x128 := by
  after_results; rfl
set_option maxHeartbeats 8000000 in
theorem s1_v36 : StableHlo.after (hostOps1 (F := Ideal)) W (Proc.devRef .tc main_v36)
    = shapeCast S1x64 (W (Proc.devRef .tc main_arg10)) shapeCasts_S64_S1x64 := by
  after_results; rfl

end Cert.KernelIdeal.Stage

end
-- ==== Proof.KI.Stage2.lean ====
/-
  The third host stretch: the third region's input — per edge, the receiving node's features, the sending node's
  features, the position difference and the receiving node's context, side by side — and its first-layer weight with
  the second row block folded into the first; the node features in the narrow format; the two biases as one-row matrices.
-/
import proofs.«160275_j16484084483095_2_alg».proof.Proof.Gen.KernelIdeal.Launch
import proofs.«160275_j16484084483095_2_alg».proof.Proof.KI.Terms
import Idealize.ShloMosaic.Lib.StableHlo.Run

noncomputable section

namespace Cert.KernelIdeal.Stage

open Idealize.ShloMosaic Idealize.ShloMosaic.TcCoe Idealize.SL.Sem Idealize.ShloMosaic.StableHlo
open Cert.KernelIdeal Cert.KernelIdeal.Gen Cert.KernelIdeal.Terms

variable (W : Valuation τ sig (Elt Ideal))

set_option maxHeartbeats 8000000 in
theorem s2_v44 : StableHlo.after (hostOps2 (F := Ideal)) W (Proc.devRef .tc main_v44)
    = (truncf (F := Ideal) .bf16 (W (Proc.devRef .tc main_arg0) : FVec Ideal S50000x64 .f32) bitsLt_bf16_f32 : FVec Ideal S50000x64 .bf16) := by
  after_results
  all_goals rfl
set_option maxHeartbeats 8000000 in
theorem s2_v43 : StableHlo.after (hostOps2 (F := Ideal)) W (Proc.devRef .tc main_v43)
    = (concatenate S194x128 0 [⟨S64x128, (subf (F := Ideal) (φ := .f32) (extractStridedSlice S64x128 ![0, 0] (W (Proc.devRef .tc main_arg11) : FVec Ideal S194x128 .f32) slices_S194x128_S64x128_0_0) (extractStridedSlice S64x128 ![64, 0] (W (Proc.devRef .tc main_arg11) : FVec Ideal S194x128 .f32) slices_S194x128_S64x128_64_0) : FVec Ideal S64x128 .f32)⟩,
        ⟨S64x128, (extractStridedSlice S64x128 ![64, 0] (W (Proc.devRef .tc main_arg11) : FVec Ideal S194x128 .f32) slices_S194x128_S64x128_64_0 : FVec Ideal S64x128 .f32)⟩,
        ⟨S2x128, (extractStridedSlice S2x128 ![128, 0] (W (Proc.devRef .tc main_arg11) : FVec Ideal S194x128 .f32) slices_S194x128_S2x128_128_0 : FVec Ideal S2x128 .f32)⟩,
        ⟨S64x128, (extractStridedSlice S64x128 ![130, 0] (W (Proc.devRef .tc main_arg11) : FVec Ideal S194x128 .f32) slices_S194x128_S64x128_130_0 : FVec Ideal S64x128 .f32)⟩] concatenates_S64x128_S64x128_S2x128_S64x128_S194x128_d0 : FVec Ideal S194x128 .f32) := by
  after_results
  all_goals rfl
set_option maxHeartbeats 8000000 in
theorem s2_v68 : StableHlo.after (hostOps2 (F := Ideal)) W (Proc.devRef .tc main_v68)
    = (concatenate S800000x194 1 [⟨S800000x64, (Host.gather gather_S50000x64_S800000x1_S800000x64_1_0_n_n_0_1_164 (truncf (F := Ideal) .bf16 (W (Proc.devRef .tc main_arg0) : FVec Ideal S50000x64 .f32) bitsLt_bf16_f32 : FVec Ideal S50000x64 .bf16) (nrmT (W (Proc.devRef .tc main_v1))) : FVec Ideal S800000x64 .bf16)⟩,
        ⟨S800000x64, (Host.gather gather_S50000x64_S800000x1_S800000x64_1_0_n_n_0_1_164 (truncf (F := Ideal) .bf16 (W (Proc.devRef .tc main_arg0) : FVec Ideal S50000x64 .f32) bitsLt_bf16_f32 : FVec Ideal S50000x64 .bf16) (nrmT (W (Proc.devRef .tc main_v3))) : FVec Ideal S800000x64 .bf16)⟩,
        ⟨S800000x2, (truncf (F := Ideal) .bf16 (W (Proc.devRef .tc main_v22) : FVec Ideal S800000x2 .f32) bitsLt_bf16_f32 : FVec Ideal S800000x2 .bf16)⟩,
        ⟨S800000x64, (Host.gather gather_S50000x64_S800000x1_S800000x64_1_0_n_n_0_1_164 (truncf (F := Ideal) .bf16 (W (Proc.devRef .tc main_v37) : FVec Ideal S50000x64 .f32) bitsLt_bf16_f32 : FVec Ideal S50000x64 .bf16) (nrmT (W (Proc.devRef .tc main_v1))) : FVec Ideal S800000x64 .bf16)⟩] concatenates_S800000x64_S800000x64_S800000x2_S800000x64_S800000x194_d1 : FVec Ideal S800000x194 .bf16) := by
  after_results
  all_goals rfl
set_option maxHeartbeats 8000000 in
theorem s2_v69 : StableHlo.after (hostOps2 (F := Ideal)) W (Proc.devRef .tc main_v69)
    = (shapeCast S1x128 (W (Proc.devRef .tc main_arg12) : FVec Ideal S128 .f32) shapeCasts_S128_S1x128 : FVec Ideal S1x128 .f32) := by
  after_results
  all_goals rfl
set_option maxHeartbeats 8000000 in
theorem s2_v70 : StableHlo.after (hostOps2 (F := Ideal)) W (Proc.devRef .tc main_v70)
    = (shapeCast S1x64 (W (Proc.devRef .tc main_arg14) : FVec Ideal S64 .f32) shapeCasts_S64_S1x64 : FVec Ideal S1x64 .f32) := by
  after_results
  all_goals rfl

end Cert.KernelIdeal.Stage

end
-- ==== Proof.KI.Stage3.lean ====
/-
  The fourth host stretch: the last region's input — each node's features beside the mean of the messages it
  received, both in the narrow format — and the two biases of the last perceptron as one-row matrices.
-/
import proofs.«160275_j16484084483095_2_alg».proof.Proof.Gen.KernelIdeal.Launch
import proofs.«160275_j16484084483095_2_alg».proof.Proof.KI.Terms
import Idealize.ShloMosaic.Lib.StableHlo.Run

noncomputable section

namespace Cert.KernelIdeal.Stage

open Idealize.ShloMosaic Idealize.ShloMosaic.TcCoe Idealize.SL.Sem Idealize.ShloMosaic.StableHlo
open Cert.KernelIdeal Cert.KernelIdeal.Gen Cert.KernelIdeal.Terms

variable (W : Valuation τ sig (Elt Ideal))

set_option maxHeartbeats 8000000 in
theorem s3_v81 : StableHlo.after (hostOps3 (F := Ideal)) W (Proc.devRef .tc main_v81)
    = concatenate S50000x128 1 [⟨S50000x64, (W (Proc.devRef .tc main_v44))⟩,
        ⟨S50000x64, truncf .bf16 (segMeanT (W (Proc.devRef .tc main_v1)) (W (Proc.devRef .tc main_v7)) (W (Proc.devRef .tc main_v71))) bitsLt_bf16_f32⟩] concatenates_S50000x64_S50000x64_S50000x128_d1 := by
  after_results; rfl
set_option maxHeartbeats 8000000 in
theorem s3_v82 : StableHlo.after (hostOps3 (F := Ideal)) W (Proc.devRef .tc main_v82)
    = shapeCast S1x128 (W (Proc.devRef .tc main_arg16)) shapeCasts_S128_S1x128 := by
  after_results; rfl
set_option maxHeartbeats 8000000 in
theorem s3_v83 : StableHlo.after (hostOps3 (F := Ideal)) W (Proc.devRef .tc main_v83)
    = shapeCast S1x64 (W (Proc.devRef .tc main_arg18)) shapeCasts_S64_S1x64 := by
  after_results; rfl

end Cert.KernelIdeal.Stage

end
-- ==== Proof.KI.Value.lean ====
/-
  The kernel's result as one term of the argument arrays, at the ideal instance.

  Between two regions the core's buffers hold: the launch contents, then each host stretch's operations applied, then
  what a region leaves in its output array. Walking this chain back from each region's five input arrays gives them as
  terms of the argument arrays and of the earlier regions' outputs; with each region's output array the perceptron of
  its inputs, the last region's output is the four-fold composition of the previous module.
-/
import proofs.«160275_j16484084483095_2_alg».proof.Proof.Gen.KernelIdeal.Regions
import proofs.«160275_j16484084483095_2_alg».proof.Proof.KI.Compose
import proofs.«160275_j16484084483095_2_alg».proof.Proof.KI.Stage0
import proofs.«160275_j16484084483095_2_alg».proof.Proof.KI.Stage1
import proofs.«160275_j16484084483095_2_alg».proof.Proof.KI.Stage2
import proofs.«160275_j16484084483095_2_alg».proof.Proof.KI.Stage3

noncomputable section

namespace Cert.KernelIdeal.Value

open Idealize.ShloMosaic Idealize.ShloMosaic.TcCoe Idealize.SL.Sem Idealize.ShloMosaic.StableHlo
open Cert.KernelIdeal Cert.KernelIdeal.Gen Cert.KernelIdeal.Terms Cert.KernelIdeal.Hand Cert.KernelIdeal.Stage

/-! ## The chain -/

variable (m : (ℓ : Loc nD τ sig) → Buf (Elt Ideal) ℓ) (outs : Gen.Outs (F := Ideal)) (c : Dev nD)

/-- What the first region leaves, given that it leaves its proof data's final array. -/
theorem out2_eq (h2 : outs 2 main_v26 c = (dat0 (F := Ideal) (fun c b => Gen.V1 m c b) c).arrAt 5 cfg0.N) :
    outs 2 main_v26 c = m1K (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [h2, final0]
  unfold m1K
  have e0 : Gen.V1 m c main_v23 = _ := s0_v23 (Gen.V0 m c)
  have e1 : Gen.V1 m c main_arg3 = (m ((c.tc : Thread nD τ).loc main_arg3)) := Gen.V1_of m c main_arg3 (by decide)
  have e2 : Gen.V1 m c main_v24 = _ := s0_v24 (Gen.V0 m c)
  have e3 : Gen.V1 m c main_arg5 = (m ((c.tc : Thread nD τ).loc main_arg5)) := Gen.V1_of m c main_arg5 (by decide)
  have e4 : Gen.V1 m c main_v25 = _ := s0_v25 (Gen.V0 m c)
  rw [e0, e1, e2, e3, e4]

/-- The receiving-node row, the count and the position differences reach every later stretch unchanged. -/
theorem V2_v1 : Gen.V2 m outs c main_v1 = rowT (m ((c.tc : Thread nD τ).loc main_arg2)) :=
  (Gen.V2_of m outs c main_v1 (by decide)).trans (s0_v1 (Gen.V0 m c))
theorem V2_v7 : Gen.V2 m outs c main_v7 = cntT (m ((c.tc : Thread nD τ).loc main_arg2)) :=
  (Gen.V2_of m outs c main_v7 (by decide)).trans (s0_v7 (Gen.V0 m c))
theorem V4_v1 : Gen.V4 m outs c main_v1 = rowT (m ((c.tc : Thread nD τ).loc main_arg2)) :=
  ((Gen.V4_of m outs c main_v1 (by decide)).trans (Gen.V3_of m outs c main_v1 (by decide))).trans (V2_v1 m outs c)
theorem V4_v3 : Gen.V4 m outs c main_v3 = colT (m ((c.tc : Thread nD τ).loc main_arg2)) :=
  (((Gen.V4_of m outs c main_v3 (by decide)).trans (Gen.V3_of m outs c main_v3 (by decide))).trans (Gen.V2_of m outs c main_v3 (by decide))).trans (s0_v3 (Gen.V0 m c))
theorem V4_v22 : Gen.V4 m outs c main_v22 = pdiffT (m ((c.tc : Thread nD τ).loc main_arg1)) (m ((c.tc : Thread nD τ).loc main_arg2)) :=
  (((Gen.V4_of m outs c main_v22 (by decide)).trans (Gen.V3_of m outs c main_v22 (by decide))).trans (Gen.V2_of m outs c main_v22 (by decide))).trans (s0_v22 (Gen.V0 m c))
theorem V6_v1 : Gen.V6 m outs c main_v1 = rowT (m ((c.tc : Thread nD τ).loc main_arg2)) :=
  ((Gen.V6_of m outs c main_v1 (by decide)).trans (Gen.V5_of m outs c main_v1 (by decide))).trans (V4_v1 m outs c)
theorem V6_v7 : Gen.V6 m outs c main_v7 = cntT (m ((c.tc : Thread nD τ).loc main_arg2)) :=
  (((((Gen.V6_of m outs c main_v7 (by decide)).trans (Gen.V5_of m outs c main_v7 (by decide))).trans (Gen.V4_of m outs c main_v7 (by decide))).trans (Gen.V3_of m outs c main_v7 (by decide)))).trans (V2_v7 m outs c)

/-- An argument array is never written: at every boundary it holds its launch contents. -/
theorem V2_arg (r : Ref sig .tc) (h0 : r ∉ Gen.hostOps0_W) (h1 : r ∉ ([main_v26] : List (Ref sig .tc))) :
    Gen.V2 m outs c r = m ((c : Thread nD τ).loc r) :=
  (Gen.V2_of m outs c r h1).trans (Gen.V1_of m c r h0)
theorem V4_arg (r : Ref sig .tc) (h0 : r ∉ Gen.hostOps0_W) (h1 : r ∉ ([main_v26] : List (Ref sig .tc))) (h2 : r ∉ Gen.hostOps1_W)
    (h3 : r ∉ ([main_v37] : List (Ref sig .tc))) : Gen.V4 m outs c r = m ((c : Thread nD τ).loc r) :=
  ((Gen.V4_of m outs c r h3).trans (Gen.V3_of m outs c r h2)).trans (V2_arg m outs c r h0 h1)
theorem V6_arg (r : Ref sig .tc) (h0 : r ∉ Gen.hostOps0_W) (h1 : r ∉ ([main_v26] : List (Ref sig .tc))) (h2 : r ∉ Gen.hostOps1_W)
    (h3 : r ∉ ([main_v37] : List (Ref sig .tc))) (h4 : r ∉ Gen.hostOps2_W) (h5 : r ∉ ([main_v71] : List (Ref sig .tc))) :
    Gen.V6 m outs c r = m ((c : Thread nD τ).loc r) :=
  ((Gen.V6_of m outs c r h5).trans (Gen.V5_of m outs c r h4)).trans (V4_arg m outs c r h0 h1 h2 h3)

set_option maxHeartbeats 4000000 in
/-- What the second region leaves. -/
theorem out4_eq (h2 : outs 2 main_v26 c = (dat0 (F := Ideal) (fun c b => Gen.V1 m c b) c).arrAt 5 cfg0.N)
    (h4 : outs 4 main_v37 c = (dat1 (F := Ideal) (fun c b => Gen.V3 m outs c b) c).arrAt 5 cfg1.N) :
    outs 4 main_v37 c = (ctxK (m1K (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10))) := by
  rw [h4, final1]
  unfold ctxK
  have e0 : Gen.V3 m outs c main_v34 = segMeanT (Gen.V2 m outs c main_v1) (Gen.V2 m outs c main_v7) (Gen.V2 m outs c main_v26) :=
    s1_v34 (Gen.V2 m outs c)
  have e26 : Gen.V2 m outs c main_v26 = outs 2 main_v26 c := Function.update_self _ _ _
  have e1 : Gen.V3 m outs c main_arg7 = (m ((c.tc : Thread nD τ).loc main_arg7)) := (Gen.V3_of m outs c main_arg7 (by decide)).trans (V2_arg m outs c main_arg7 (by decide) (by decide))
  have e2 : Gen.V3 m outs c main_v35 = shapeCast S1x128 (Gen.V2 m outs c main_arg8) shapeCasts_S128_S1x128 := s1_v35 (Gen.V2 m outs c)
  have e3 : Gen.V3 m outs c main_arg9 = (m ((c.tc : Thread nD τ).loc main_arg9)) := (Gen.V3_of m outs c main_arg9 (by decide)).trans (V2_arg m outs c main_arg9 (by decide) (by decide))
  have e4 : Gen.V3 m outs c main_v36 = shapeCast S1x64 (Gen.V2 m outs c main_arg10) shapeCasts_S64_S1x64 := s1_v36 (Gen.V2 m outs c)
  rw [e0, e1, e2, e3, e4, e26, V2_v1, V2_v7, out2_eq m outs c h2, V2_arg m outs c main_arg8 (by decide) (by decide),
    V2_arg m outs c main_arg10 (by decide) (by decide)]

set_option maxHeartbeats 4000000 in
/-- What the third region leaves. -/
theorem out6_eq (h2 : outs 2 main_v26 c = (dat0 (F := Ideal) (fun c b => Gen.V1 m c b) c).arrAt 5 cfg0.N)
    (h4 : outs 4 main_v37 c = (dat1 (F := Ideal) (fun c b => Gen.V3 m outs c b) c).arrAt 5 cfg1.N)
    (h6 : outs 6 main_v71 c = (dat2 (F := Ideal) (fun c b => Gen.V5 m outs c b) c).arrAt 5 cfg2.N) :
    outs 6 main_v71 c = (m2K (catK (m ((c.tc : Thread nD τ).loc main_arg0)) (m ((c.tc : Thread nD τ).loc main_arg1)) (m ((c.tc : Thread nD τ).loc main_arg2)) (ctxK (m1K (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg11)) (m ((c.tc : Thread nD τ).loc main_arg12)) (m ((c.tc : Thread nD τ).loc main_arg13)) (m ((c.tc : Thread nD τ).loc main_arg14))) := by
  rw [h6, final2]
  unfold m2K catK wfK
  have e0 := s2_v68 (Gen.V4 m outs c)
  have e37 : Gen.V4 m outs c main_v37 = outs 4 main_v37 c := Function.update_self _ _ _
  have e1 := s2_v43 (Gen.V4 m outs c)
  have e2 := s2_v69 (Gen.V4 m outs c)
  have e3 : Gen.V5 m outs c main_arg13 = (m ((c.tc : Thread nD τ).loc main_arg13)) := (Gen.V5_of m outs c main_arg13 (by decide)).trans (V4_arg m outs c main_arg13 (by decide) (by decide) (by decide) (by decide))
  have e4 := s2_v70 (Gen.V4 m outs c)
  rw [show Gen.V5 m outs c main_v68 = _ from e0, show Gen.V5 m outs c main_v43 = _ from e1, show Gen.V5 m outs c main_v69 = _ from e2, e3,
    show Gen.V5 m outs c main_v70 = _ from e4, e37, V4_v1, V4_v3, V4_v22, out4_eq m outs c h2 h4,
    V4_arg m outs c main_arg0 (by decide) (by decide) (by decide) (by decide),
    V4_arg m outs c main_arg11 (by decide) (by decide) (by decide) (by decide),
    V4_arg m outs c main_arg12 (by decide) (by decide) (by decide) (by decide),
    V4_arg m outs c main_arg14 (by decide) (by decide) (by decide) (by decide)]

set_option maxHeartbeats 4000000 in
/-- What the last region leaves: the kernel's result. -/
theorem out8_eq (h2 : outs 2 main_v26 c = (dat0 (F := Ideal) (fun c b => Gen.V1 m c b) c).arrAt 5 cfg0.N)
    (h4 : outs 4 main_v37 c = (dat1 (F := Ideal) (fun c b => Gen.V3 m outs c b) c).arrAt 5 cfg1.N)
    (h6 : outs 6 main_v71 c = (dat2 (F := Ideal) (fun c b => Gen.V5 m outs c b) c).arrAt 5 cfg2.N)
    (h8 : outs 8 main_v84 c = (dat3 (F := Ideal) (fun c b => Gen.V7 m outs c b) c).arrAt 5 cfg3.N) :
    Gen.V8 m outs c main_v84 = (outK (finK (m ((c.tc : Thread nD τ).loc main_arg0)) (m ((c.tc : Thread nD τ).loc main_arg2)) (m2K (catK (m ((c.tc : Thread nD τ).loc main_arg0)) (m ((c.tc : Thread nD τ).loc main_arg1)) (m ((c.tc : Thread nD τ).loc main_arg2)) (ctxK (m1K (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg11)) (m ((c.tc : Thread nD τ).loc main_arg12)) (m ((c.tc : Thread nD τ).loc main_arg13)) (m ((c.tc : Thread nD τ).loc main_arg14)))) (m ((c.tc : Thread nD τ).loc main_arg15)) (m ((c.tc : Thread nD τ).loc main_arg16)) (m ((c.tc : Thread nD τ).loc main_arg17)) (m ((c.tc : Thread nD τ).loc main_arg18))) := by
  have e84 : Gen.V8 m outs c main_v84 = outs 8 main_v84 c := Function.update_self _ _ _
  rw [e84, h8, final3]
  unfold outK finK
  have e0 := s3_v81 (Gen.V6 m outs c)
  have e71 : Gen.V6 m outs c main_v71 = outs 6 main_v71 c := Function.update_self _ _ _
  have e44 : Gen.V6 m outs c main_v44 = (truncf (F := Ideal) .bf16 (m ((c.tc : Thread nD τ).loc main_arg0) : FVec Ideal S50000x64 .f32) bitsLt_bf16_f32 : FVec Ideal S50000x64 .bf16) :=
    ((Gen.V6_of m outs c main_v44 (by decide)).trans (s2_v44 (Gen.V4 m outs c))).trans
      (by rw [V4_arg m outs c main_arg0 (by decide) (by decide) (by decide) (by decide)])
  have e1 : Gen.V7 m outs c main_arg15 = (m ((c.tc : Thread nD τ).loc main_arg15)) := (Gen.V7_of m outs c main_arg15 (by decide)).trans (V6_arg m outs c main_arg15 (by decide) (by decide) (by decide) (by decide) (by decide) (by decide))
  have e2 := s3_v82 (Gen.V6 m outs c)
  have e3 : Gen.V7 m outs c main_arg17 = (m ((c.tc : Thread nD τ).loc main_arg17)) := (Gen.V7_of m outs c main_arg17 (by decide)).trans (V6_arg m outs c main_arg17 (by decide) (by decide) (by decide) (by decide) (by decide) (by decide))
  have e4 := s3_v83 (Gen.V6 m outs c)
  rw [show Gen.V7 m outs c main_v81 = _ from e0, e1, show Gen.V7 m outs c main_v82 = _ from e2, e3, show Gen.V7 m outs c main_v83 = _ from e4,
    e71, e44, V6_v1, V6_v7, out6_eq m outs c h2 h4 h6,
    V6_arg m outs c main_arg16 (by decide) (by decide) (by decide) (by decide) (by decide) (by decide),
    V6_arg m outs c main_arg18 (by decide) (by decide) (by decide) (by decide) (by decide) (by decide)]

end Cert.KernelIdeal.Value

end
-- ==== Proof.RefMlpIx.lean ====
/-
  The reference's four perceptrons, read at an index.

  The reference computes each perceptron  max(X·W1 + b1, 0)·W2 + b2  on whole arrays with host operations: two
  `dot_general`s, each bias vector placed as the one row of a matrix and that row repeated down the rows, and a
  maximum against a scalar zero repeated over the matrix.  Read at row `r` and column `c`, the composite is the
  perceptron's formula `Cert.Mlp.mlp` of the operands taken as functions of their coordinates.
-/
import proofs.«160275_j16484084483095_2_alg».proof.Proof.Gen.ReferenceIdeal
import proofs.«160275_j16484084483095_2_alg».proof.Proof.Spec
import proofs.«160275_j16484084483095_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.ReferenceIdeal.MlpIx

open Idealize.ShloMosaic Idealize.ShloMosaic.ValueIdx Cert.ReferenceIdeal Cert.ReferenceIdeal.Gen

section Broadcasts
variable {α : Type}

/-- A vector placed as the one row of a `[1, b]` matrix reads, at `(p, c)`, the vector at `c`. -/
theorem bid_vec_row_apply {b : ℕ} (v : (⟨1, ![b]⟩ : Shape).Idx → α)
    (h : (⟨1, ![b]⟩ : Shape).BroadcastsInDim ⟨2, ![1, b]⟩ (![1] : Fin (⟨1, ![b]⟩ : Shape).rank → Fin (⟨2, ![1, b]⟩ : Shape).rank))
    (p : Fin 1) (c : Fin b) :
    broadcastInDim ⟨2, ![1, b]⟩ ![1] h v (ix2 p c) = v (ix1 c) := by
  refine broadcastInDim_apply _ h v (ix2 p c) (ix1 c) fun ax => ?_
  match ax with
  | ⟨0, _⟩ =>
    show c.val = if b = 1 then 0 else c.val
    split
    · have := c.isLt; omega
    · rfl

/-- The one row of a `[1, b]` matrix repeated down `a` rows reads, at `(p, c)`, that row at `c`. -/
theorem bid_row_apply {a b : ℕ} (v : (⟨2, ![1, b]⟩ : Shape).Idx → α)
    (h : (⟨2, ![1, b]⟩ : Shape).BroadcastsInDim ⟨2, ![a, b]⟩ (![0, 1] : Fin (⟨2, ![1, b]⟩ : Shape).rank → Fin (⟨2, ![a, b]⟩ : Shape).rank))
    (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show 0 = if (1 : Nat) = 1 then 0 else p.val
    rw [if_pos rfl]
  | ⟨1, _⟩ =>
    show c.val = if b = 1 then 0 else c.val
    split
    · have := c.isLt; omega
    · rfl

/-- A scalar repeated over any shape reads the scalar everywhere. -/
theorem bid_scalar_apply {t : Shape} (v : (⟨0, ![]⟩ : Shape).Idx → α)
    (h : (⟨0, ![]⟩ : Shape).BroadcastsInDim t (![] : Fin (⟨0, ![]⟩ : Shape).rank → Fin t.rank)) (j : t.Idx) :
    broadcastInDim t ![] h v j = v ix0 :=
  broadcastInDim_apply _ h v j ix0 fun ax => ax.elim0

end Broadcasts

/-- The composite for any sizes and any two plain dimension records: the perceptron's formula. -/
theorem ref_ix {M K H N : Nat}
    (D1 : DotDims (⟨2, ![M, K]⟩ : Shape) (⟨2, ![K, H]⟩ : Shape) (⟨2, ![M, H]⟩ : Shape))
    (hr1 : D1.contr.rank = 1) (hs1 : D1.contr.size ⟨0, by omega⟩ = K)
    (l10 : ∀ (j : (⟨2, ![M, H]⟩ : Shape).Idx) (q : D1.contr.Idx), (D1.lhsIdx j q 0).val = (j 0).val)
    (l11 : ∀ (j : (⟨2, ![M, H]⟩ : Shape).Idx) (q : D1.contr.Idx), (D1.lhsIdx j q 1).val = (q ⟨0, by omega⟩).val)
    (r10 : ∀ (j : (⟨2, ![M, H]⟩ : Shape).Idx) (q : D1.contr.Idx), (D1.rhsIdx j q 0).val = (q ⟨0, by omega⟩).val)
    (r11 : ∀ (j : (⟨2, ![M, H]⟩ : Shape).Idx) (q : D1.contr.Idx), (D1.rhsIdx j q 1).val = (j 1).val)
    (D2 : DotDims (⟨2, ![M, H]⟩ : Shape) (⟨2, ![H, N]⟩ : Shape) (⟨2, ![M, N]⟩ : Shape))
    (hr2 : D2.contr.rank = 1) (hs2 : D2.contr.size ⟨0, by omega⟩ = H)
    (l20 : ∀ (j : (⟨2, ![M, N]⟩ : Shape).Idx) (q : D2.contr.Idx), (D2.lhsIdx j q 0).val = (j 0).val)
    (l21 : ∀ (j : (⟨2, ![M, N]⟩ : Shape).Idx) (q : D2.contr.Idx), (D2.lhsIdx j q 1).val = (q ⟨0, by omega⟩).val)
    (r20 : ∀ (j : (⟨2, ![M, N]⟩ : Shape).Idx) (q : D2.contr.Idx), (D2.rhsIdx j q 0).val = (q ⟨0, by omega⟩).val)
    (r21 : ∀ (j : (⟨2, ![M, N]⟩ : Shape).Idx) (q : D2.contr.Idx), (D2.rhsIdx j q 1).val = (j 1).val)
    (X : FVec Ideal (⟨2, ![M, K]⟩ : Shape) .f32) (W1 : FVec Ideal (⟨2, ![K, H]⟩ : Shape) .f32)
    (b1 : FVec Ideal (⟨1, ![H]⟩ : Shape) .f32) (W2 : FVec Ideal (⟨2, ![H, N]⟩ : Shape) .f32)
    (b2 : FVec Ideal (⟨1, ![N]⟩ : Shape) .f32)
    (g1 : (⟨1, ![H]⟩ : Shape).BroadcastsInDim ⟨2, ![1, H]⟩ (![1] : Fin (⟨1, ![H]⟩ : Shape).rank → Fin (⟨2, ![1, H]⟩ : Shape).rank))
    (g2 : (⟨2, ![1, H]⟩ : Shape).BroadcastsInDim ⟨2, ![M, H]⟩ (![0, 1] : Fin (⟨2, ![1, H]⟩ : Shape).rank → Fin (⟨2, ![M, H]⟩ : Shape).rank))
    (gz : (⟨0, ![]⟩ : Shape).BroadcastsInDim ⟨2, ![M, H]⟩ (![] : Fin (⟨0, ![]⟩ : Shape).rank → Fin (⟨2, ![M, H]⟩ : Shape).rank))
    (g3 : (⟨1, ![N]⟩ : Shape).BroadcastsInDim ⟨2, ![1, N]⟩ (![1] : Fin (⟨1, ![N]⟩ : Shape).rank → Fin (⟨2, ![1, N]⟩ : Shape).rank))
    (g4 : (⟨2, ![1, N]⟩ : Shape).BroadcastsInDim ⟨2, ![M, N]⟩ (![0, 1] : Fin (⟨2, ![1, N]⟩ : Shape).rank → Fin (⟨2, ![M, N]⟩ : Shape).rank))
    (r : Fin M) (c : Fin N) :
    addf (Host.dotGeneral (F := Ideal) D2 none
        (maximumf (addf (Host.dotGeneral (F := Ideal) D1 none X W1)
            (broadcastInDim (⟨2, ![M, H]⟩ : Shape) ![0, 1] g2 (broadcastInDim (⟨2, ![1, H]⟩ : Shape) ![1] g1 b1)))
          (broadcastInDim (⟨2, ![M, H]⟩ : Shape) ![] gz (constant (F := Ideal) (⟨0, ![]⟩ : Shape) .f32 0x00000000#32))) W2)
      (broadcastInDim (⟨2, ![M, N]⟩ : Shape) ![0, 1] g4 (broadcastInDim (⟨2, ![1, N]⟩ : Shape) ![1] g3 b2)) (ix2 r c)
      = Cert.Mlp.mlp (fun (r : Fin M) (k : Fin K) => X (ix2 r k)) (fun (k : Fin K) (h : Fin H) => W1 (ix2 k h))
          (fun h : Fin H => b1 (ix1 h)) (fun (h : Fin H) (c : Fin N) => W2 (ix2 h c)) (fun c : Fin N => b2 (ix1 c)) r c := by
  unfold Cert.Mlp.mlp Cert.Mlp.hid
  rw [addf_apply, bid_row_apply, bid_vec_row_apply]
  refine congrArg (· + b2 (ix1 c)) ?_
  refine (Cert.Lib.PlainDot.dotGeneral_apply D2 hr2 hs2 l20 l21 r20 r21 none .single _ W2 (ix2 r c)).trans ?_
  refine Finset.sum_congr rfl fun h _ => ?_
  refine congrArg (· * W2 (ix2 h c)) ?_
  show max (Host.dotGeneral (F := Ideal) D1 none X W1 (ix2 r h)
      + broadcastInDim (⟨2, ![M, H]⟩ : Shape) ![0, 1] g2 (broadcastInDim (⟨2, ![1, H]⟩ : Shape) ![1] g1 b1) (ix2 r h))
    (broadcastInDim (⟨2, ![M, H]⟩ : Shape) ![] gz (constant (F := Ideal) (⟨0, ![]⟩ : Shape) .f32 0x00000000#32) (ix2 r h)) = _
  rw [bid_row_apply, bid_vec_row_apply, bid_scalar_apply, constant_apply, Ideal.ofBits_zero_f32]
  refine congrArg (fun x : EReal => max (x + b1 (ix1 h)) 0) ?_
  exact Cert.Lib.PlainDot.dotGeneral_apply D1 hr1 hs1 l10 l11 r10 r11 none .single X W1 (ix2 r h)

/-- The left operand's coordinate on its free axis `a` is the output's row coordinate: the record's lists decide it. -/
local macro "dot_lhs_free" D:term "," sl:term "," a:term : tactic => `(tactic| (
  intro j q
  unfold DotDims.lhsIdx
  rw [dif_neg (show ¬(($a : Fin (Shape.rank $sl))) ∈ DotDims.lhsBatch $D by decide),
    dif_pos (show (($a : Fin (Shape.rank $sl))) ∈ DotDims.lhsNonContracting $D by decide)]
  rfl))

/-- The right operand's coordinate on its free axis `a` is the output's column coordinate. -/
local macro "dot_rhs_free" D:term "," sr:term "," a:term : tactic => `(tactic| (
  intro j q
  unfold DotDims.rhsIdx
  rw [dif_neg (show ¬(($a : Fin (Shape.rank $sr))) ∈ DotDims.rhsBatch $D by decide),
    dif_pos (show (($a : Fin (Shape.rank $sr))) ∈ DotDims.rhsNonContracting $D by decide)]
  rfl))

/-- The reference's first perceptron as it is printed: `800000` rows of two input features. -/
def refA (X : FVec Ideal S800000x2 .f32) (W1 : FVec Ideal S2x128 .f32) (b1 : FVec Ideal S128 .f32)
    (W2 : FVec Ideal S128x64 .f32) (b2 : FVec Ideal S64 .f32) : FVec Ideal S800000x64 .f32 :=
  addf (Host.dotGeneral (F := Ideal) dot_S800000x128_S128x64_S800000x64_1_0_0_1_n_n none
      (maximumf (addf (Host.dotGeneral (F := Ideal) dot_S800000x2_S2x128_S800000x128_1_0_0_1_n_n none X W1)
          (broadcastInDim S800000x128 ![0, 1] bcast_S1x128_S800000x128_0_1 (broadcastInDim S1x128 ![1] bcast_S128_S1x128_1 b1)))
        (broadcastInDim S800000x128 ![] bcast_S_S800000x128 (constant (F := Ideal) S_ .f32 0x00000000#32))) W2)
    (broadcastInDim S800000x64 ![0, 1] bcast_S1x64_S800000x64_0_1 (broadcastInDim S1x64 ![1] bcast_S64_S1x64_1 b2))

/-- At row `r` and column `c` it is the perceptron's formula. -/
theorem refA_ix (X : FVec Ideal S800000x2 .f32) (W1 : FVec Ideal S2x128 .f32) (b1 : FVec Ideal S128 .f32)
    (W2 : FVec Ideal S128x64 .f32) (b2 : FVec Ideal S64 .f32) (r : Fin 800000) (c : Fin 64) :
    refA X W1 b1 W2 b2 (ix2 r c)
      = Cert.Mlp.mlp (fun (r : Fin 800000) (k : Fin 2) => X (ix2 r k)) (fun (k : Fin 2) (h : Fin 128) => W1 (ix2 k h))
          (fun h : Fin 128 => b1 (ix1 h)) (fun (h : Fin 128) (c : Fin 64) => W2 (ix2 h c))
          (fun c : Fin 64 => b2 (ix1 c)) r c :=
  ref_ix dot_S800000x2_S2x128_S800000x128_1_0_0_1_n_n rfl rfl
    (by dot_lhs_free dot_S800000x2_S2x128_S800000x128_1_0_0_1_n_n, S800000x2, 0)
    (fun j q => dot_S800000x2_S2x128_S800000x128_1_0_0_1_n_n.lhsIdx_val_of_single rfl j q)
    (fun j q => dot_S800000x2_S2x128_S800000x128_1_0_0_1_n_n.rhsIdx_val_of_single rfl j q)
    (by dot_rhs_free dot_S800000x2_S2x128_S800000x128_1_0_0_1_n_n, S2x128, 1)
    dot_S800000x128_S128x64_S800000x64_1_0_0_1_n_n rfl rfl
    (by dot_lhs_free dot_S800000x128_S128x64_S800000x64_1_0_0_1_n_n, S800000x128, 0)
    (fun j q => dot_S800000x128_S128x64_S800000x64_1_0_0_1_n_n.lhsIdx_val_of_single rfl j q)
    (fun j q => dot_S800000x128_S128x64_S800000x64_1_0_0_1_n_n.rhsIdx_val_of_single rfl j q)
    (by dot_rhs_free dot_S800000x128_S128x64_S800000x64_1_0_0_1_n_n, S128x64, 1)
    X W1 b1 W2 b2 _ _ _ _ _ r c

/-- The reference's second perceptron as it is printed: `50000` rows of `64` input features. -/
def refB (X : FVec Ideal S50000x64 .f32) (W1 : FVec Ideal S64x128 .f32) (b1 : FVec Ideal S128 .f32)
    (W2 : FVec Ideal S128x64 .f32) (b2 : FVec Ideal S64 .f32) : FVec Ideal S50000x64 .f32 :=
  addf (Host.dotGeneral (F := Ideal) dot_S50000x128_S128x64_S50000x64_1_0_0_1_n_n none
      (maximumf (addf (Host.dotGeneral (F := Ideal) dot_S50000x64_S64x128_S50000x128_1_0_0_1_n_n none X W1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32))) W2)
    (broadcastInDim S50000x64 ![0, 1] bcast_S1x64_S50000x64_0_1 (broadcastInDim S1x64 ![1] bcast_S64_S1x64_1 b2))

/-- At row `r` and column `c` it is the perceptron's formula. -/
theorem refB_ix (X : FVec Ideal S50000x64 .f32) (W1 : FVec Ideal S64x128 .f32) (b1 : FVec Ideal S128 .f32)
    (W2 : FVec Ideal S128x64 .f32) (b2 : FVec Ideal S64 .f32) (r : Fin 50000) (c : Fin 64) :
    refB X W1 b1 W2 b2 (ix2 r c)
      = Cert.Mlp.mlp (fun (r : Fin 50000) (k : Fin 64) => X (ix2 r k)) (fun (k : Fin 64) (h : Fin 128) => W1 (ix2 k h))
          (fun h : Fin 128 => b1 (ix1 h)) (fun (h : Fin 128) (c : Fin 64) => W2 (ix2 h c))
          (fun c : Fin 64 => b2 (ix1 c)) r c :=
  ref_ix dot_S50000x64_S64x128_S50000x128_1_0_0_1_n_n rfl rfl
    (by dot_lhs_free dot_S50000x64_S64x128_S50000x128_1_0_0_1_n_n, S50000x64, 0)
    (fun j q => dot_S50000x64_S64x128_S50000x128_1_0_0_1_n_n.lhsIdx_val_of_single rfl j q)
    (fun j q => dot_S50000x64_S64x128_S50000x128_1_0_0_1_n_n.rhsIdx_val_of_single rfl j q)
    (by dot_rhs_free dot_S50000x64_S64x128_S50000x128_1_0_0_1_n_n, S64x128, 1)
    dot_S50000x128_S128x64_S50000x64_1_0_0_1_n_n rfl rfl
    (by dot_lhs_free dot_S50000x128_S128x64_S50000x64_1_0_0_1_n_n, S50000x128, 0)
    (fun j q => dot_S50000x128_S128x64_S50000x64_1_0_0_1_n_n.lhsIdx_val_of_single rfl j q)
    (fun j q => dot_S50000x128_S128x64_S50000x64_1_0_0_1_n_n.rhsIdx_val_of_single rfl j q)
    (by dot_rhs_free dot_S50000x128_S128x64_S50000x64_1_0_0_1_n_n, S128x64, 1)
    X W1 b1 W2 b2 _ _ _ _ _ r c

/-- The reference's third perceptron as it is printed: `800000` rows of `194` input features. -/
def refC (X : FVec Ideal S800000x194 .f32) (W1 : FVec Ideal S194x128 .f32) (b1 : FVec Ideal S128 .f32)
    (W2 : FVec Ideal S128x64 .f32) (b2 : FVec Ideal S64 .f32) : FVec Ideal S800000x64 .f32 :=
  addf (Host.dotGeneral (F := Ideal) dot_S800000x128_S128x64_S800000x64_1_0_0_1_n_n none
      (maximumf (addf (Host.dotGeneral (F := Ideal) dot_S800000x194_S194x128_S800000x128_1_0_0_1_n_n none X W1)
          (broadcastInDim S800000x128 ![0, 1] bcast_S1x128_S800000x128_0_1 (broadcastInDim S1x128 ![1] bcast_S128_S1x128_1 b1)))
        (broadcastInDim S800000x128 ![] bcast_S_S800000x128 (constant (F := Ideal) S_ .f32 0x00000000#32))) W2)
    (broadcastInDim S800000x64 ![0, 1] bcast_S1x64_S800000x64_0_1 (broadcastInDim S1x64 ![1] bcast_S64_S1x64_1 b2))

/-- At row `r` and column `c` it is the perceptron's formula. -/
theorem refC_ix (X : FVec Ideal S800000x194 .f32) (W1 : FVec Ideal S194x128 .f32) (b1 : FVec Ideal S128 .f32)
    (W2 : FVec Ideal S128x64 .f32) (b2 : FVec Ideal S64 .f32) (r : Fin 800000) (c : Fin 64) :
    refC X W1 b1 W2 b2 (ix2 r c)
      = Cert.Mlp.mlp (fun (r : Fin 800000) (k : Fin 194) => X (ix2 r k)) (fun (k : Fin 194) (h : Fin 128) => W1 (ix2 k h))
          (fun h : Fin 128 => b1 (ix1 h)) (fun (h : Fin 128) (c : Fin 64) => W2 (ix2 h c))
          (fun c : Fin 64 => b2 (ix1 c)) r c :=
  ref_ix dot_S800000x194_S194x128_S800000x128_1_0_0_1_n_n rfl rfl
    (by dot_lhs_free dot_S800000x194_S194x128_S800000x128_1_0_0_1_n_n, S800000x194, 0)
    (fun j q => dot_S800000x194_S194x128_S800000x128_1_0_0_1_n_n.lhsIdx_val_of_single rfl j q)
    (fun j q => dot_S800000x194_S194x128_S800000x128_1_0_0_1_n_n.rhsIdx_val_of_single rfl j q)
    (by dot_rhs_free dot_S800000x194_S194x128_S800000x128_1_0_0_1_n_n, S194x128, 1)
    dot_S800000x128_S128x64_S800000x64_1_0_0_1_n_n rfl rfl
    (by dot_lhs_free dot_S800000x128_S128x64_S800000x64_1_0_0_1_n_n, S800000x128, 0)
    (fun j q => dot_S800000x128_S128x64_S800000x64_1_0_0_1_n_n.lhsIdx_val_of_single rfl j q)
    (fun j q => dot_S800000x128_S128x64_S800000x64_1_0_0_1_n_n.rhsIdx_val_of_single rfl j q)
    (by dot_rhs_free dot_S800000x128_S128x64_S800000x64_1_0_0_1_n_n, S128x64, 1)
    X W1 b1 W2 b2 _ _ _ _ _ r c

/-- The reference's fourth perceptron as it is printed: `50000` rows of `128` input features. -/
def refD (X : FVec Ideal S50000x128 .f32) (W1 : FVec Ideal S128x128 .f32) (b1 : FVec Ideal S128 .f32)
    (W2 : FVec Ideal S128x64 .f32) (b2 : FVec Ideal S64 .f32) : FVec Ideal S50000x64 .f32 :=
  addf (Host.dotGeneral (F := Ideal) dot_S50000x128_S128x64_S50000x64_1_0_0_1_n_n none
      (maximumf (addf (Host.dotGeneral (F := Ideal) dot_S50000x128_S128x128_S50000x128_1_0_0_1_n_n none X W1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32))) W2)
    (broadcastInDim S50000x64 ![0, 1] bcast_S1x64_S50000x64_0_1 (broadcastInDim S1x64 ![1] bcast_S64_S1x64_1 b2))

/-- At row `r` and column `c` it is the perceptron's formula. -/
theorem refD_ix (X : FVec Ideal S50000x128 .f32) (W1 : FVec Ideal S128x128 .f32) (b1 : FVec Ideal S128 .f32)
    (W2 : FVec Ideal S128x64 .f32) (b2 : FVec Ideal S64 .f32) (r : Fin 50000) (c : Fin 64) :
    refD X W1 b1 W2 b2 (ix2 r c)
      = Cert.Mlp.mlp (fun (r : Fin 50000) (k : Fin 128) => X (ix2 r k)) (fun (k : Fin 128) (h : Fin 128) => W1 (ix2 k h))
          (fun h : Fin 128 => b1 (ix1 h)) (fun (h : Fin 128) (c : Fin 64) => W2 (ix2 h c))
          (fun c : Fin 64 => b2 (ix1 c)) r c :=
  ref_ix dot_S50000x128_S128x128_S50000x128_1_0_0_1_n_n rfl rfl
    (by dot_lhs_free dot_S50000x128_S128x128_S50000x128_1_0_0_1_n_n, S50000x128, 0)
    (fun j q => dot_S50000x128_S128x128_S50000x128_1_0_0_1_n_n.lhsIdx_val_of_single rfl j q)
    (fun j q => dot_S50000x128_S128x128_S50000x128_1_0_0_1_n_n.rhsIdx_val_of_single rfl j q)
    (by dot_rhs_free dot_S50000x128_S128x128_S50000x128_1_0_0_1_n_n, S128x128, 1)
    dot_S50000x128_S128x64_S50000x64_1_0_0_1_n_n rfl rfl
    (by dot_lhs_free dot_S50000x128_S128x64_S50000x64_1_0_0_1_n_n, S50000x128, 0)
    (fun j q => dot_S50000x128_S128x64_S50000x64_1_0_0_1_n_n.lhsIdx_val_of_single rfl j q)
    (fun j q => dot_S50000x128_S128x64_S50000x64_1_0_0_1_n_n.rhsIdx_val_of_single rfl j q)
    (by dot_rhs_free dot_S50000x128_S128x64_S50000x64_1_0_0_1_n_n, S128x64, 1)
    X W1 b1 W2 b2 _ _ _ _ _ r c

end Cert.ReferenceIdeal.MlpIx

end
-- ==== Proof.RefValue.lean ====
/-
  The reference's result as a composition of named stages.

  The reference's one result is a long composite of host operations on its nineteen arguments.  Here it is cut at
  the four perceptrons: the first perceptron of the position differences along the edges, the second of the mean of
  that over each node's received edges, the third of the concatenated edge features, and the fourth of the node
  features concatenated with the mean of the third's result.  Each stage is a named function of whole arrays,
  the glue between the perceptrons in the kernel program's vocabulary, and the composite IS the composition of the
  stages: the two programs spell the same shapes and dimension records under their own names.
-/
import proofs.«160275_j16484084483095_2_alg».proof.Proof.Gen.ReferenceIdeal.Run
import proofs.«160275_j16484084483095_2_alg».proof.Proof.RefMlpIx
import proofs.«160275_j16484084483095_2_alg».proof.Proof.KI.Terms

noncomputable section

namespace Cert.RefValue

open Idealize.ShloMosaic Idealize.ShloMosaic.TcCoe Idealize.SL.Sem
open Cert.KernelIdeal Cert.KernelIdeal.Gen Cert.KernelIdeal.Terms Cert.ReferenceIdeal.MlpIx

/-- The third perceptron's input: per edge, the receiving node's features, the sending node's minus the receiving
    node's, the position difference, and the receiving node's context, side by side. -/
def catR (a0 : FVec Ideal S50000x64 .f32) (a1 : FVec Ideal S50000x2 .f32) (a2 : IVec S2x800000 32)
    (ctx : FVec Ideal S50000x64 .f32) : FVec Ideal S800000x194 .f32 :=
  concatenate S800000x194 1
    [⟨S800000x64, Host.gather gather_S50000x64_S800000x1_S800000x64_1_0_n_n_0_1_164 a0 (nrmT (rowT a2))⟩,
     ⟨S800000x64, subf (Host.gather gather_S50000x64_S800000x1_S800000x64_1_0_n_n_0_1_164 a0 (nrmT (colT a2)))
        (Host.gather gather_S50000x64_S800000x1_S800000x64_1_0_n_n_0_1_164 a0 (nrmT (rowT a2)))⟩,
     ⟨S800000x2, pdiffT a1 a2⟩,
     ⟨S800000x64, Host.gather gather_S50000x64_S800000x1_S800000x64_1_0_n_n_0_1_164 ctx (nrmT (rowT a2))⟩]
    concatenates_S800000x64_S800000x64_S800000x2_S800000x64_S800000x194_d1

/-- The first perceptron, of the position differences. -/
def m1R (a1 : FVec Ideal S50000x2 .f32) (a2 : IVec S2x800000 32) (a3 : FVec Ideal S2x128 .f32) (a4 : FVec Ideal S128 .f32)
    (a5 : FVec Ideal S128x64 .f32) (a6 : FVec Ideal S64 .f32) : FVec Ideal S800000x64 .f32 :=
  refA (pdiffT a1 a2) a3 a4 a5 a6

/-- The second perceptron, of the mean of `m1` over each node's received edges. -/
def ctxR (m1 : FVec Ideal S800000x64 .f32) (a2 : IVec S2x800000 32) (a7 : FVec Ideal S64x128 .f32) (a8 : FVec Ideal S128 .f32)
    (a9 : FVec Ideal S128x64 .f32) (a10 : FVec Ideal S64 .f32) : FVec Ideal S50000x64 .f32 :=
  refB (segMeanT (rowT a2) (cntT a2) m1) a7 a8 a9 a10

/-- The third perceptron, of the concatenated edge features. -/
def m2R (cat : FVec Ideal S800000x194 .f32) (a11 : FVec Ideal S194x128 .f32) (a12 : FVec Ideal S128 .f32)
    (a13 : FVec Ideal S128x64 .f32) (a14 : FVec Ideal S64 .f32) : FVec Ideal S800000x64 .f32 :=
  refC cat a11 a12 a13 a14

/-- The fourth perceptron's input: the node features beside the mean of `m2` over each node's received edges. -/
def finR (a0 : FVec Ideal S50000x64 .f32) (a2 : IVec S2x800000 32) (m2 : FVec Ideal S800000x64 .f32) :
    FVec Ideal S50000x128 .f32 :=
  concatenate S50000x128 1 [⟨S50000x64, a0⟩, ⟨S50000x64, segMeanT (rowT a2) (cntT a2) m2⟩]
    concatenates_S50000x64_S50000x64_S50000x128_d1

/-- The fourth perceptron: the result. -/
def outR (fin : FVec Ideal S50000x128 .f32) (a15 : FVec Ideal S128x128 .f32) (a16 : FVec Ideal S128 .f32)
    (a17 : FVec Ideal S128x64 .f32) (a18 : FVec Ideal S64 .f32) : FVec Ideal S50000x64 .f32 :=
  refD fin a15 a16 a17 a18

/-- The reference's result is the composition of the stages, on its arguments' contents. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v106 (F := Ideal) m c
      = outR (finR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))
          (m2R (catR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
              (ctxR (m1R (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)))
                (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))))
            (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))))
          (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) := by
  unfold Cert.ReferenceIdeal.Value.res_main_v106 outR finR m2R catR ctxR m1R refA refB refC refD segMeanT cntT pdiffT nrmT
    colOfT rowT colT
  rfl

end Cert.RefValue

end
-- ==== Proof.Bridge013.lean ====
/-
  The three plain layers agree as whole arrays.

  The kernel program's regions 0, 1 and 3 leave in their output arrays the perceptron `Cert.Mlp.mlp` of the arrays
  they find: region 0 of a transposed input, and every region with its bias vectors recast as one-row matrices.  The
  reference's first, second and fourth perceptrons are the same formula of the untransposed input and the bias
  vectors themselves.  Entry by entry the two read the same numbers: a transposed matrix at `(k, r)` is the matrix at
  `(r, k)`, a vector recast as one row reads at `(0, h)` the vector at `h`, and a format change is the identity on
  extended reals.
-/
import proofs.«160275_j16484084483095_2_alg».proof.Proof.KI.Final0
import proofs.«160275_j16484084483095_2_alg».proof.Proof.KI.Final1
import proofs.«160275_j16484084483095_2_alg».proof.Proof.KI.Final3
import proofs.«160275_j16484084483095_2_alg».proof.Proof.RefValue
import Idealize.ShloMosaic.Lib.ValueLayout

noncomputable section

namespace Cert.Bridge

open Idealize.ShloMosaic Idealize.ShloMosaic.ValueIdx
open Cert.KernelIdeal Cert.KernelIdeal.Gen Cert.KernelIdeal.Terms Cert.ReferenceIdeal.MlpIx Cert.RefValue

/-- Region 0 against the reference's first perceptron: the region reads the position differences transposed. -/
theorem b0 (a1 : FVec Ideal S50000x2 .f32) (a2 : IVec S2x800000 32) (a3 : FVec Ideal S2x128 .f32) (a4 : FVec Ideal S128 .f32)
    (a5 : FVec Ideal S128x64 .f32) (a6 : FVec Ideal S64 .f32) :
    Cert.KernelIdeal.Hand.G0 (transpose S2x800000 [1, 0] (pdiffT a1 a2) transposes_S800000x2_S2x800000_1_0) a3
        (shapeCast S1x128 a4 shapeCasts_S128_S1x128) a5 (shapeCast S1x64 a6 shapeCasts_S64_S1x64)
      = m1R a1 a2 a3 a4 a5 a6 := by
  funext i
  obtain ⟨r, q, rfl⟩ : ∃ (r : Fin 800000) (q : Fin 64), i = ix2 r q := ⟨i 0, i 1, eq_ix2 i⟩
  unfold m1R
  refine Eq.trans ?_ (refA_ix (pdiffT a1 a2) a3 a4 a5 a6 r q).symm
  unfold Cert.KernelIdeal.Hand.G0
  exact Cert.Mlp.mlp_congr _ _ _ _ _ _ _ _ _ _ r r q q
    (fun k => transpose_ix2_apply (pdiffT a1 a2) transposes_S800000x2_S2x800000_1_0 k r) (fun k h => rfl)
    (fun h => shapeCast_a_1a_apply a4 shapeCasts_S128_S1x128 0 h) (fun h => rfl)
    (shapeCast_a_1a_apply a6 shapeCasts_S64_S1x64 0 q)

/-- Region 1 against the reference's second perceptron. -/
theorem b1 (X : FVec Ideal S50000x64 .f32) (a7 : FVec Ideal S64x128 .f32) (a8 : FVec Ideal S128 .f32)
    (a9 : FVec Ideal S128x64 .f32) (a10 : FVec Ideal S64 .f32) :
    Cert.KernelIdeal.Hand.G1 X a7 (shapeCast S1x128 a8 shapeCasts_S128_S1x128) a9 (shapeCast S1x64 a10 shapeCasts_S64_S1x64)
      = refB X a7 a8 a9 a10 := by
  funext i
  obtain ⟨r, q, rfl⟩ : ∃ (r : Fin 50000) (q : Fin 64), i = ix2 r q := ⟨i 0, i 1, eq_ix2 i⟩
  refine Eq.trans ?_ (refB_ix X a7 a8 a9 a10 r q).symm
  unfold Cert.KernelIdeal.Hand.G1
  exact Cert.Mlp.mlp_congr _ _ _ _ _ _ _ _ _ _ r r q q (fun k => rfl) (fun k h => rfl)
    (fun h => shapeCast_a_1a_apply a8 shapeCasts_S128_S1x128 0 h) (fun h => rfl)
    (shapeCast_a_1a_apply a10 shapeCasts_S64_S1x64 0 q)

/-- Region 3 against the reference's fourth perceptron: the region reads its two halves in the narrow format, which
    at the extended reals is the same array. -/
theorem b3 (a0 : FVec Ideal S50000x64 .f32) (s : FVec Ideal S50000x64 .f32) (a15 : FVec Ideal S128x128 .f32)
    (a16 : FVec Ideal S128 .f32) (a17 : FVec Ideal S128x64 .f32) (a18 : FVec Ideal S64 .f32) :
    Cert.KernelIdeal.Hand.G3
        (concatenate S50000x128 1 [⟨S50000x64, truncf (F := Ideal) .bf16 a0 bitsLt_bf16_f32⟩,
          ⟨S50000x64, truncf (F := Ideal) .bf16 s bitsLt_bf16_f32⟩] concatenates_S50000x64_S50000x64_S50000x128_d1)
        a15 (shapeCast S1x128 a16 shapeCasts_S128_S1x128) a17 (shapeCast S1x64 a18 shapeCasts_S64_S1x64)
      = refD (concatenate S50000x128 1 [⟨S50000x64, a0⟩, ⟨S50000x64, s⟩] concatenates_S50000x64_S50000x64_S50000x128_d1)
          a15 a16 a17 a18 := by
  funext i
  obtain ⟨r, q, rfl⟩ : ∃ (r : Fin 50000) (q : Fin 64), i = ix2 r q := ⟨i 0, i 1, eq_ix2 i⟩
  refine Eq.trans ?_ (refD_ix _ a15 a16 a17 a18 r q).symm
  unfold Cert.KernelIdeal.Hand.G3
  exact Cert.Mlp.mlp_congr _ _ _ _ _ _ _ _ _ _ r r q q (fun k => rfl) (fun k h => rfl)
    (fun h => shapeCast_a_1a_apply a16 shapeCasts_S128_S1x128 0 h) (fun h => rfl)
    (shapeCast_a_1a_apply a18 shapeCasts_S64_S1x64 0 q)

end Cert.Bridge

end
-- ==== Proof.Fold.lean ====
/-
  Folding a difference of inputs into a difference of weights.

  A row of width 194 is cut into four blocks of widths 64, 64, 2 and 64.  With finite entries in the first two
  blocks,  x·(a − b) + y·b = x·a + (y − x)·b  block by block, so the dot product of  [x | y | p | q]  with the
  stacked weight  [a − b ; b ; c ; d]  equals that of  [x | y − x | p | q]  with  [a ; b ; c ; d].  The last two
  blocks may hold any extended reals: they agree term by term.
-/
import Mathlib.Data.EReal.Basic
import Mathlib.Data.EReal.Operations
import Mathlib.Algebra.BigOperators.Fin

noncomputable section

open scoped BigOperators

namespace Cert.Fold

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 194 indices, cut into blocks of 64, 64, 2 and 64 indices. -/
theorem sum_split (F : Fin 194 → EReal) :
    ∑ k : Fin 194, F k
      = (∑ k : Fin 64, F ⟨k.val, by omega⟩) + (∑ k : Fin 64, F ⟨64 + k.val, by omega⟩)
        + (∑ k : Fin 2, F ⟨128 + k.val, by omega⟩) + (∑ k : Fin 64, F ⟨130 + k.val, by omega⟩) := by
  have h1 := Fin.sum_univ_add (a := 130) (b := 64) F
  have h2 := Fin.sum_univ_add (a := 128) (b := 2) (fun i : Fin 130 => F (Fin.castAdd 64 i))
  have h3 := Fin.sum_univ_add (a := 64) (b := 64) (fun i : Fin 128 => F (Fin.castAdd 64 (Fin.castAdd 2 i)))
  rw [h1, h2, h3]
  rfl

/-- The two finite blocks: x·(a − b) + y·b = x·a + (y − x)·b, summed. -/
theorem fold_real (xr xc wa wb : Fin 64 → ℝ) :
    (∑ k : Fin 64, (xr k : EReal) * ((wa k : EReal) - (wb k : EReal))) + (∑ k : Fin 64, (xc k : EReal) * (wb k : EReal))
      = (∑ k : Fin 64, (xr k : EReal) * (wa k : EReal))
        + (∑ k : Fin 64, ((xc k : EReal) - (xr k : EReal)) * (wb k : EReal)) := by
  simp only [← EReal.coe_sub, ← EReal.coe_mul, ← coe_sum, ← EReal.coe_add]
  refine congrArg _ ?_
  rw [← Finset.sum_add_distrib, ← Finset.sum_add_distrib]
  refine Finset.sum_congr rfl fun k _ => ?_
  ring

theorem fold_sum (xr xc wa wb : Fin 64 → ℝ) (pd wc : Fin 2 → EReal) (cr wd : Fin 64 → EReal)
    (A B A' B' : Fin 194 → EReal)
    (hA0 : ∀ k : Fin 64, A ⟨k.val, by omega⟩ = (xr k : EReal))
    (hA1 : ∀ k : Fin 64, A ⟨64 + k.val, by omega⟩ = (xc k : EReal))
    (hA2 : ∀ k : Fin 2, A ⟨128 + k.val, by omega⟩ = pd k)
    (hA3 : ∀ k : Fin 64, A ⟨130 + k.val, by omega⟩ = cr k)
    (hB0 : ∀ k : Fin 64, B ⟨k.val, by omega⟩ = (wa k : EReal) - (wb k : EReal))
    (hB1 : ∀ k : Fin 64, B ⟨64 + k.val, by omega⟩ = (wb k : EReal))
    (hB2 : ∀ k : Fin 2, B ⟨128 + k.val, by omega⟩ = wc k)
    (hB3 : ∀ k : Fin 64, B ⟨130 + k.val, by omega⟩ = wd k)
    (hA'0 : ∀ k : Fin 64, A' ⟨k.val, by omega⟩ = (xr k : EReal))
    (hA'1 : ∀ k : Fin 64, A' ⟨64 + k.val, by omega⟩ = (xc k : EReal) - (xr k : EReal))
    (hA'2 : ∀ k : Fin 2, A' ⟨128 + k.val, by omega⟩ = pd k)
    (hA'3 : ∀ k : Fin 64, A' ⟨130 + k.val, by omega⟩ = cr k)
    (hB'0 : ∀ k : Fin 64, B' ⟨k.val, by omega⟩ = (wa k : EReal))
    (hB'1 : ∀ k : Fin 64, B' ⟨64 + k.val, by omega⟩ = (wb k : EReal))
    (hB'2 : ∀ k : Fin 2, B' ⟨128 + k.val, by omega⟩ = wc k)
    (hB'3 : ∀ k : Fin 64, B' ⟨130 + k.val, by omega⟩ = wd k) :
    ∑ k : Fin 194, A k * B k = ∑ k : Fin 194, A' k * B' k := by
  rw [sum_split (fun k => A k * B k), sum_split (fun k => A' k * B' k)]
  simp only [hA0, hA1, hA2, hA3, hB0, hB1, hB2, hB3, hA'0, hA'1, hA'2, hA'3, hB'0, hB'1, hB'2, hB'3]
  rw [fold_real xr xc wa wb]

end Cert.Fold

end
-- ==== Proof.CatIx.lean ====
/-
  Concatenations and slices of matrices, read at an index.

  A concatenation of matrices along an axis, read at an index whose coordinate on that axis falls in the span of one
  piece, is that piece at the same index with the coordinate counted from the piece's start; a block of rows of a
  matrix, read at an index, is the matrix at the index with the first coordinate shifted by the block's offset.
  The facts below state this for the row widths 64, 64, 2, 64 (together 194) and 64, 64 (together 128).
-/
import Idealize.ShloMosaic.Lib.Pipeline.Value
import Idealize.ShloMosaic.Lib.ValueIdx

namespace Cert.CatIx

open Idealize.ShloMosaic Idealize.ShloMosaic.ValueIdx

variable {α : Type}

/-! ### Four pieces of widths 64, 64, 2, 64 side by side (along axis 1) -/

section Cat4
variable (x0 : (⟨2, ![800000, 64]⟩ : Shape).Idx → α) (x1 : (⟨2, ![800000, 64]⟩ : Shape).Idx → α)
  (x2 : (⟨2, ![800000, 2]⟩ : Shape).Idx → α) (x3 : (⟨2, ![800000, 64]⟩ : Shape).Idx → α)
  (h : Shape.Concatenates [⟨2, ![800000, 64]⟩, ⟨2, ![800000, 64]⟩, ⟨2, ![800000, 2]⟩, ⟨2, ![800000, 64]⟩] ⟨2, ![800000, 194]⟩ 1)
  (e : Fin 800000)

/-- Columns 0 … 63 are the first piece. -/
theorem cat4_0 (k : Fin 64) :
    concatenate ⟨2, ![800000, 194]⟩ 1 [⟨⟨2, ![800000, 64]⟩, x0⟩, ⟨⟨2, ![800000, 64]⟩, x1⟩, ⟨⟨2, ![800000, 2]⟩, x2⟩, ⟨⟨2, ![800000, 64]⟩, x3⟩] h
      (ix2 e ⟨k.val, by omega⟩) = x0 (ix2 e k) := by
  refine concatenate_apply_piece (t := ⟨2, ![800000, 194]⟩) 1 [⟨⟨2, ![800000, 64]⟩, x0⟩, ⟨⟨2, ![800000, 64]⟩, x1⟩, ⟨⟨2, ![800000, 2]⟩, x2⟩, ⟨⟨2, ![800000, 64]⟩, x3⟩] h _ 0 (by simp) _ x0 rfl rfl 0 rfl (ix2 e k) ?_ ?_
  · intro b hb
    match b with
    | ⟨0, _⟩ => rfl
    | ⟨1, _⟩ => exact absurd rfl hb
  · exact Nat.zero_add _

/-- Columns 64 … 127 are the second piece. -/
theorem cat4_1 (k : Fin 64) :
    concatenate ⟨2, ![800000, 194]⟩ 1 [⟨⟨2, ![800000, 64]⟩, x0⟩, ⟨⟨2, ![800000, 64]⟩, x1⟩, ⟨⟨2, ![800000, 2]⟩, x2⟩, ⟨⟨2, ![800000, 64]⟩, x3⟩] h
      (ix2 e ⟨64 + k.val, by omega⟩) = x1 (ix2 e k) := by
  refine concatenate_apply_piece (t := ⟨2, ![800000, 194]⟩) 1 [⟨⟨2, ![800000, 64]⟩, x0⟩, ⟨⟨2, ![800000, 64]⟩, x1⟩, ⟨⟨2, ![800000, 2]⟩, x2⟩, ⟨⟨2, ![800000, 64]⟩, x3⟩] h _ 1 (by simp) _ x1 rfl rfl 64 rfl (ix2 e k) ?_ ?_
  · intro b hb
    match b with
    | ⟨0, _⟩ => rfl
    | ⟨1, _⟩ => exact absurd rfl hb
  · rfl

/-- Columns 128, 129 are the third piece. -/
theorem cat4_2 (k : Fin 2) :
    concatenate ⟨2, ![800000, 194]⟩ 1 [⟨⟨2, ![800000, 64]⟩, x0⟩, ⟨⟨2, ![800000, 64]⟩, x1⟩, ⟨⟨2, ![800000, 2]⟩, x2⟩, ⟨⟨2, ![800000, 64]⟩, x3⟩] h
      (ix2 e ⟨128 + k.val, by omega⟩) = x2 (ix2 e k) := by
  refine concatenate_apply_piece (t := ⟨2, ![800000, 194]⟩) 1 [⟨⟨2, ![800000, 64]⟩, x0⟩, ⟨⟨2, ![800000, 64]⟩, x1⟩, ⟨⟨2, ![800000, 2]⟩, x2⟩, ⟨⟨2, ![800000, 64]⟩, x3⟩] h _ 2 (by simp) _ x2 rfl rfl 128 rfl (ix2 e k) ?_ ?_
  · intro b hb
    match b with
    | ⟨0, _⟩ => rfl
    | ⟨1, _⟩ => exact absurd rfl hb
  · rfl

/-- Columns 130 … 193 are the fourth piece. -/
theorem cat4_3 (k : Fin 64) :
    concatenate ⟨2, ![800000, 194]⟩ 1 [⟨⟨2, ![800000, 64]⟩, x0⟩, ⟨⟨2, ![800000, 64]⟩, x1⟩, ⟨⟨2, ![800000, 2]⟩, x2⟩, ⟨⟨2, ![800000, 64]⟩, x3⟩] h
      (ix2 e ⟨130 + k.val, by omega⟩) = x3 (ix2 e k) := by
  refine concatenate_apply_piece (t := ⟨2, ![800000, 194]⟩) 1 [⟨⟨2, ![800000, 64]⟩, x0⟩, ⟨⟨2, ![800000, 64]⟩, x1⟩, ⟨⟨2, ![800000, 2]⟩, x2⟩, ⟨⟨2, ![800000, 64]⟩, x3⟩] h _ 3 (by simp) _ x3 rfl rfl 130 rfl (ix2 e k) ?_ ?_
  · intro b hb
    match b with
    | ⟨0, _⟩ => rfl
    | ⟨1, _⟩ => exact absurd rfl hb
  · rfl

end Cat4

/-! ### Four pieces of heights 64, 64, 2, 64 stacked (along axis 0) -/

section Stack4
variable (x0 : (⟨2, ![64, 128]⟩ : Shape).Idx → α) (x1 : (⟨2, ![64, 128]⟩ : Shape).Idx → α)
  (x2 : (⟨2, ![2, 128]⟩ : Shape).Idx → α) (x3 : (⟨2, ![64, 128]⟩ : Shape).Idx → α)
  (h : Shape.Concatenates [⟨2, ![64, 128]⟩, ⟨2, ![64, 128]⟩, ⟨2, ![2, 128]⟩, ⟨2, ![64, 128]⟩] ⟨2, ![194, 128]⟩ 0)
  (j : Fin 128)

/-- Rows 0 … 63 are the first piece. -/
theorem stack4_0 (k : Fin 64) :
    concatenate ⟨2, ![194, 128]⟩ 0 [⟨⟨2, ![64, 128]⟩, x0⟩, ⟨⟨2, ![64, 128]⟩, x1⟩, ⟨⟨2, ![2, 128]⟩, x2⟩, ⟨⟨2, ![64, 128]⟩, x3⟩] h
      (ix2 ⟨k.val, by omega⟩ j) = x0 (ix2 k j) := by
  refine concatenate_apply_piece (t := ⟨2, ![194, 128]⟩) 0 [⟨⟨2, ![64, 128]⟩, x0⟩, ⟨⟨2, ![64, 128]⟩, x1⟩, ⟨⟨2, ![2, 128]⟩, x2⟩, ⟨⟨2, ![64, 128]⟩, x3⟩] h _ 0 (by simp) _ x0 rfl rfl 0 rfl (ix2 k j) ?_ ?_
  · intro b hb
    match b with
    | ⟨0, _⟩ => exact absurd rfl hb
    | ⟨1, _⟩ => rfl
  · exact Nat.zero_add _

/-- Rows 64 … 127 are the second piece. -/
theorem stack4_1 (k : Fin 64) :
    concatenate ⟨2, ![194, 128]⟩ 0 [⟨⟨2, ![64, 128]⟩, x0⟩, ⟨⟨2, ![64, 128]⟩, x1⟩, ⟨⟨2, ![2, 128]⟩, x2⟩, ⟨⟨2, ![64, 128]⟩, x3⟩] h
      (ix2 ⟨64 + k.val, by omega⟩ j) = x1 (ix2 k j) := by
  refine concatenate_apply_piece (t := ⟨2, ![194, 128]⟩) 0 [⟨⟨2, ![64, 128]⟩, x0⟩, ⟨⟨2, ![64, 128]⟩, x1⟩, ⟨⟨2, ![2, 128]⟩, x2⟩, ⟨⟨2, ![64, 128]⟩, x3⟩] h _ 1 (by simp) _ x1 rfl rfl 64 rfl (ix2 k j) ?_ ?_
  · intro b hb
    match b with
    | ⟨0, _⟩ => exact absurd rfl hb
    | ⟨1, _⟩ => rfl
  · rfl

/-- Rows 128, 129 are the third piece. -/
theorem stack4_2 (k : Fin 2) :
    concatenate ⟨2, ![194, 128]⟩ 0 [⟨⟨2, ![64, 128]⟩, x0⟩, ⟨⟨2, ![64, 128]⟩, x1⟩, ⟨⟨2, ![2, 128]⟩, x2⟩, ⟨⟨2, ![64, 128]⟩, x3⟩] h
      (ix2 ⟨128 + k.val, by omega⟩ j) = x2 (ix2 k j) := by
  refine concatenate_apply_piece (t := ⟨2, ![194, 128]⟩) 0 [⟨⟨2, ![64, 128]⟩, x0⟩, ⟨⟨2, ![64, 128]⟩, x1⟩, ⟨⟨2, ![2, 128]⟩, x2⟩, ⟨⟨2, ![64, 128]⟩, x3⟩] h _ 2 (by simp) _ x2 rfl rfl 128 rfl (ix2 k j) ?_ ?_
  · intro b hb
    match b with
    | ⟨0, _⟩ => exact absurd rfl hb
    | ⟨1, _⟩ => rfl
  · rfl

/-- Rows 130 … 193 are the fourth piece. -/
theorem stack4_3 (k : Fin 64) :
    concatenate ⟨2, ![194, 128]⟩ 0 [⟨⟨2, ![64, 128]⟩, x0⟩, ⟨⟨2, ![64, 128]⟩, x1⟩, ⟨⟨2, ![2, 128]⟩, x2⟩, ⟨⟨2, ![64, 128]⟩, x3⟩] h
      (ix2 ⟨130 + k.val, by omega⟩ j) = x3 (ix2 k j) := by
  refine concatenate_apply_piece (t := ⟨2, ![194, 128]⟩) 0 [⟨⟨2, ![64, 128]⟩, x0⟩, ⟨⟨2, ![64, 128]⟩, x1⟩, ⟨⟨2, ![2, 128]⟩, x2⟩, ⟨⟨2, ![64, 128]⟩, x3⟩] h _ 3 (by simp) _ x3 rfl rfl 130 rfl (ix2 k j) ?_ ?_
  · intro b hb
    match b with
    | ⟨0, _⟩ => exact absurd rfl hb
    | ⟨1, _⟩ => rfl
  · rfl

end Stack4

/-! ### The four blocks of rows of a matrix of 194 rows -/

section Slice
variable (w : (⟨2, ![194, 128]⟩ : Shape).Idx → α) (j : Fin 128)

/-- The block of rows 0 … 63. -/
theorem slice_0 (h : (⟨2, ![194, 128]⟩ : Shape).Slices ![0, 0] ⟨2, ![64, 128]⟩) (k : Fin 64) :
    extractStridedSlice ⟨2, ![64, 128]⟩ ![0, 0] w h (ix2 k j) = w (ix2 ⟨k.val, by omega⟩ j) :=
  extractStridedSlice_apply ![0, 0] w h (ix2 k j) (ix2 ⟨k.val, by omega⟩ j) fun a =>
    match a with
    | ⟨0, _⟩ => (Nat.zero_add _).symm
    | ⟨1, _⟩ => (Nat.zero_add _).symm

/-- The block of rows 64 … 127. -/
theorem slice_64 (h : (⟨2, ![194, 128]⟩ : Shape).Slices ![64, 0] ⟨2, ![64, 128]⟩) (k : Fin 64) :
    extractStridedSlice ⟨2, ![64, 128]⟩ ![64, 0] w h (ix2 k j) = w (ix2 ⟨64 + k.val, by omega⟩ j) :=
  extractStridedSlice_apply ![64, 0] w h (ix2 k j) (ix2 ⟨64 + k.val, by omega⟩ j) fun a =>
    match a with
    | ⟨0, _⟩ => rfl
    | ⟨1, _⟩ => (Nat.zero_add _).symm

/-- The block of rows 128, 129. -/
theorem slice_128 (h : (⟨2, ![194, 128]⟩ : Shape).Slices ![128, 0] ⟨2, ![2, 128]⟩) (k : Fin 2) :
    extractStridedSlice ⟨2, ![2, 128]⟩ ![128, 0] w h (ix2 k j) = w (ix2 ⟨128 + k.val, by omega⟩ j) :=
  extractStridedSlice_apply ![128, 0] w h (ix2 k j) (ix2 ⟨128 + k.val, by omega⟩ j) fun a =>
    match a with
    | ⟨0, _⟩ => rfl
    | ⟨1, _⟩ => (Nat.zero_add _).symm

/-- The block of rows 130 … 193. -/
theorem slice_130 (h : (⟨2, ![194, 128]⟩ : Shape).Slices ![130, 0] ⟨2, ![64, 128]⟩) (k : Fin 64) :
    extractStridedSlice ⟨2, ![64, 128]⟩ ![130, 0] w h (ix2 k j) = w (ix2 ⟨130 + k.val, by omega⟩ j) :=
  extractStridedSlice_apply ![130, 0] w h (ix2 k j) (ix2 ⟨130 + k.val, by omega⟩ j) fun a =>
    match a with
    | ⟨0, _⟩ => rfl
    | ⟨1, _⟩ => (Nat.zero_add _).symm

end Slice

/-! ### Two pieces of width 64 side by side (along axis 1) -/

section Cat2
variable (x0 : (⟨2, ![50000, 64]⟩ : Shape).Idx → α) (x1 : (⟨2, ![50000, 64]⟩ : Shape).Idx → α)
  (h : Shape.Concatenates [⟨2, ![50000, 64]⟩, ⟨2, ![50000, 64]⟩] ⟨2, ![50000, 128]⟩ 1) (r : Fin 50000)

/-- Columns 0 … 63 are the first piece. -/
theorem cat2_0 (k : Fin 64) :
    concatenate ⟨2, ![50000, 128]⟩ 1 [⟨⟨2, ![50000, 64]⟩, x0⟩, ⟨⟨2, ![50000, 64]⟩, x1⟩] h (ix2 r ⟨k.val, by omega⟩) = x0 (ix2 r k) := by
  refine concatenate_apply_piece (t := ⟨2, ![50000, 128]⟩) 1 [⟨⟨2, ![50000, 64]⟩, x0⟩, ⟨⟨2, ![50000, 64]⟩, x1⟩] h _ 0 (by simp) _ x0 rfl rfl 0 rfl (ix2 r k) ?_ ?_
  · intro b hb
    match b with
    | ⟨0, _⟩ => rfl
    | ⟨1, _⟩ => exact absurd rfl hb
  · exact Nat.zero_add _

/-- Columns 64 … 127 are the second piece. -/
theorem cat2_1 (k : Fin 64) :
    concatenate ⟨2, ![50000, 128]⟩ 1 [⟨⟨2, ![50000, 64]⟩, x0⟩, ⟨⟨2, ![50000, 64]⟩, x1⟩] h (ix2 r ⟨64 + k.val, by omega⟩) = x1 (ix2 r k) := by
  refine concatenate_apply_piece (t := ⟨2, ![50000, 128]⟩) 1 [⟨⟨2, ![50000, 64]⟩, x0⟩, ⟨⟨2, ![50000, 64]⟩, x1⟩] h _ 1 (by simp) _ x1 rfl rfl 64 rfl (ix2 r k) ?_ ?_
  · intro b hb
    match b with
    | ⟨0, _⟩ => rfl
    | ⟨1, _⟩ => exact absurd rfl hb
  · rfl

end Cat2

end Cert.CatIx
-- ==== Proof.L2Pre.lean ====
/-
  The second layer's first matrix product, with the weight folded or the input differenced.

  A row  [x | y | p | q]  (widths 64, 64, 2, 64) times the stacked weight  [a − b ; b ; c ; d]  — a, b, c, d the
  row blocks 0:64, 64:128, 128:130, 130:194 of a 194 × 128 matrix w — equals the row  [x | y − x | p | q]  times w
  itself, entry by entry, when x, y and w hold reals: the two dot products split into the four blocks, and
  x·(a − b) + y·b = x·a + (y − x)·b  on the first two.
-/
import proofs.«160275_j16484084483095_2_alg».proof.Proof.Fold
import proofs.«160275_j16484084483095_2_alg».proof.Proof.CatIx
import Idealize.ShloMosaic.Lib.ValueIdx

noncomputable section

open scoped BigOperators

namespace Cert.L2Pre

open Idealize.ShloMosaic Idealize.ShloMosaic.ValueIdx

theorem pre_sum
    (xr xc cr : (⟨2, ![800000, 64]⟩ : Shape).Idx → EReal) (pd : (⟨2, ![800000, 2]⟩ : Shape).Idx → EReal)
    (w : (⟨2, ![194, 128]⟩ : Shape).Idx → EReal)
    (hc hc' : Shape.Concatenates [⟨2, ![800000, 64]⟩, ⟨2, ![800000, 64]⟩, ⟨2, ![800000, 2]⟩, ⟨2, ![800000, 64]⟩] ⟨2, ![800000, 194]⟩ 1)
    (hst : Shape.Concatenates [⟨2, ![64, 128]⟩, ⟨2, ![64, 128]⟩, ⟨2, ![2, 128]⟩, ⟨2, ![64, 128]⟩] ⟨2, ![194, 128]⟩ 0)
    (h0 : (⟨2, ![194, 128]⟩ : Shape).Slices ![0, 0] ⟨2, ![64, 128]⟩)
    (h64 : (⟨2, ![194, 128]⟩ : Shape).Slices ![64, 0] ⟨2, ![64, 128]⟩)
    (h128 : (⟨2, ![194, 128]⟩ : Shape).Slices ![128, 0] ⟨2, ![2, 128]⟩)
    (h130 : (⟨2, ![194, 128]⟩ : Shape).Slices ![130, 0] ⟨2, ![64, 128]⟩)
    (fxr : ∀ i, ∃ a : ℝ, xr i = (a : EReal)) (fxc : ∀ i, ∃ a : ℝ, xc i = (a : EReal))
    (fw : ∀ i, ∃ a : ℝ, w i = (a : EReal)) (e : Fin 800000) (h : Fin 128) :
    ∑ k : Fin 194,
        concatenate ⟨2, ![800000, 194]⟩ 1
            [⟨⟨2, ![800000, 64]⟩, xr⟩, ⟨⟨2, ![800000, 64]⟩, xc⟩, ⟨⟨2, ![800000, 2]⟩, pd⟩, ⟨⟨2, ![800000, 64]⟩, cr⟩] hc (ix2 e k)
          * concatenate ⟨2, ![194, 128]⟩ 0
            [⟨⟨2, ![64, 128]⟩, fun i => extractStridedSlice ⟨2, ![64, 128]⟩ ![0, 0] w h0 i - extractStridedSlice ⟨2, ![64, 128]⟩ ![64, 0] w h64 i⟩,
             ⟨⟨2, ![64, 128]⟩, extractStridedSlice ⟨2, ![64, 128]⟩ ![64, 0] w h64⟩,
             ⟨⟨2, ![2, 128]⟩, extractStridedSlice ⟨2, ![2, 128]⟩ ![128, 0] w h128⟩,
             ⟨⟨2, ![64, 128]⟩, extractStridedSlice ⟨2, ![64, 128]⟩ ![130, 0] w h130⟩] hst (ix2 k h)
      = ∑ k : Fin 194,
        concatenate ⟨2, ![800000, 194]⟩ 1
            [⟨⟨2, ![800000, 64]⟩, xr⟩, ⟨⟨2, ![800000, 64]⟩, fun i => xc i - xr i⟩, ⟨⟨2, ![800000, 2]⟩, pd⟩, ⟨⟨2, ![800000, 64]⟩, cr⟩] hc' (ix2 e k)
          * w (ix2 k h) := by
  choose xrR hxr using fxr
  choose xcR hxc using fxc
  choose wR hw using fw
  refine Cert.Fold.fold_sum (fun k => xrR (ix2 e k)) (fun k => xcR (ix2 e k))
    (fun k => wR (ix2 ⟨k.val, by omega⟩ h)) (fun k => wR (ix2 ⟨64 + k.val, by omega⟩ h))
    (fun k => pd (ix2 e k)) (fun k => w (ix2 ⟨128 + k.val, by omega⟩ h))
    (fun k => cr (ix2 e k)) (fun k => w (ix2 ⟨130 + k.val, by omega⟩ h)) _ _ _ _
    ?_ ?_ ?_ ?_ ?_ ?_ ?_ ?_ ?_ ?_ ?_ ?_ ?_ ?_ ?_ ?_
  -- the row  [x | y | p | q]  on its four ranges
  · intro k; exact (Cert.CatIx.cat4_0 _ _ _ _ hc e k).trans (hxr _)
  · intro k; exact (Cert.CatIx.cat4_1 _ _ _ _ hc e k).trans (hxc _)
  · intro k; exact Cert.CatIx.cat4_2 _ _ _ _ hc e k
  · intro k; exact Cert.CatIx.cat4_3 _ _ _ _ hc e k
  -- the stacked weight  [a − b ; b ; c ; d]  on its four ranges
  · intro k
    refine (Cert.CatIx.stack4_0 _ _ _ _ hst h k).trans ?_
    show extractStridedSlice _ _ w h0 (ix2 k h) - extractStridedSlice _ _ w h64 (ix2 k h) = _
    rw [Cert.CatIx.slice_0 w h h0 k, Cert.CatIx.slice_64 w h h64 k, hw, hw]
  · intro k
    refine (Cert.CatIx.stack4_1 _ _ _ _ hst h k).trans ?_
    rw [Cert.CatIx.slice_64 w h h64 k, hw]
  · intro k
    refine (Cert.CatIx.stack4_2 _ _ _ _ hst h k).trans ?_
    rw [Cert.CatIx.slice_128 w h h128 k]
  · intro k
    refine (Cert.CatIx.stack4_3 _ _ _ _ hst h k).trans ?_
    rw [Cert.CatIx.slice_130 w h h130 k]
  -- the row  [x | y − x | p | q]  on its four ranges
  · intro k; exact (Cert.CatIx.cat4_0 _ _ _ _ hc' e k).trans (hxr _)
  · intro k
    refine (Cert.CatIx.cat4_1 _ _ _ _ hc' e k).trans ?_
    show xc (ix2 e k) - xr (ix2 e k) = _
    rw [hxr, hxc]
  · intro k; exact Cert.CatIx.cat4_2 _ _ _ _ hc' e k
  · intro k; exact Cert.CatIx.cat4_3 _ _ _ _ hc' e k
  -- the weight itself on its four ranges
  · intro k; exact hw _
  · intro k; exact hw _
  · intro k; rfl
  · intro k; rfl

end Cert.L2Pre

end
-- ==== Proof.Bridge2.lean ====
/-
  The second layer's message perceptron: the kernel's form and the reference's agree as whole arrays.

  The kernel multiplies the row  [x_i | x_j | p | q]  by the weight with its second row block folded into the first,
  the reference the row  [x_i | x_j − x_i | p | q]  by the weight itself. The first layer's pre-activations are equal
  entry by entry when the gathered features and the weight hold reals; everything after the first matrix product is
  the same function on both sides.
-/
import proofs.«160275_j16484084483095_2_alg».proof.Proof.KI.Final2
import proofs.«160275_j16484084483095_2_alg».proof.Proof.RefMlpIx
import proofs.«160275_j16484084483095_2_alg».proof.Proof.L2Pre
import proofs.«160275_j16484084483095_2_alg».proof.Proof.Spec
import Idealize.ShloMosaic.Lib.ValueLayout

noncomputable section

open scoped BigOperators

namespace Cert.Bridge

open Idealize.ShloMosaic Idealize.ShloMosaic.ValueIdx
open Cert.KernelIdeal Cert.KernelIdeal.Gen Cert.ReferenceIdeal.MlpIx

/-- Two perceptrons agree at an entry when their first layers' pre-activations agree on that row, and the rest of
    their data agree where the entry reads them. The inputs' widths may differ. -/
theorem mlp_congr_pre {M M' K K' H N : ℕ} (X : Fin M → Fin K → EReal) (X' : Fin M' → Fin K' → EReal)
    (W1 : Fin K → Fin H → EReal) (W1' : Fin K' → Fin H → EReal) (b1 b1' : Fin H → EReal)
    (W2 W2' : Fin H → Fin N → EReal) (b2 b2' : Fin N → EReal) (r : Fin M) (r' : Fin M') (c c' : Fin N)
    (hpre : ∀ h, ∑ k : Fin K, X r k * W1 k h = ∑ k : Fin K', X' r' k * W1' k h) (hb1 : ∀ h, b1 h = b1' h)
    (hW2 : ∀ h, W2 h c = W2' h c') (hb2 : b2 c = b2' c') :
    Cert.Mlp.mlp X W1 b1 W2 b2 r c = Cert.Mlp.mlp X' W1' b1' W2' b2' r' c' := by
  unfold Cert.Mlp.mlp Cert.Mlp.hid
  simp only [hpre, hb1, hW2, hb2]

/-- The second layer's messages: folded weight against the plain row, plain weight against the differenced row. -/
theorem b2 (xr xc cr : S800000x64.Idx → EReal) (pd : S800000x2.Idx → EReal) (a11 : FVec Ideal S194x128 .f32)
    (a12 : FVec Ideal S128 .f32) (a13 : FVec Ideal S128x64 .f32) (a14 : FVec Ideal S64 .f32)
    (fxr : ∀ i, ∃ a : ℝ, xr i = (a : EReal)) (fxc : ∀ i, ∃ a : ℝ, xc i = (a : EReal))
    (fw : ∀ i, ∃ a : ℝ, a11 i = (a : EReal)) :
    Cert.KernelIdeal.Hand.G2
        (concatenate S800000x194 1 [⟨S800000x64, xr⟩, ⟨S800000x64, xc⟩, ⟨S800000x2, pd⟩, ⟨S800000x64, cr⟩]
          concatenates_S800000x64_S800000x64_S800000x2_S800000x64_S800000x194_d1)
        (concatenate S194x128 0
          [⟨S64x128, fun i => extractStridedSlice S64x128 ![0, 0] a11 slices_S194x128_S64x128_0_0 i
              - extractStridedSlice S64x128 ![64, 0] a11 slices_S194x128_S64x128_64_0 i⟩,
           ⟨S64x128, extractStridedSlice S64x128 ![64, 0] a11 slices_S194x128_S64x128_64_0⟩,
           ⟨S2x128, extractStridedSlice S2x128 ![128, 0] a11 slices_S194x128_S2x128_128_0⟩,
           ⟨S64x128, extractStridedSlice S64x128 ![130, 0] a11 slices_S194x128_S64x128_130_0⟩]
          concatenates_S64x128_S64x128_S2x128_S64x128_S194x128_d0)
        (shapeCast S1x128 a12 shapeCasts_S128_S1x128) a13 (shapeCast S1x64 a14 shapeCasts_S64_S1x64)
      = refC (concatenate S800000x194 1 [⟨S800000x64, xr⟩, ⟨S800000x64, fun i => xc i - xr i⟩, ⟨S800000x2, pd⟩, ⟨S800000x64, cr⟩]
          concatenates_S800000x64_S800000x64_S800000x2_S800000x64_S800000x194_d1) a11 a12 a13 a14 := by
  funext i
  obtain ⟨e, q, rfl⟩ : ∃ (e : Fin 800000) (q : Fin 64), i = ix2 e q := ⟨i 0, i 1, eq_ix2 i⟩
  refine Eq.trans ?_ (refC_ix _ _ _ _ _ e q).symm
  unfold Cert.KernelIdeal.Hand.G2
  refine mlp_congr_pre _ _ _ _ _ _ _ _ _ _ _ e _ q (fun h => ?_) (fun h => ?_) (fun h => rfl) ?_
  · exact Cert.L2Pre.pre_sum xr xc cr pd a11 _ _ _ _ _ _ _ fxr fxc fw e h
  · exact shapeCast_a_1a_apply a12 shapeCasts_S128_S1x128 0 h
  · exact shapeCast_a_1a_apply a14 shapeCasts_S64_S1x64 0 q

end Cert.Bridge

end
-- ==== Proof.GatherReal.lean ====
/-
  A gather of rows keeps entries real.

  Every entry of a gather is the operand's entry at some index — whichever row the start index selects —, so when all
  of the operand's entries are reals, so are all of the gather's.
-/
import proofs.«160275_j16484084483095_2_alg».proof.Proof.Gen.KernelIdeal
import Idealize.ShloMosaic.Lib.ValueIdx

namespace Cert.KernelIdeal.GatherReal

open Idealize.ShloMosaic Cert.KernelIdeal

/-- A gather of a matrix of reals holds reals. -/
theorem gather_real {φ : FTy} (x : FVec Ideal S50000x64 φ) (idx : IVec S800000x1 32)
    (hx : ∀ i, ∃ a : ℝ, x i = (a : EReal)) :
    ∀ i, ∃ a : ℝ, Host.gather gather_S50000x64_S800000x1_S800000x64_1_0_n_n_0_1_164 x idx i = (a : EReal) :=
  fun i => hx (gather_S50000x64_S800000x1_S800000x64_1_0_n_n_0_1_164.operandIdx i idx)

/-- The same for any gather: each entry is one of the operand's. -/
theorem gather_real_gen {s si t : Shape} {w : Nat} (d : GatherDims s si t) (x : s.Idx → EReal) (idx : IVec si w)
    (hx : ∀ i, ∃ a : ℝ, x i = (a : EReal)) : ∀ i, ∃ a : ℝ, Host.gather d x idx i = (a : EReal) :=
  fun i => hx (d.operandIdx i idx)

end Cert.KernelIdeal.GatherReal
-- ==== Proof.Bridge.lean ====
/-
  The kernel's result and the reference's result are one function of the argument arrays.

  Layer by layer: the first message perceptron (the kernel takes the position differences transposed, the reference as
  they are), the context perceptron, the second message perceptron (the kernel folds the weight, the reference
  differences the features: equal where the node features and that weight hold reals), and the output perceptron; the
  gathers along edges and the per-node means between them are the same operations on both sides, and a change of float
  format is the identity on the extended reals.
-/
import proofs.«160275_j16484084483095_2_alg».proof.Proof.KI.Compose
import proofs.«160275_j16484084483095_2_alg».proof.Proof.RefValue
import proofs.«160275_j16484084483095_2_alg».proof.Proof.Bridge013
import proofs.«160275_j16484084483095_2_alg».proof.Proof.Bridge2
import proofs.«160275_j16484084483095_2_alg».proof.Proof.GatherReal

noncomputable section

namespace Cert.Bridge

open Idealize.ShloMosaic Idealize.ShloMosaic.ValueIdx
open Cert.KernelIdeal Cert.KernelIdeal.Gen Cert.KernelIdeal.Terms Cert.KernelIdeal.Value Cert.ReferenceIdeal.MlpIx Cert.RefValue

/-- A change of float format keeps every entry, so it keeps "every entry is a real". -/
theorem real_truncf {s : Shape} (x : FVec Ideal s .f32) (hx : ∀ i, ∃ a : ℝ, x i = (a : EReal)) :
    ∀ i, ∃ a : ℝ, (truncf (F := Ideal) .bf16 x bitsLt_bf16_f32 : FVec Ideal s .bf16) i = (a : EReal) := hx

theorem bridge (a0 : FVec Ideal S50000x64 .f32) (a1 : FVec Ideal S50000x2 .f32) (a2 : IVec S2x800000 32)
    (a3 : FVec Ideal S2x128 .f32) (a4 : FVec Ideal S128 .f32) (a5 : FVec Ideal S128x64 .f32) (a6 : FVec Ideal S64 .f32)
    (a7 : FVec Ideal S64x128 .f32) (a8 : FVec Ideal S128 .f32) (a9 : FVec Ideal S128x64 .f32) (a10 : FVec Ideal S64 .f32)
    (a11 : FVec Ideal S194x128 .f32) (a12 : FVec Ideal S128 .f32) (a13 : FVec Ideal S128x64 .f32) (a14 : FVec Ideal S64 .f32)
    (a15 : FVec Ideal S128x128 .f32) (a16 : FVec Ideal S128 .f32) (a17 : FVec Ideal S128x64 .f32) (a18 : FVec Ideal S64 .f32)
    (f0 : ∀ i, ∃ a : ℝ, a0 i = (a : EReal)) (f11 : ∀ i, ∃ a : ℝ, a11 i = (a : EReal)) :
    outK (finK a0 a2 (m2K (catK a0 a1 a2 (ctxK (m1K a1 a2 a3 a4 a5 a6) a2 a7 a8 a9 a10)) a11 a12 a13 a14)) a15 a16 a17 a18
      = outR (finR a0 a2 (m2R (catR a0 a1 a2 (ctxR (m1R a1 a2 a3 a4 a5 a6) a2 a7 a8 a9 a10)) a11 a12 a13 a14)) a15 a16 a17 a18 := by
  have h1 : m1K a1 a2 a3 a4 a5 a6 = m1R a1 a2 a3 a4 a5 a6 := b0 a1 a2 a3 a4 a5 a6
  have h2 : ∀ m1, ctxK m1 a2 a7 a8 a9 a10 = ctxR m1 a2 a7 a8 a9 a10 := fun m1 =>
    b1 (segMeanT (rowT a2) (cntT a2) m1) a7 a8 a9 a10
  have h3 : ∀ ctx, m2K (catK a0 a1 a2 ctx) a11 a12 a13 a14 = m2R (catR a0 a1 a2 ctx) a11 a12 a13 a14 := fun ctx =>
    b2 (Host.gather gather_S50000x64_S800000x1_S800000x64_1_0_n_n_0_1_164 (truncf (F := Ideal) .bf16 a0 bitsLt_bf16_f32) (nrmT (rowT a2)))
      (Host.gather gather_S50000x64_S800000x1_S800000x64_1_0_n_n_0_1_164 (truncf (F := Ideal) .bf16 a0 bitsLt_bf16_f32) (nrmT (colT a2)))
      (Host.gather gather_S50000x64_S800000x1_S800000x64_1_0_n_n_0_1_164 (truncf (F := Ideal) .bf16 ctx bitsLt_bf16_f32) (nrmT (rowT a2)))
      (truncf (F := Ideal) .bf16 (pdiffT a1 a2) bitsLt_bf16_f32) a11 a12 a13 a14
      (Cert.KernelIdeal.GatherReal.gather_real _ _ (real_truncf a0 f0))
      (Cert.KernelIdeal.GatherReal.gather_real _ _ (real_truncf a0 f0)) f11
  have h4 : ∀ m2, outK (finK a0 a2 m2) a15 a16 a17 a18 = outR (finR a0 a2 m2) a15 a16 a17 a18 := fun m2 =>
    b3 a0 (segMeanT (rowT a2) (cntT a2) m2) a15 a16 a17 a18
  rw [h1, h2, h3, h4]

end Cert.Bridge

end
-- ==== Proof.Finite.lean ====
/-
  From the printed precondition to "every entry is a real".

  The precondition is a conjunction, over the float arguments, of  all(|x| < +∞).  At the extended reals |x| is
  max x (−x), which is +∞ at both infinities, so |x| < +∞ holds exactly when x is a real.  The conjunction is read
  at its one index, split, and the conjuncts of the node features (argument 0) and of the second layer's first weight
  (argument 11) are read back entry by entry.
-/
import proofs.«160275_j16484084483095_2_alg».proof.Pre_finite_inputs
import proofs.«160275_j16484084483095_2_alg».proof.Proof.Gen.Pre_finite_inputs
import Idealize.ShloMosaic.Lib.ReduceAll
import Idealize.ShloMosaic.Lib.ValueIdx

namespace Cert.Finite

open Idealize.ShloMosaic Idealize.ShloMosaic.ValueIdx Cert.Pre_finite_inputs

/-- The shape without axes has one index. -/
instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value is below +∞ is a real. -/
theorem real_of_abs_lt (x : EReal) (h : max x (-x) < (⊤ : EReal)) : ∃ a : ℝ, x = (a : EReal) := by
  induction x using EReal.rec with
  | bot => exact absurd h (by simp)
  | coe a => exact ⟨a, rfl⟩
  | top => exact absurd h (by simp)

/-- A truth value printed as a one-bit word is 1 exactly when it is true. -/
theorem ofBool_one {b : Bool} : BitVec.ofBool b = 1#1 ↔ b = true := by cases b <;> decide

/-- One conjunct: all(|x| < +∞), read back at an entry. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) :
    ∀ i, ∃ a : ℝ, x i = (a : EReal) := by
  intro i
  have h1 := Host.reduce_andi_all _ _ hr hu ix0 e i
  have h2 : BitVec.ofBool (decide (max (x i) (-(x i)) < Ideal.ofBits .f32 0x7F800000#32)) = 1#1 := h1
  rw [inf_word, ofBool_one, decide_eq_true_eq] at h2
  exact real_of_abs_lt (x i) h2

/-- The conjunction at its one index, entry by entry. -/
theorem andi_apply (a b : IVec S_ 1) (i : S_.Idx) : andi a b i = IntOp.andi (a i) (b i) := rfl

/-- Under the precondition the node features and the second layer's first weight hold reals. -/
theorem real_of_pre (x0 : FVec Ideal S50000x64 .f32) (x1 : FVec Ideal S50000x2 .f32) (x2 : IVec S2x800000 32) (x3 : FVec Ideal S2x128 .f32) (x4 : FVec Ideal S128 .f32) (x5 : FVec Ideal S128x64 .f32) (x6 : FVec Ideal S64 .f32) (x7 : FVec Ideal S64x128 .f32) (x8 : FVec Ideal S128 .f32) (x9 : FVec Ideal S128x64 .f32) (x10 : FVec Ideal S64 .f32) (x11 : FVec Ideal S194x128 .f32) (x12 : FVec Ideal S128 .f32) (x13 : FVec Ideal S128x64 .f32) (x14 : FVec Ideal S64 .f32) (x15 : FVec Ideal S128x128 .f32) (x16 : FVec Ideal S128 .f32) (x17 : FVec Ideal S128x64 .f32) (x18 : FVec Ideal S64 .f32)
    (h : Cert.Pre_finite_inputs.fn (F := Ideal) x0 x1 x2 x3 x4 x5 x6 x7 x8 x9 x10 x11 x12 x13 x14 x15 x16 x17 x18 = fun _ => 1#1) :
    (∀ i, ∃ a : ℝ, x0 i = (a : EReal)) ∧ (∀ i, ∃ a : ℝ, x11 i = (a : EReal)) := by
  have h0 := congrFun h ix0
  simp only [fn, fn_part1, fn_part2, fn_part3, fn_part4, fn_part5, andi_apply, IntOp.andi_eq_one] at h0
  obtain ⟨⟨⟨⟨⟨⟨⟨⟨⟨⟨⟨⟨⟨⟨⟨⟨⟨e0, e1⟩, e3⟩, e4⟩, e5⟩, e6⟩, e7⟩, e8⟩, e9⟩, e10⟩, e11⟩, e12⟩, e13⟩, e14⟩, e15⟩, e16⟩, e17⟩, e18⟩ := h0
  exact ⟨all_real x0 _ _ _ e0, all_real x11 _ _ _ e11⟩

end Cert.Finite
-- ==== Proof.lean ====
/-
  A two-layer graph network — per edge a message perceptron, per node the mean of the received messages and a
  second perceptron, twice — as four pipelined perceptron regions with host gathers and scatter-adds between them,
  against the same network written with host matrix products.

  Frames: each program runs to the end, faults nowhere and leaves its argument arrays as launched. For the two kernel
  programs this is the run of their four regions over the library's launch theorems: in every region the body loads its
  five input blocks whole, computes, and stores the output block whole; between regions the host operations act on the
  buffers' contents. For the reference it is its run with the result dropped.

  Value: at the ideal instance each region's output array is the perceptron of the arrays it reads, entry by entry
  (a row of the result reads that row of the input only, so the row blocks assemble to one whole-array function), the
  reference's matrix products are the same perceptrons, a change of float format is the identity, and the gathers and
  per-node means are the same operations on both sides. The one algebraic difference is in the second message
  perceptron, where the kernel multiplies the gathered row by a weight with one row block subtracted into another
  and the reference subtracts the gathered features instead: equal on the extended reals because the node features
  and that weight hold reals, which is what the precondition says.
-/
import proofs.«160275_j16484084483095_2_alg».proof.Defs
import proofs.«160275_j16484084483095_2_alg».proof.Proof.Gen.Kernel
import proofs.«160275_j16484084483095_2_alg».proof.Proof.Gen.KernelIdeal
import proofs.«160275_j16484084483095_2_alg».proof.Proof.Gen.ReferenceIdeal
import proofs.«160275_j16484084483095_2_alg».proof.Proof.Gen.ReferenceIdeal.Run
import proofs.«160275_j16484084483095_2_alg».proof.Proof.Gen.Pre_finite_inputs
import proofs.«160275_j16484084483095_2_alg».proof.Proof.K.Run
import proofs.«160275_j16484084483095_2_alg».proof.Proof.KI.Run
import proofs.«160275_j16484084483095_2_alg».proof.Proof.KI.Value
import proofs.«160275_j16484084483095_2_alg».proof.Proof.RefValue
import proofs.«160275_j16484084483095_2_alg».proof.Proof.Bridge
import proofs.«160275_j16484084483095_2_alg».proof.Proof.Finite

noncomputable section

namespace Cert.Proof

open Idealize.ShloMosaic Idealize.SL.Sem

/-- The word-level kernel program runs and keeps its arguments. -/
theorem frame_k : Cert.frame_Kernel := fun m ρ _ =>
  (θ_run Cert.Kernel.defs _ _).mono (fun _ h c => (h c).2) (Cert.Kernel.Hand.run (F := Bits) m ρ)

/-- The idealized kernel program runs and keeps its arguments. -/
theorem frame_ki : Cert.frame_KernelIdeal := fun m ρ _ =>
  (θ_run Cert.KernelIdeal.defs _ _).mono (fun _ h c => (h c).2) (Cert.KernelIdeal.Hand.run (F := Ideal) m ρ)

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

set_option maxHeartbeats 8000000 in
/-- From memories that agree on the arguments, both idealized programs end with the same result array. -/
theorem algebraic : Cert.algebraic_KernelIdeal_ReferenceIdeal := by
  intro m ρ m' ρ' hpre hagree
  refine ⟨fun c => (Cert.KernelIdeal.Value.outK (Cert.KernelIdeal.Value.finK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (Cert.KernelIdeal.Value.m2K (Cert.KernelIdeal.Value.catK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Value.ctxK (Cert.KernelIdeal.Value.m1K (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))), ?_, ?_⟩
  · refine (θ_run Cert.KernelIdeal.defs _ _).mono (fun r h c => ⟨(h c).1.trans ?_, (h c).2⟩)
      (Cert.KernelIdeal.Hand.run (F := Ideal) m ρ)
    exact Cert.KernelIdeal.Value.out8_eq m (Cert.KernelIdeal.Hand.outs m) c (Cert.KernelIdeal.Hand.outs_2 m c)
      (Cert.KernelIdeal.Hand.outs_4 m c) (Cert.KernelIdeal.Hand.outs_6 m c) (Cert.KernelIdeal.Hand.outs_8 m c)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18⟩ := hagree c
    obtain ⟨f0, f11⟩ := Cert.Finite.real_of_pre _ _ _ _ _ _ _ _ _ _ _ _ _ _ _ _ _ _ _ (hpre c)
    rw [Cert.RefValue.res_eq, e0, e1, e2, e3, e4, e5, e6, e7, e8, e9, e10, e11, e12, e13, e14, e15, e16, e17, e18]
    exact (Cert.Bridge.bridge _ _ _ _ _ _ _ _ _ _ _ _ _ _ _ _ _ _ _ f0 f11).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
